-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v157)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v157) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v202) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S3x64x64 : Shape := ⟨3, ![3, 64, 64]⟩
abbrev S3x64 : Shape := ⟨2, ![3, 64]⟩
abbrev S64x1 : Shape := ⟨2, ![64, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S64x1 .f32) (main_arg10 : FVec F S1 .f32) (main_v33 : IVec S_ 1) : IVec S_ 1 :=
  let main_v34 : FVec F S64x1 .f32 := Host.absf main_arg9
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S3x64 .f32) (main_arg7 : FVec F S3x64 .f32) (main_arg8 : FVec F S3x64 .f32) (main_arg9 : FVec F S64x1 .f32) (main_arg10 : FVec F S1 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64 .f32 := Host.absf main_arg7
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg9 main_arg10 main_v33

def fn {F : FTy → Type} [FloatOps F] (main_arg0 : FVec F S50000x64 .f32) (main_arg1 : IVec S2x800000 32) (main_arg2 : IVec S50000 32) (main_arg3 : FVec F S3x64x64 .f32) (main_arg4 : FVec F S3x64 .f32) (main_arg5 : FVec F S3x64x64 .f32) (main_arg6 : FVec F S3x64 .f32) (main_arg7 : FVec F S3x64 .f32) (main_arg8 : FVec F S3x64 .f32) (main_arg9 : FVec F S64x1 .f32) (main_arg10 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S3x64x64 .f32 := Host.absf main_arg3
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg4
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64x64 .f32 := Host.absf main_arg5
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg6 main_arg7 main_arg8 main_arg9 main_arg10 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S3x64x64 : Shape := ⟨3, ![3, 64, 64]⟩
abbrev S3x64 : Shape := ⟨2, ![3, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S64 : Shape := ⟨1, ![64]⟩
abbrev S1x64x64 : Shape := ⟨3, ![1, 64, 64]⟩
abbrev S64x64 : Shape := ⟨2, ![64, 64]⟩
abbrev S5000x64 : Shape := ⟨2, ![5000, 64]⟩
abbrev S256x64 : Shape := ⟨2, ![256, 64]⟩
abbrev S50000x1 : Shape := ⟨2, ![50000, 1]⟩
abbrev S256x1 : Shape := ⟨2, ![256, 1]⟩
abbrev S1x1 : Shape := ⟨2, ![1, 1]⟩

abbrev nBuf : Space → Nat
  | .hbm => 200
  | .vmem => 48
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S3x64x64, .f32⟩
  | 4 => ⟨S3x64, .f32⟩
  | 5 => ⟨S3x64x64, .f32⟩
  | 6 => ⟨S3x64, .f32⟩
  | 7 => ⟨S3x64, .f32⟩
  | 8 => ⟨S3x64, .f32⟩
  | 9 => ⟨S64x1, .f32⟩
  | 10 => ⟨S1, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S50000x64, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x64, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S50000x64, .f32⟩
  | 35 => ⟨S1x64, .f32⟩
  | 36 => ⟨S64, .f32⟩
  | 37 => ⟨S1x64, .f32⟩
  | 38 => ⟨S1x64, .f32⟩
  | 39 => ⟨S64, .f32⟩
  | 40 => ⟨S1x64, .f32⟩
  | 41 => ⟨S1x64x64, .f32⟩
  | 42 => ⟨S64x64, .f32⟩
  | 43 => ⟨S1x64x64, .f32⟩
  | 44 => ⟨S64x64, .f32⟩
  | 45 => ⟨S50000x64, .f32⟩
  | 46 => ⟨S_, .f32⟩
  | 47 => ⟨S64, .f32⟩
  | 48 => ⟨S_, .f32⟩
  | 49 => ⟨S64, .f32⟩
  | 50 => ⟨S64, .f32⟩
  | 51 => ⟨S1x64, .f32⟩
  | 52 => ⟨S50000x64, .f32⟩
  | 53 => ⟨S50000x64, .f32⟩
  | 54 => ⟨S50000x64, .f32⟩
  | 55 => ⟨S_, .f32⟩
  | 56 => ⟨S64, .f32⟩
  | 57 => ⟨S_, .f32⟩
  | 58 => ⟨S64, .f32⟩
  | 59 => ⟨S64, .f32⟩
  | 60 => ⟨S1x64, .f32⟩
  | 61 => ⟨S64, .f32⟩
  | 62 => ⟨S_, .f32⟩
  | 63 => ⟨S64, .f32⟩
  | 64 => ⟨S64, .f32⟩
  | 65 => ⟨S64, .f32⟩
  | 66 => ⟨S64, .f32⟩
  | 67 => ⟨S1x64, .f32⟩
  | 68 => ⟨S64, .f32⟩
  | 69 => ⟨S64, .f32⟩
  | 70 => ⟨S64, .f32⟩
  | 71 => ⟨S1x64, .f32⟩
  | 72 => ⟨S1x64, .f32⟩
  | 73 => ⟨S50000x64, .f32⟩
  | 74 => ⟨S_, .f32⟩
  | 75 => ⟨S50000x64, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x64, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S50000x64, .f32⟩
  | 94 => ⟨S1x64, .f32⟩
  | 95 => ⟨S64, .f32⟩
  | 96 => ⟨S1x64, .f32⟩
  | 97 => ⟨S1x64, .f32⟩
  | 98 => ⟨S64, .f32⟩
  | 99 => ⟨S1x64, .f32⟩
  | 100 => ⟨S1x64x64, .f32⟩
  | 101 => ⟨S64x64, .f32⟩
  | 102 => ⟨S1x64x64, .f32⟩
  | 103 => ⟨S64x64, .f32⟩
  | 104 => ⟨S50000x64, .f32⟩
  | 105 => ⟨S_, .f32⟩
  | 106 => ⟨S64, .f32⟩
  | 107 => ⟨S_, .f32⟩
  | 108 => ⟨S64, .f32⟩
  | 109 => ⟨S64, .f32⟩
  | 110 => ⟨S1x64, .f32⟩
  | 111 => ⟨S50000x64, .f32⟩
  | 112 => ⟨S50000x64, .f32⟩
  | 113 => ⟨S50000x64, .f32⟩
  | 114 => ⟨S_, .f32⟩
  | 115 => ⟨S64, .f32⟩
  | 116 => ⟨S_, .f32⟩
  | 117 => ⟨S64, .f32⟩
  | 118 => ⟨S64, .f32⟩
  | 119 => ⟨S1x64, .f32⟩
  | 120 => ⟨S64, .f32⟩
  | 121 => ⟨S_, .f32⟩
  | 122 => ⟨S64, .f32⟩
  | 123 => ⟨S64, .f32⟩
  | 124 => ⟨S64, .f32⟩
  | 125 => ⟨S64, .f32⟩
  | 126 => ⟨S1x64, .f32⟩
  | 127 => ⟨S64, .f32⟩
  | _ => ⟨S50000x64, .f32⟩

abbrev hbmTy0_1 (i : Nat) : BufTy := match i % 128 with
  | 0 => ⟨S64, .f32⟩
  | 1 => ⟨S64, .f32⟩
  | 2 => ⟨S1x64, .f32⟩
  | 3 => ⟨S1x64, .f32⟩
  | 4 => ⟨S50000x64, .f32⟩
  | 5 => ⟨S_, .f32⟩
  | 6 => ⟨S50000x64, .f32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000x64, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S50000x64, .f32⟩
  | 25 => ⟨S1x64, .f32⟩
  | 26 => ⟨S64, .f32⟩
  | 27 => ⟨S1x64, .f32⟩
  | 28 => ⟨S1x64, .f32⟩
  | 29 => ⟨S64, .f32⟩
  | 30 => ⟨S1x64, .f32⟩
  | 31 => ⟨S1x64x64, .f32⟩
  | 32 => ⟨S64x64, .f32⟩
  | 33 => ⟨S1x64x64, .f32⟩
  | 34 => ⟨S64x64, .f32⟩
  | 35 => ⟨S50000x64, .f32⟩
  | 36 => ⟨S_, .f32⟩
  | 37 => ⟨S64, .f32⟩
  | 38 => ⟨S_, .f32⟩
  | 39 => ⟨S64, .f32⟩
  | 40 => ⟨S64, .f32⟩
  | 41 => ⟨S1x64, .f32⟩
  | 42 => ⟨S50000x64, .f32⟩
  | 43 => ⟨S50000x64, .f32⟩
  | 44 => ⟨S50000x64, .f32⟩
  | 45 => ⟨S_, .f32⟩
  | 46 => ⟨S64, .f32⟩
  | 47 => ⟨S_, .f32⟩
  | 48 => ⟨S64, .f32⟩
  | 49 => ⟨S64, .f32⟩
  | 50 => ⟨S1x64, .f32⟩
  | 51 => ⟨S64, .f32⟩
  | 52 => ⟨S_, .f32⟩
  | 53 => ⟨S64, .f32⟩
  | 54 => ⟨S64, .f32⟩
  | 55 => ⟨S64, .f32⟩
  | 56 => ⟨S64, .f32⟩
  | 57 => ⟨S1x64, .f32⟩
  | 58 => ⟨S64, .f32⟩
  | 59 => ⟨S64, .f32⟩
  | 60 => ⟨S64, .f32⟩
  | 61 => ⟨S1x64, .f32⟩
  | 62 => ⟨S1x64, .f32⟩
  | 63 => ⟨S50000x64, .f32⟩
  | 64 => ⟨S_, .f32⟩
  | 65 => ⟨S256x64, .f32⟩
  | 66 => ⟨S50000x1, .i32⟩
  | 67 => ⟨S256x64, .f32⟩
  | 68 => ⟨S256x1, .f32⟩
  | 69 => ⟨S1x1, .f32⟩
  | 70 => ⟨S256x1, .f32⟩
  | 71 => ⟨S256x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S1x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x64, .f32⟩
  | .local _ .vmem, ⟨21, _⟩ => ⟨S1x64, .f32⟩
  | .local _ .vmem, ⟨22, _⟩ => ⟨S64x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S1x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S64x64, .f32⟩
  | .local _ .vmem, ⟨37, _⟩ => ⟨S1x64, .f32⟩
  | .local _ .vmem, ⟨38, _⟩ => ⟨S64x64, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S1x64, .f32⟩
  | .local _ .vmem, ⟨45, _⟩ => ⟨S1x64, .f32⟩
  | .local _ .vmem, ⟨46, _⟩ => ⟨S5000x64, .f32⟩
  | .local _ .vmem, ⟨47, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_5 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_8 : Ref sig .tc := ⟨.hbm, 74, rfl⟩
abbrev main_v53 : Ref sig .tc := ⟨.hbm, 75, rfl⟩
abbrev main_c_9 : Ref sig .tc := ⟨.hbm, 76, rfl⟩
abbrev main_v54 : Ref sig .tc := ⟨.hbm, 77, rfl⟩
abbrev main_v55 : Ref sig .tc := ⟨.hbm, 78, rfl⟩
abbrev main_c_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_11 : Ref sig .tc := ⟨.hbm, 85, rfl⟩
abbrev main_v61 : Ref sig .tc := ⟨.hbm, 86, rfl⟩
abbrev main_v62 : Ref sig .tc := ⟨.hbm, 87, rfl⟩
abbrev main_c_12 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_13 : Ref sig .tc := ⟨.hbm, 105, rfl⟩
abbrev main_v79 : Ref sig .tc := ⟨.hbm, 106, rfl⟩
abbrev main_cst_14 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_15 : Ref sig .tc := ⟨.hbm, 114, rfl⟩
abbrev main_v86 : Ref sig .tc := ⟨.hbm, 115, rfl⟩
abbrev main_cst_16 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_17 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_18 : Ref sig .tc := ⟨.hbm, 133, rfl⟩
abbrev main_v102 : Ref sig .tc := ⟨.hbm, 134, rfl⟩
abbrev main_c_19 : Ref sig .tc := ⟨.hbm, 135, rfl⟩
abbrev main_v103 : Ref sig .tc := ⟨.hbm, 136, rfl⟩
abbrev main_v104 : Ref sig .tc := ⟨.hbm, 137, rfl⟩
abbrev main_c_20 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_c_21 : Ref sig .tc := ⟨.hbm, 144, rfl⟩
abbrev main_v110 : Ref sig .tc := ⟨.hbm, 145, rfl⟩
abbrev main_v111 : Ref sig .tc := ⟨.hbm, 146, rfl⟩
abbrev main_c_22 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_cst_23 : Ref sig .tc := ⟨.hbm, 164, rfl⟩
abbrev main_v128 : Ref sig .tc := ⟨.hbm, 165, rfl⟩
abbrev main_cst_24 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_cst_25 : Ref sig .tc := ⟨.hbm, 173, rfl⟩
abbrev main_v135 : Ref sig .tc := ⟨.hbm, 174, rfl⟩
abbrev main_cst_26 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_cst_27 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_cst_28 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg6_0 : Ref sig .tc := ⟨.vmem, 40, rfl⟩
abbrev cc4_stg6_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg3_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem5_0 : DmaSem sig := 39
abbrev cc4_sem6_0 : DmaSem sig := 40
abbrev cc4_sem6_1 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem3_0 : DmaSem sig := 46
abbrev cc5_sem3_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000x64 : S_.BroadcastsInDim S50000x64 (![] : Fin 0 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  slices_S3x64_S1x64_0_0 : S3x64.Slices ![0, 0] S1x64
  shapeCasts_S1x64_S64 : S1x64.ShapeCasts S64
  shapeCasts_S64_S1x64 : S64.ShapeCasts S1x64
  slices_S3x64x64_S1x64x64_0_0_0 : S3x64x64.Slices ![0, 0, 0] S1x64x64
  shapeCasts_S1x64x64_S64x64 : S1x64x64.ShapeCasts S64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reducesTo_S50000x64_S64_d0 : S50000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S3x64_S1x64_1_0 : S3x64.Slices ![1, 0] S1x64
  slices_S3x64x64_S1x64x64_1_0_0 : S3x64x64.Slices ![1, 0, 0] S1x64x64
  slices_S3x64_S1x64_2_0 : S3x64.Slices ![2, 0] S1x64
  slices_S3x64x64_S1x64x64_2_0_0 : S3x64x64.Slices ![2, 0, 0] S1x64x64
  bcast_S_S256x64 : S_.BroadcastsInDim S256x64 (![] : Fin 0 → Fin S256x64.rank)
  bcast_S50000_S50000x1_0 : S50000.BroadcastsInDim S50000x1 (![0] : Fin 1 → Fin S50000x1.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  scatter_S256x64_S50000x1_S50000x64_1_0_0_1_wf : ScatterDims.WF S256x64 S50000x1 S50000x64 [1] [0] [0] 1
  dot_S256x64_S64x1_S256x1_1_0_0_1_n_n_wf : DotDims.WF S256x64 S64x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S50000x64.size a
  hwx4_6 : ∀ i : grid4.Coords, EltTy.bits .f32 = 32 ∨ (Rect.block (s := S50000x64) S5000x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S50000x64.size a
  hwx5_3 : ∀ i : grid5.Coords, EltTy.bits .f32 = 32 ∨ (Rect.block (s := S50000x64) S5000x64.size (cc5_transform_3 i) (hinb5_3 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v29) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v52) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v67) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v75) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v70) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v77) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v73) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v78) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v78) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v99) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v100) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v101) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v101) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v116) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v124) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v119) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v126) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v122) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v127) S5000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v127) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v148) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v149) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v150) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S3x64x64 : Shape := ⟨3, ![3, 64, 64]⟩
abbrev S3x64 : Shape := ⟨2, ![3, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S256x64 : Shape := ⟨2, ![256, 64]⟩
abbrev S50000x1 : Shape := ⟨2, ![50000, 1]⟩
abbrev S256x1 : Shape := ⟨2, ![256, 1]⟩
abbrev S1x1 : Shape := ⟨2, ![1, 1]⟩

abbrev nBuf : Space → Nat
  | .hbm => 263
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S3x64x64, .f32⟩
  | 4 => ⟨S3x64, .f32⟩
  | 5 => ⟨S3x64x64, .f32⟩
  | 6 => ⟨S3x64, .f32⟩
  | 7 => ⟨S3x64, .f32⟩
  | 8 => ⟨S3x64, .f32⟩
  | 9 => ⟨S64x1, .f32⟩
  | 10 => ⟨S1, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S50000x64, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x64, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S50000x64, .f32⟩
  | 35 => ⟨S50000x64, .f32⟩
  | 36 => ⟨S1x64x64, .f32⟩
  | 37 => ⟨S64x64, .f32⟩
  | 38 => ⟨S50000x64, .f32⟩
  | 39 => ⟨S1x64, .f32⟩
  | 40 => ⟨S64, .f32⟩
  | 41 => ⟨S1x64, .f32⟩
  | 42 => ⟨S50000x64, .f32⟩
  | 43 => ⟨S50000x64, .f32⟩
  | 44 => ⟨S_, .f32⟩
  | 45 => ⟨S50000x64, .f32⟩
  | 46 => ⟨S50000x64, .f32⟩
  | 47 => ⟨S1x64x64, .f32⟩
  | 48 => ⟨S64x64, .f32⟩
  | 49 => ⟨S50000x64, .f32⟩
  | 50 => ⟨S1x64, .f32⟩
  | 51 => ⟨S64, .f32⟩
  | 52 => ⟨S1x64, .f32⟩
  | 53 => ⟨S50000x64, .f32⟩
  | 54 => ⟨S50000x64, .f32⟩
  | 55 => ⟨S_, .f32⟩
  | 56 => ⟨S50000x64, .f32⟩
  | 57 => ⟨S50000x64, .f32⟩
  | 58 => ⟨S_, .f32⟩
  | 59 => ⟨S64, .f32⟩
  | 60 => ⟨S_, .f32⟩
  | 61 => ⟨S64, .f32⟩
  | 62 => ⟨S64, .f32⟩
  | 63 => ⟨S1x64, .f32⟩
  | 64 => ⟨S50000x64, .f32⟩
  | 65 => ⟨S50000x64, .f32⟩
  | 66 => ⟨S50000x64, .f32⟩
  | 67 => ⟨S_, .f32⟩
  | 68 => ⟨S64, .f32⟩
  | 69 => ⟨S_, .f32⟩
  | 70 => ⟨S64, .f32⟩
  | 71 => ⟨S64, .f32⟩
  | 72 => ⟨S1x64, .f32⟩
  | 73 => ⟨S50000x64, .f32⟩
  | 74 => ⟨S50000x64, .f32⟩
  | 75 => ⟨S_, .f32⟩
  | 76 => ⟨S64, .f32⟩
  | 77 => ⟨S64, .f32⟩
  | 78 => ⟨S64, .f32⟩
  | 79 => ⟨S1x64, .f32⟩
  | 80 => ⟨S50000x64, .f32⟩
  | 81 => ⟨S50000x64, .f32⟩
  | 82 => ⟨S1x64, .f32⟩
  | 83 => ⟨S64, .f32⟩
  | 84 => ⟨S1x64, .f32⟩
  | 85 => ⟨S50000x64, .f32⟩
  | 86 => ⟨S50000x64, .f32⟩
  | 87 => ⟨S1x64, .f32⟩
  | 88 => ⟨S64, .f32⟩
  | 89 => ⟨S1x64, .f32⟩
  | 90 => ⟨S50000x64, .f32⟩
  | 91 => ⟨S50000x64, .f32⟩
  | 92 => ⟨S_, .f32⟩
  | 93 => ⟨S50000x64, .f32⟩
  | 94 => ⟨S50000x64, .f32⟩
  | 95 => ⟨S_, .f32⟩
  | 96 => ⟨S50000x64, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x64, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S50000x64, .f32⟩
  | 115 => ⟨S50000x64, .f32⟩
  | 116 => ⟨S1x64x64, .f32⟩
  | 117 => ⟨S64x64, .f32⟩
  | 118 => ⟨S50000x64, .f32⟩
  | 119 => ⟨S1x64, .f32⟩
  | 120 => ⟨S64, .f32⟩
  | 121 => ⟨S1x64, .f32⟩
  | 122 => ⟨S50000x64, .f32⟩
  | 123 => ⟨S50000x64, .f32⟩
  | 124 => ⟨S_, .f32⟩
  | 125 => ⟨S50000x64, .f32⟩
  | 126 => ⟨S50000x64, .f32⟩
  | 127 => ⟨S1x64x64, .f32⟩
  | _ => ⟨S50000x64, .f32⟩

abbrev hbmTy0_1 (i : Nat) : BufTy := match i % 128 with
  | 0 => ⟨S64x64, .f32⟩
  | 1 => ⟨S50000x64, .f32⟩
  | 2 => ⟨S1x64, .f32⟩
  | 3 => ⟨S64, .f32⟩
  | 4 => ⟨S1x64, .f32⟩
  | 5 => ⟨S50000x64, .f32⟩
  | 6 => ⟨S50000x64, .f32⟩
  | 7 => ⟨S_, .f32⟩
  | 8 => ⟨S50000x64, .f32⟩
  | 9 => ⟨S50000x64, .f32⟩
  | 10 => ⟨S_, .f32⟩
  | 11 => ⟨S64, .f32⟩
  | 12 => ⟨S_, .f32⟩
  | 13 => ⟨S64, .f32⟩
  | 14 => ⟨S64, .f32⟩
  | 15 => ⟨S1x64, .f32⟩
  | 16 => ⟨S50000x64, .f32⟩
  | 17 => ⟨S50000x64, .f32⟩
  | 18 => ⟨S50000x64, .f32⟩
  | 19 => ⟨S_, .f32⟩
  | 20 => ⟨S64, .f32⟩
  | 21 => ⟨S_, .f32⟩
  | 22 => ⟨S64, .f32⟩
  | 23 => ⟨S64, .f32⟩
  | 24 => ⟨S1x64, .f32⟩
  | 25 => ⟨S50000x64, .f32⟩
  | 26 => ⟨S50000x64, .f32⟩
  | 27 => ⟨S_, .f32⟩
  | 28 => ⟨S64, .f32⟩
  | 29 => ⟨S64, .f32⟩
  | 30 => ⟨S64, .f32⟩
  | 31 => ⟨S1x64, .f32⟩
  | 32 => ⟨S50000x64, .f32⟩
  | 33 => ⟨S50000x64, .f32⟩
  | 34 => ⟨S1x64, .f32⟩
  | 35 => ⟨S64, .f32⟩
  | 36 => ⟨S1x64, .f32⟩
  | 37 => ⟨S50000x64, .f32⟩
  | 38 => ⟨S50000x64, .f32⟩
  | 39 => ⟨S1x64, .f32⟩
  | 40 => ⟨S64, .f32⟩
  | 41 => ⟨S1x64, .f32⟩
  | 42 => ⟨S50000x64, .f32⟩
  | 43 => ⟨S50000x64, .f32⟩
  | 44 => ⟨S_, .f32⟩
  | 45 => ⟨S50000x64, .f32⟩
  | 46 => ⟨S50000x64, .f32⟩
  | 47 => ⟨S_, .f32⟩
  | 48 => ⟨S50000x64, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x64, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S50000x64, .f32⟩
  | 67 => ⟨S50000x64, .f32⟩
  | 68 => ⟨S1x64x64, .f32⟩
  | 69 => ⟨S64x64, .f32⟩
  | 70 => ⟨S50000x64, .f32⟩
  | 71 => ⟨S1x64, .f32⟩
  | 72 => ⟨S64, .f32⟩
  | 73 => ⟨S1x64, .f32⟩
  | 74 => ⟨S50000x64, .f32⟩
  | 75 => ⟨S50000x64, .f32⟩
  | 76 => ⟨S_, .f32⟩
  | 77 => ⟨S50000x64, .f32⟩
  | 78 => ⟨S50000x64, .f32⟩
  | 79 => ⟨S1x64x64, .f32⟩
  | 80 => ⟨S64x64, .f32⟩
  | 81 => ⟨S50000x64, .f32⟩
  | 82 => ⟨S1x64, .f32⟩
  | 83 => ⟨S64, .f32⟩
  | 84 => ⟨S1x64, .f32⟩
  | 85 => ⟨S50000x64, .f32⟩
  | 86 => ⟨S50000x64, .f32⟩
  | 87 => ⟨S_, .f32⟩
  | 88 => ⟨S50000x64, .f32⟩
  | 89 => ⟨S50000x64, .f32⟩
  | 90 => ⟨S_, .f32⟩
  | 91 => ⟨S64, .f32⟩
  | 92 => ⟨S_, .f32⟩
  | 93 => ⟨S64, .f32⟩
  | 94 => ⟨S64, .f32⟩
  | 95 => ⟨S1x64, .f32⟩
  | 96 => ⟨S50000x64, .f32⟩
  | 97 => ⟨S50000x64, .f32⟩
  | 98 => ⟨S50000x64, .f32⟩
  | 99 => ⟨S_, .f32⟩
  | 100 => ⟨S64, .f32⟩
  | 101 => ⟨S_, .f32⟩
  | 102 => ⟨S64, .f32⟩
  | 103 => ⟨S64, .f32⟩
  | 104 => ⟨S1x64, .f32⟩
  | 105 => ⟨S50000x64, .f32⟩
  | 106 => ⟨S50000x64, .f32⟩
  | 107 => ⟨S_, .f32⟩
  | 108 => ⟨S64, .f32⟩
  | 109 => ⟨S64, .f32⟩
  | 110 => ⟨S64, .f32⟩
  | 111 => ⟨S1x64, .f32⟩
  | 112 => ⟨S50000x64, .f32⟩
  | 113 => ⟨S50000x64, .f32⟩
  | 114 => ⟨S1x64, .f32⟩
  | 115 => ⟨S64, .f32⟩
  | 116 => ⟨S1x64, .f32⟩
  | 117 => ⟨S50000x64, .f32⟩
  | 118 => ⟨S50000x64, .f32⟩
  | 119 => ⟨S1x64, .f32⟩
  | 120 => ⟨S64, .f32⟩
  | 121 => ⟨S1x64, .f32⟩
  | 122 => ⟨S50000x64, .f32⟩
  | 123 => ⟨S50000x64, .f32⟩
  | 124 => ⟨S_, .f32⟩
  | 125 => ⟨S50000x64, .f32⟩
  | 126 => ⟨S50000x64, .f32⟩
  | 127 => ⟨S_, .f32⟩
  | _ => ⟨S50000x64, .f32⟩

abbrev hbmTy0_2 (i : Nat) : BufTy := match i % 128 with
  | 0 => ⟨S256x64, .f32⟩
  | 1 => ⟨S50000x1, .i32⟩
  | 2 => ⟨S256x64, .f32⟩
  | 3 => ⟨S256x1, .f32⟩
  | 4 => ⟨S1x1, .f32⟩
  | 5 => ⟨S256x1, .f32⟩
  | 6 => ⟨S256x1, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_cst : Ref sig .tc := ⟨.hbm, 44, rfl⟩
abbrev main_call0_v0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_call1_cst : Ref sig .tc := ⟨.hbm, 55, rfl⟩
abbrev main_call1_v0 : Ref sig .tc := ⟨.hbm, 56, rfl⟩
abbrev main_v37 : Ref sig .tc := ⟨.hbm, 57, rfl⟩
abbrev main_cst_3 : Ref sig .tc := ⟨.hbm, 58, rfl⟩
abbrev main_v38 : Ref sig .tc := ⟨.hbm, 59, rfl⟩
abbrev main_cst_4 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_5 : Ref sig .tc := ⟨.hbm, 67, rfl⟩
abbrev main_v45 : Ref sig .tc := ⟨.hbm, 68, rfl⟩
abbrev main_cst_6 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_7 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_v67 : Ref sig .tc := ⟨.hbm, 94, rfl⟩
abbrev main_cst_8 : Ref sig .tc := ⟨.hbm, 95, rfl⟩
abbrev main_v68 : Ref sig .tc := ⟨.hbm, 96, rfl⟩
abbrev main_c_9 : Ref sig .tc := ⟨.hbm, 97, rfl⟩
abbrev main_v69 : Ref sig .tc := ⟨.hbm, 98, rfl⟩
abbrev main_v70 : Ref sig .tc := ⟨.hbm, 99, rfl⟩
abbrev main_c_10 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_c_11 : Ref sig .tc := ⟨.hbm, 106, rfl⟩
abbrev main_v76 : Ref sig .tc := ⟨.hbm, 107, rfl⟩
abbrev main_v77 : Ref sig .tc := ⟨.hbm, 108, rfl⟩
abbrev main_c_12 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_call3_cst : Ref sig .tc := ⟨.hbm, 124, rfl⟩
abbrev main_call3_v0 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_call4_cst : Ref sig .tc := ⟨.hbm, 135, rfl⟩
abbrev main_call4_v0 : Ref sig .tc := ⟨.hbm, 136, rfl⟩
abbrev main_v101 : Ref sig .tc := ⟨.hbm, 137, rfl⟩
abbrev main_cst_13 : Ref sig .tc := ⟨.hbm, 138, rfl⟩
abbrev main_v102 : Ref sig .tc := ⟨.hbm, 139, rfl⟩
abbrev main_cst_14 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_cst_15 : Ref sig .tc := ⟨.hbm, 147, rfl⟩
abbrev main_v109 : Ref sig .tc := ⟨.hbm, 148, rfl⟩
abbrev main_cst_16 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_17 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_call5_cst : Ref sig .tc := ⟨.hbm, 172, rfl⟩
abbrev main_call5_v0 : Ref sig .tc := ⟨.hbm, 173, rfl⟩
abbrev main_v131 : Ref sig .tc := ⟨.hbm, 174, rfl⟩
abbrev main_cst_18 : Ref sig .tc := ⟨.hbm, 175, rfl⟩
abbrev main_v132 : Ref sig .tc := ⟨.hbm, 176, rfl⟩
abbrev main_c_19 : Ref sig .tc := ⟨.hbm, 177, rfl⟩
abbrev main_v133 : Ref sig .tc := ⟨.hbm, 178, rfl⟩
abbrev main_v134 : Ref sig .tc := ⟨.hbm, 179, rfl⟩
abbrev main_c_20 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_c_21 : Ref sig .tc := ⟨.hbm, 186, rfl⟩
abbrev main_v140 : Ref sig .tc := ⟨.hbm, 187, rfl⟩
abbrev main_v141 : Ref sig .tc := ⟨.hbm, 188, rfl⟩
abbrev main_c_22 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_call6_cst : Ref sig .tc := ⟨.hbm, 204, rfl⟩
abbrev main_call6_v0 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_call7_cst : Ref sig .tc := ⟨.hbm, 215, rfl⟩
abbrev main_call7_v0 : Ref sig .tc := ⟨.hbm, 216, rfl⟩
abbrev main_v165 : Ref sig .tc := ⟨.hbm, 217, rfl⟩
abbrev main_cst_23 : Ref sig .tc := ⟨.hbm, 218, rfl⟩
abbrev main_v166 : Ref sig .tc := ⟨.hbm, 219, rfl⟩
abbrev main_cst_24 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_cst_25 : Ref sig .tc := ⟨.hbm, 227, rfl⟩
abbrev main_v173 : Ref sig .tc := ⟨.hbm, 228, rfl⟩
abbrev main_cst_26 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_cst_27 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_call8_cst : Ref sig .tc := ⟨.hbm, 252, rfl⟩
abbrev main_call8_v0 : Ref sig .tc := ⟨.hbm, 253, rfl⟩
abbrev main_v195 : Ref sig .tc := ⟨.hbm, 254, rfl⟩
abbrev main_cst_28 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000x64 : S_.BroadcastsInDim S50000x64 (![] : Fin 0 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S256x64 : S_.BroadcastsInDim S256x64 (![] : Fin 0 → Fin S256x64.rank)
  bcast_S50000_S50000x1_0 : S50000.BroadcastsInDim S50000x1 (![0] : Fin 1 → Fin S50000x1.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S256x64_S50000x1_S50000x64_1_0_0_1_wf : ScatterDims.WF S256x64 S50000x1 S50000x64 [1] [0] [0] 1
  dot_S256x64_S64x1_S256x1_1_0_0_1_n_n_wf : DotDims.WF S256x64 S64x1 S256x1 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

class Facts : Prop extends Facts₀ where

variable [Facts]
-- ==== Proof.KernelRun.lean ====
/- The idealized kernel's run with its result named: at the compiled mesh, from any memory with zero counters,
   every weakly fair execution of @main on the TensorCores terminates, nothing faulting, and every final state has
   the result buffer at the contents the segment fold leaves it with (`Gen.W13 … main_v157`: the launch memory carried
   through the six regions' write-backs and the host stretches between them) and the argument arrays as launched. -/
import proofs.«118327_j29411936043504_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer's final contents on device `c`: the last boundary's valuation at the result reference. -/
abbrev result (c : Dev nD) : Buf (Elt F) ((c.tc : Thread nD τ).loc main_v157) :=
  W13 m ρ c (Proc.devRef .tc main_v157)

set_option backward.isDefEq.respectTransparency.types false in
/-- The run, result named: the final state holds every unscoped buffer at the last boundary's contents; the result
    buffer is one of them and is read there as is, and each argument walks back through the fold to the launch memory. -/
theorem run_result : θ_run defs (onTc (τ := τ) (main (F := F))) ⟨m, fun _ => 0, ρ⟩ (fun r => ∀ c : Dev nD,
      r.2.mem ((c.tc : Thread nD τ).loc main_v157) = W13 m ρ c (Proc.devRef .tc main_v157)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v157 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c)⟩)

/-- The same run, its post stated with `result`. -/
theorem run_result' : θ_run defs (onTc (τ := τ) (main (F := F))) ⟨m, fun _ => 0, ρ⟩ (fun r => ∀ c : Dev nD,
      r.2.mem ((c.tc : Thread nD τ).loc main_v157) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := run_result m ρ

end Cert.KernelIdeal.RunValue

end
-- ==== Proof.LibRealAlgebra.lean ====
/-
  Real arithmetic inside the extended reals. The coercion of the reals commutes with finite sums, with the quotient by a
  nonzero real and with the maximum; the float words 0, 1 and 100000 denote those reals and the batch-norm epsilon a
  positive real. Two identities of a graph-convolution layer with batch normalisation, on real-valued data:
  (1) the mean of a set of gathered rows (their sum times the reciprocal of the count), multiplied on the right by a weight
      column, is the sum of the rows' products with the column divided by the count;
  (2) the mean square minus the squared mean is the mean of the squared deviations from the mean.
-/
import Idealize.ShloMosaic.PureOps.Ideal

noncomputable section

namespace Cert.Lib

open Idealize.ShloMosaic

/-! ## Literals -/

/-- The word of `+0.0` denotes 0. -/
theorem ofBits_zero : Ideal.ofBits .f32 0x00000000#32 = 0 := by
  simp [Ideal.ofBits, Ideal.ieee]

/-- The word of `1.0` denotes 1. -/
theorem ofBits_one : Ideal.ofBits .f32 0x3F800000#32 = 1 := by
  simp [Ideal.ofBits, Ideal.ieee, -EReal.coe_mul]; norm_num

/-- The word of `100000.0` denotes the real 100000. -/
theorem ofBits_1e5 : Ideal.ofBits .f32 0x47C35000#32 = ((100000 : ℝ) : EReal) := by
  simp [Ideal.ofBits, Ideal.ieee, -EReal.coe_mul]; norm_num

/-- The batch-norm epsilon's word denotes a positive real. -/
theorem ofBits_eps : ∃ r : ℝ, 0 < r ∧ Ideal.ofBits .f32 0x3727C5AC#32 = (r : EReal) := by
  refine ⟨_, ?_, by simp [Ideal.ofBits, Ideal.ieee, -EReal.coe_mul]; rfl⟩
  norm_num

/-! ## The coercion and finite sums, quotients, maxima -/

/-- The coercion of the reals commutes with finite sums. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The quotient of a real by a nonzero real. -/
theorem div_coe_coe (x y : ℝ) (hy : y ≠ 0) : Ideal.div (x : EReal) (y : EReal) = ((x / y : ℝ) : EReal) := by
  rw [Ideal.div_coe hy, ← EReal.coe_mul, mul_one_div]

/-! ## The two identities -/

/-- The mean of gathered rows, then the weights: over the reals. -/
theorem mean_then_weights_real {E K : Type*} [Fintype K] (S : Finset E) (X : E → K → ℝ) (W : K → ℝ) (c : ℝ) (hc : c ≠ 0) :
    (∑ k, ((∑ e ∈ S, X e k) * (1 / c)) * W k) = (∑ e ∈ S, ∑ k, X e k * W k) / c := by
  rw [Finset.sum_comm, Finset.sum_div]
  refine Finset.sum_congr rfl fun k _ => ?_
  rw [Finset.sum_mul, Finset.sum_mul, Finset.sum_div]
  refine Finset.sum_congr rfl fun e _ => ?_
  field_simp

/-- The mean square minus the squared mean is the mean squared deviation: over the reals. -/
theorem var_real {V : Type*} [Fintype V] (x : V → ℝ) (n : ℝ) (hn : n ≠ 0) (hcard : (Fintype.card V : ℝ) = n) :
    (∑ v, x v * x v) / n - (∑ v, x v) / n * ((∑ v, x v) / n)
      = (∑ v, (x v - (∑ u, x u) / n) * (x v - (∑ u, x u) / n)) / n := by
  have h : ∀ v, (x v - (∑ u, x u) / n) * (x v - (∑ u, x u) / n)
      = x v * x v - 2 * ((∑ u, x u) / n) * x v + ((∑ u, x u) / n) * ((∑ u, x u) / n) := fun v => by ring
  simp only [h, Finset.sum_add_distrib, Finset.sum_sub_distrib, ← Finset.mul_sum, Finset.sum_const, Finset.card_univ,
    nsmul_eq_mul, hcard]
  field_simp
  ring

end Cert.Lib

end
-- ==== Proof.LibGatherScatter.lean ====
/-
  General lemmas reading a row gather and a row scatter-add at an index, at the ideal values.

  A gather of whole rows of an n × k array at e start indices (one signed word per result row) reads, at result
  element (a, b), the operand's element (r, b), r the start index clamped into [0, n − 1].  A scatter of e update
  rows into an n × k array (or of e update scalars into an n-vector) sends update row a to operand row w when the
  signed scatter index w lies in [0, n), and drops it otherwise; the accumulating scatter at the ideal values is
  then the operand plus, at row v, the sum of the update rows whose index is v.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Lib

/-- The row a gather's start index reads: the index word read as a signed integer and clamped into
    [0, n − 1]. -/
def rowOf (n : ℕ) (hn : 0 < n) (w : BitVec 32) : Fin n := ⟨min w.toInt.toNat (n - 1), by omega⟩

/-- The value of rowOf: the signed reading clamped into [0, n − 1]. -/
theorem rowOf_val (n : ℕ) (hn : 0 < n) (w : BitVec 32) : (rowOf n hn w).val = min w.toInt.toNat (n - 1) := rfl

/-- A GATHER OF ROWS READ AT (a, b): with one start index per result row, naming operand axis 0, a slice of one
    whole row (slice sizes [1, k], axis 0 collapsed, axis 1 the offset axis), result element (a, b) is the
    operand's element (r, b) where r is start index a read signed and clamped into [0, n − 1]. -/
theorem gather_rows_apply {α : Type} {n e k : ℕ} (hn : 0 < n)
    (d : GatherDims ⟨2, ![n, k]⟩ ⟨2, ![e, 1]⟩ ⟨2, ![e, k]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, k])
    (x : (⟨2, ![n, k]⟩ : Shape).Idx → α) (idx : IVec ⟨2, ![e, 1]⟩ 32) (a : Fin e) (b : Fin k) :
    Host.gather d x idx (ix2 a b) = x (ix2 (rowOf n hn (idx (ix2 a 0))) b) := by
  obtain ⟨od, cd, ob, sb, sm, iv, ss, wf⟩ := d
  dsimp only at hod hcd hob hsb hsm hiv hss
  subst hod hcd hob hsb hsm hiv hss
  unfold Host.gather
  refine congrArg x ?_
  funext c
  refine Fin.ext ?_
  match c with
  | ⟨0, _⟩ =>
    show GatherDims.start _ (ix2 a b) idx 0 + GatherDims.batchCoord _ (ix2 a b) 0 + GatherDims.offCoord _ (ix2 a b) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (D : GatherDims ⟨2, ![n, k]⟩ ⟨2, ![e, 1]⟩ ⟨2, ![e, k]⟩)
        (hD : D = ⟨[1], [0], [], [], [0], 1, ![1, k], wf⟩) (c : Fin D.startIndexMap.length),
        D.siIdx (ix2 a b) c = ix2 a 0 := by
      intro D hD c
      subst hD
      funext q; refine Fin.ext ?_
      match q with
      | ⟨0, _⟩ => rfl
      | ⟨1, _⟩ =>
        have := c.isLt
        show c.val = 0
        simpa using this
    rw [hsi _ rfl]
    rfl
  | ⟨1, _⟩ =>
    show GatherDims.start _ (ix2 a b) idx 1 + GatherDims.batchCoord _ (ix2 a b) 1 + GatherDims.offCoord _ (ix2 a b) 1 = _
    rw [GatherDims.batchCoord_eq_zero _ _ _ List.not_mem_nil]
    have hst : GatherDims.start (⟨[1], [0], [], [], [0], 1, ![1, k], wf⟩ :
        GatherDims ⟨2, ![n, k]⟩ ⟨2, ![e, 1]⟩ ⟨2, ![e, k]⟩) (ix2 a b) idx 1 = 0 := by
      unfold GatherDims.start
      rw [dif_neg (fun h => absurd (congrArg Fin.val (List.mem_singleton.mp h)) Nat.one_ne_zero)]
    have hoff : GatherDims.offCoord (⟨[1], [0], [], [], [0], 1, ![1, k], wf⟩ :
        GatherDims ⟨2, ![n, k]⟩ ⟨2, ![e, 1]⟩ ⟨2, ![e, k]⟩) (ix2 a b) 1 = b.val := by
      unfold GatherDims.offCoord
      rw [dif_pos ((GatherDims.mem_sKept _ _).mpr ⟨fun h => absurd (congrArg Fin.val (List.mem_singleton.mp h)) Nat.one_ne_zero, List.not_mem_nil⟩)]
      rfl
    rw [hst, hoff]
    simp

/-- Where a scatter index lands: the row the index word names when, read as a signed integer, it lies in
    [0, n); none otherwise (the update is dropped). -/
def landOf (n : ℕ) (w : BitVec 32) : Option (Fin n) :=
  if h : 0 ≤ w.toInt ∧ w.toInt < n then some ⟨w.toInt.toNat, by omega⟩ else none

/-- An index in range lands on the row it names. -/
theorem landOf_eq_some_iff (n : ℕ) (w : BitVec 32) (v : Fin n) :
    landOf n w = some v ↔ w.toInt = (v.val : ℤ) := by
  unfold landOf
  constructor
  · intro h
    split at h
    · rename_i hw
      have := congrArg Fin.val (Option.some.inj h)
      simp only at this
      omega
    · exact absurd h (by simp)
  · intro h
    have hw : 0 ≤ w.toInt ∧ w.toInt < n := by have := v.isLt; omega
    rw [dif_pos hw]
    refine congrArg some (Fin.ext ?_)
    show w.toInt.toNat = v.val
    omega

/-- The dimension numbers of a scatter of e update rows of k columns into an n × k array: the updates' axis 1 the
    window axis, the operand's axis 0 inserted and named by the one-component scatter index. -/
private abbrev sc2 (n e k : ℕ) (wf : ScatterDims.WF ⟨2, ![n, k]⟩ ⟨2, ![e, 1]⟩ ⟨2, ![e, k]⟩ [1] [0] [0] 1) :
    ScatterDims ⟨2, ![n, k]⟩ ⟨2, ![e, 1]⟩ ⟨2, ![e, k]⟩ := ⟨[1], [0], [0], 1, wf⟩

section Sc2
variable {n e k : ℕ} (wf : ScatterDims.WF ⟨2, ![n, k]⟩ ⟨2, ![e, 1]⟩ ⟨2, ![e, k]⟩ [1] [0] [0] 1)
  (idx : IVec ⟨2, ![e, 1]⟩ 32) (a : Fin e) (b : Fin k)

/-- Update element (a, b) reads scatter index a. -/
private theorem sc2_siIdx (c : Fin (sc2 n e k wf).scatterDimsToOperandDims.length) :
    (sc2 n e k wf).siIdx (ix2 a b) c = ix2 a 0 := by
  funext q; refine Fin.ext ?_
  match q with
  | ⟨0, _⟩ => rfl
  | ⟨1, _⟩ =>
    have := c.isLt
    show c.val = 0
    simpa using this

/-- On the operand's axis 0 the window starts at the scatter index, read signed. -/
private theorem sc2_start0 : (sc2 n e k wf).start (ix2 a b) idx 0 = (idx (ix2 a 0)).toInt := by
  unfold ScatterDims.start
  rw [dif_pos (List.mem_singleton.mpr rfl), sc2_siIdx]

/-- On the operand's axis 1, which the scatter index does not name, the window starts at 0. -/
private theorem sc2_start1 : (sc2 n e k wf).start (ix2 a b) idx 1 = 0 := by
  unfold ScatterDims.start
  rw [dif_neg (fun h => absurd (congrArg Fin.val (List.mem_singleton.mp h)) Nat.one_ne_zero)]

/-- The inserted axis 0 has window coordinate 0. -/
private theorem sc2_window0 : (sc2 n e k wf).window (ix2 a b) 0 = 0 := by
  unfold ScatterDims.window
  rw [dif_neg (fun h => (of_decide_eq_true (List.mem_filter.mp h).2) (List.mem_singleton.mpr rfl))]

/-- The window coordinate on axis 1 is the update's column. -/
private theorem sc2_window1 : (sc2 n e k wf).window (ix2 a b) 1 = b.val := by
  unfold ScatterDims.window
  have h1 : (1 : Fin (⟨2, ![n, k]⟩ : Shape).rank) ∈ (sc2 n e k wf).sKept :=
    List.mem_filter.mpr ⟨List.mem_finRange _, decide_eq_true
      (fun h => absurd (congrArg Fin.val (List.mem_singleton.mp h)) Nat.one_ne_zero)⟩
  rw [dif_pos h1]
  rfl

end Sc2

/-- WHERE AN UPDATE ROW'S ELEMENT LANDS: update element (a, b) of a row scatter lands on operand element (v, b),
    v the row scatter index a names, when that index read signed lies in [0, n); it is dropped otherwise. -/
theorem scatter2_resultIdx {n e k : ℕ} (d : ScatterDims ⟨2, ![n, k]⟩ ⟨2, ![e, 1]⟩ ⟨2, ![e, k]⟩)
    (huw : d.updateWindowDims = [1]) (hiw : d.insertedWindowDims = [0]) (hsd : d.scatterDimsToOperandDims = [0])
    (hiv : d.indexVectorDim = 1) (idx : IVec ⟨2, ![e, 1]⟩ 32) (a : Fin e) (b : Fin k) :
    d.resultIdx? (ix2 a b) idx = (landOf n (idx (ix2 a 0))).map (fun v => ix2 v b) := by
  obtain ⟨uw, iw, sd, iv, wf⟩ := d
  dsimp only at huw hiw hsd hiv
  subst huw hiw hsd hiv
  show (sc2 n e k wf).resultIdx? (ix2 a b) idx = _
  unfold ScatterDims.resultIdx? landOf
  by_cases h : 0 ≤ (idx (ix2 a 0)).toInt ∧ (idx (ix2 a 0)).toInt < n
  · have hall : ∀ c, 0 ≤ (sc2 n e k wf).start (ix2 a b) idx c + (sc2 n e k wf).window (ix2 a b) c ∧
        (sc2 n e k wf).start (ix2 a b) idx c + (sc2 n e k wf).window (ix2 a b) c
          < (⟨2, ![n, k]⟩ : Shape).size c := by
      intro c
      match c with
      | ⟨0, _⟩ =>
        show 0 ≤ (sc2 n e k wf).start (ix2 a b) idx 0 + ((sc2 n e k wf).window (ix2 a b) 0 : ℕ) ∧
          (sc2 n e k wf).start (ix2 a b) idx 0 + ((sc2 n e k wf).window (ix2 a b) 0 : ℕ) < (n : ℤ)
        rw [sc2_start0, sc2_window0]
        simpa using h
      | ⟨1, _⟩ =>
        show 0 ≤ (sc2 n e k wf).start (ix2 a b) idx 1 + ((sc2 n e k wf).window (ix2 a b) 1 : ℕ) ∧
          (sc2 n e k wf).start (ix2 a b) idx 1 + ((sc2 n e k wf).window (ix2 a b) 1 : ℕ) < (k : ℤ)
        rw [sc2_start1, sc2_window1]
        have := b.isLt
        omega
    rw [dif_pos hall, dif_pos h]
    refine congrArg some ?_
    funext c; refine Fin.ext ?_
    match c with
    | ⟨0, _⟩ =>
      show ((sc2 n e k wf).start (ix2 a b) idx 0 + ((sc2 n e k wf).window (ix2 a b) 0 : ℕ)).toNat
        = (idx (ix2 a 0)).toInt.toNat
      rw [sc2_start0, sc2_window0]
      simp
    | ⟨1, _⟩ =>
      show ((sc2 n e k wf).start (ix2 a b) idx 1 + ((sc2 n e k wf).window (ix2 a b) 1 : ℕ)).toNat = b.val
      rw [sc2_start1, sc2_window1]
      simp
  · rw [dif_neg h, dif_neg (fun hall => h (by
      have := hall 0
      rw [sc2_start0, sc2_window0] at this
      simpa using this))]
    rfl

/-- The dimension numbers of a scatter of e update scalars into an n-vector: no window axis, the operand's one
    axis inserted and named by the one-component scatter index. -/
private abbrev sc1 (n e : ℕ) (wf : ScatterDims.WF ⟨1, ![n]⟩ ⟨2, ![e, 1]⟩ ⟨1, ![e]⟩ [] [0] [0] 1) :
    ScatterDims ⟨1, ![n]⟩ ⟨2, ![e, 1]⟩ ⟨1, ![e]⟩ := ⟨[], [0], [0], 1, wf⟩

section Sc1
variable {n e : ℕ} (wf : ScatterDims.WF ⟨1, ![n]⟩ ⟨2, ![e, 1]⟩ ⟨1, ![e]⟩ [] [0] [0] 1)
  (idx : IVec ⟨2, ![e, 1]⟩ 32) (a : Fin e)

/-- Update element a reads scatter index a. -/
private theorem sc1_siIdx (c : Fin (sc1 n e wf).scatterDimsToOperandDims.length) :
    (sc1 n e wf).siIdx (ix1 a) c = ix2 a 0 := by
  funext q; refine Fin.ext ?_
  match q with
  | ⟨0, _⟩ => rfl
  | ⟨1, _⟩ =>
    have := c.isLt
    show c.val = 0
    simpa using this

/-- On the operand's axis the window starts at the scatter index, read signed. -/
private theorem sc1_start0 : (sc1 n e wf).start (ix1 a) idx 0 = (idx (ix2 a 0)).toInt := by
  unfold ScatterDims.start
  rw [dif_pos (List.mem_singleton.mpr rfl), sc1_siIdx]

/-- The inserted axis has window coordinate 0. -/
private theorem sc1_window0 : (sc1 n e wf).window (ix1 a) 0 = 0 := by
  unfold ScatterDims.window
  rw [dif_neg (fun h => (of_decide_eq_true (List.mem_filter.mp h).2) (List.mem_singleton.mpr rfl))]

end Sc1

/-- WHERE AN UPDATE SCALAR LANDS: update element a of a scatter into an n-vector lands on operand element v, the
    position scatter index a names, when that index read signed lies in [0, n); it is dropped otherwise. -/
theorem scatter1_resultIdx {n e : ℕ} (d : ScatterDims ⟨1, ![n]⟩ ⟨2, ![e, 1]⟩ ⟨1, ![e]⟩)
    (huw : d.updateWindowDims = []) (hiw : d.insertedWindowDims = [0]) (hsd : d.scatterDimsToOperandDims = [0])
    (hiv : d.indexVectorDim = 1) (idx : IVec ⟨2, ![e, 1]⟩ 32) (a : Fin e) :
    d.resultIdx? (ix1 a) idx = (landOf n (idx (ix2 a 0))).map ix1 := by
  obtain ⟨uw, iw, sd, iv, wf⟩ := d
  dsimp only at huw hiw hsd hiv
  subst huw hiw hsd hiv
  show (sc1 n e wf).resultIdx? (ix1 a) idx = _
  unfold ScatterDims.resultIdx? landOf
  by_cases h : 0 ≤ (idx (ix2 a 0)).toInt ∧ (idx (ix2 a 0)).toInt < n
  · have hall : ∀ c, 0 ≤ (sc1 n e wf).start (ix1 a) idx c + (sc1 n e wf).window (ix1 a) c ∧
        (sc1 n e wf).start (ix1 a) idx c + (sc1 n e wf).window (ix1 a) c
          < (⟨1, ![n]⟩ : Shape).size c := by
      intro c
      match c with
      | ⟨0, _⟩ =>
        show 0 ≤ (sc1 n e wf).start (ix1 a) idx 0 + ((sc1 n e wf).window (ix1 a) 0 : ℕ) ∧
          (sc1 n e wf).start (ix1 a) idx 0 + ((sc1 n e wf).window (ix1 a) 0 : ℕ) < (n : ℤ)
        rw [sc1_start0, sc1_window0]
        simpa using h
    rw [dif_pos hall, dif_pos h]
    refine congrArg some ?_
    funext c; refine Fin.ext ?_
    match c with
    | ⟨0, _⟩ =>
      show ((sc1 n e wf).start (ix1 a) idx 0 + ((sc1 n e wf).window (ix1 a) 0 : ℕ)).toNat
        = (idx (ix2 a 0)).toInt.toNat
      rw [sc1_start0, sc1_window0]
      simp
  · rw [dif_neg h, dif_neg (fun hall => h (by
      have := hall 0
      rw [sc1_start0, sc1_window0] at this
      simpa using this))]
    rfl

/-! ## The accumulating scatter at an index -/

/-- Two rank-2 indices agree exactly when their coordinates do. -/
private theorem ix2_eq_iff {n0 n1 : ℕ} (a a' : Fin n0) (b b' : Fin n1) :
    ix2 a b = ix2 a' b' ↔ a = a' ∧ b = b' := by
  constructor
  · intro h; exact ⟨congrFun h 0, congrFun h 1⟩
  · rintro ⟨rfl, rfl⟩; rfl

/-- Two rank-1 indices agree exactly when their coordinates do. -/
private theorem ix1_eq_iff {n0 : ℕ} (a a' : Fin n0) : ix1 a = ix1 a' ↔ a = a' := by
  constructor
  · intro h; exact congrFun h 0
  · rintro rfl; rfl

/-- A rank-1 index set is its coordinate range … -/
private def idxEquiv1 {n0 : ℕ} : (⟨1, ![n0]⟩ : Shape).Idx ≃ Fin n0 where
  toFun i := i 0
  invFun a := ix1 a
  left_inv i := (eq_ix1 i).symm
  right_inv _ := rfl

/-- … so a sum over it is the sum over the coordinate. -/
private theorem sum_idx1 {M : Type*} [AddCommMonoid M] {n0 : ℕ} (f : (⟨1, ![n0]⟩ : Shape).Idx → M) :
    ∑ i, f i = ∑ a : Fin n0, f (ix1 a) := by
  rw [← Equiv.sum_comp (idxEquiv1 (n0 := n0)).symm f]
  rfl

/-- THE ACCUMULATING ROW SCATTER AT (v, b), at the ideal values: the operand's element plus the sum, over the
    update rows a whose scatter index read signed is v, of update element (a, b). Rows whose index is negative
    or at least n contribute nothing. -/
theorem scatterAdd2_apply {φ : FTy} {n e k : ℕ} (d : ScatterDims ⟨2, ![n, k]⟩ ⟨2, ![e, 1]⟩ ⟨2, ![e, k]⟩)
    (huw : d.updateWindowDims = [1]) (hiw : d.insertedWindowDims = [0]) (hsd : d.scatterDimsToOperandDims = [0])
    (hiv : d.indexVectorDim = 1) (x : FVec Ideal ⟨2, ![n, k]⟩ φ) (idx : IVec ⟨2, ![e, 1]⟩ 32)
    (upd : FVec Ideal ⟨2, ![e, k]⟩ φ) (v : Fin n) (b : Fin k) :
    Host.scatterAdd (F := Ideal) d x idx upd (ix2 v b)
      = x (ix2 v b) + ∑ a ∈ Finset.univ.filter (fun a : Fin e => landOf n (idx (ix2 a 0)) = some v), upd (ix2 a b) := by
  show Ideal.hostScatterAdd d x idx upd (ix2 v b) = _
  unfold Ideal.hostScatterAdd
  refine congrArg (x (ix2 v b) + ·) ?_
  rw [Finset.sum_filter, Finset.sum_filter, sum_idx2]
  refine Finset.sum_congr rfl (fun a _ => ?_)
  simp only [scatter2_resultIdx d huw hiw hsd hiv]
  cases hL : landOf n (idx (ix2 a 0)) with
  | none => simp
  | some v' =>
    simp only [Option.map_some, Option.some.injEq, ix2_eq_iff]
    by_cases hv : v' = v
    · subst hv; simp
    · simp [hv]

/-- THE ACCUMULATING SCALAR SCATTER AT v, at the ideal values: the operand's element plus the sum, over the
    updates a whose scatter index read signed is v, of update element a. -/
theorem scatterAdd1_apply {φ : FTy} {n e : ℕ} (d : ScatterDims ⟨1, ![n]⟩ ⟨2, ![e, 1]⟩ ⟨1, ![e]⟩)
    (huw : d.updateWindowDims = []) (hiw : d.insertedWindowDims = [0]) (hsd : d.scatterDimsToOperandDims = [0])
    (hiv : d.indexVectorDim = 1) (x : FVec Ideal ⟨1, ![n]⟩ φ) (idx : IVec ⟨2, ![e, 1]⟩ 32)
    (upd : FVec Ideal ⟨1, ![e]⟩ φ) (v : Fin n) :
    Host.scatterAdd (F := Ideal) d x idx upd (ix1 v)
      = x (ix1 v) + ∑ a ∈ Finset.univ.filter (fun a : Fin e => landOf n (idx (ix2 a 0)) = some v), upd (ix1 a) := by
  show Ideal.hostScatterAdd d x idx upd (ix1 v) = _
  unfold Ideal.hostScatterAdd
  refine congrArg (x (ix1 v) + ·) ?_
  rw [Finset.sum_filter, Finset.sum_filter, sum_idx1]
  refine Finset.sum_congr rfl (fun a _ => ?_)
  simp only [scatter1_resultIdx d huw hiw hsd hiv]
  cases hL : landOf n (idx (ix2 a 0)) with
  | none => simp
  | some v' => simp [ix1_eq_iff]

/-! ## The vocabulary of the two programs' edge lists -/

/-- A source index counted from the end when negative: 100000 is added to it (the programs' select (cmpi slt s 0) (addi s 100000) s, read at one entry). -/
def wrapWord (s : BitVec 32) : BitVec 32 := Scalar.select (IntOp.cmpi .slt s 0#32) (IntOp.addi s 100000#32) s
/-- The row of the feature table an edge gathers: its wrapped source, clamped into the table. -/
def srcRow (e : (⟨2, ![2, 800000]⟩ : Shape).Idx → BitVec 32) (a : Fin 800000) : Fin 100000 := rowOf 100000 (by decide) (wrapWord (e (ix2 0 a)))
/-- The edges whose destination is node v (an edge whose destination is no node lands nowhere). -/
def inbox (e : (⟨2, ![2, 800000]⟩ : Shape).Idx → BitVec 32) (v : Fin 100000) : Finset (Fin 800000) := Finset.univ.filter (fun a => landOf 100000 (e (ix2 1 a)) = some v)
/-- The in-degree of v clipped below at one, as the programs compute it: max (0 + Σ over the inbox of 1) 1, the literals as their float words. -/
def degAt (e : (⟨2, ![2, 800000]⟩ : Shape).Idx → BitVec 32) (v : Fin 100000) : EReal := max (Ideal.ofBits .f32 0x00000000#32 + ∑ _a ∈ inbox e v, Ideal.ofBits .f32 0x3F800000#32) (Ideal.ofBits .f32 0x3F800000#32)

end Cert.Lib

end
-- ==== Proof.LibLayerAlgebra.lean ====
/-
  The layer algebra over the extended reals, for real-valued data. An extended real "is a real" when it is the coercion of
  one; sums, products, differences, and quotients by a nonzero real of such are such. A node's clipped in-degree is a real
  at least one. A relation's term of a layer, at one node and one output column: the sum over the node's inbox of the
  gathered rows, times the reciprocal of the clipped in-degree, then multiplied on the right by a weight column and summed
  over the features, is the inbox's sum of the rows' products with the column, divided by the clipped in-degree.
-/
import proofs.«118327_j29411936043504_1_alg».proof.Proof.LibRealAlgebra
import proofs.«118327_j29411936043504_1_alg».proof.Proof.LibGatherScatter

noncomputable section

namespace Cert.Lib

open Idealize.ShloMosaic Idealize.ShloMosaic.ValueIdx

/-- An extended real that is the coercion of a real. -/
def IsReal (x : EReal) : Prop := ∃ r : ℝ, x = (r : EReal)

theorem IsReal.coe (r : ℝ) : IsReal (r : EReal) := ⟨r, rfl⟩
theorem isReal_zero : IsReal 0 := ⟨0, rfl⟩
theorem isReal_one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.sum {ι : Type*} (s : Finset ι) {f : ι → EReal} (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))
theorem IsReal.div {x : EReal} (hx : IsReal x) {y : ℝ} (hy : y ≠ 0) : IsReal (Ideal.div x (y : EReal)) := by
  obtain ⟨a, rfl⟩ := hx; exact ⟨a / y, div_coe_coe a y hy⟩

/-- Adding one `n` times gives the real `n`. -/
theorem nsmul_one_coe (n : ℕ) : n • (1 : EReal) = ((n : ℝ) : EReal) := by
  induction n with
  | zero => simp
  | succ n ih => rw [succ_nsmul, ih, Nat.cast_succ, EReal.coe_add]; rfl

/-- The clipped in-degree is a real, and at least one: the maximum of a count and one. -/
theorem degAt_real (e : (⟨2, ![2, 800000]⟩ : Shape).Idx → BitVec 32) (v : Fin 100000) :
    ∃ r : ℝ, 1 ≤ r ∧ degAt e v = (r : EReal) := by
  refine ⟨max ((inbox e v).card : ℝ) 1, le_max_right _ _, ?_⟩
  unfold degAt
  rw [ofBits_zero, ofBits_one, zero_add, Finset.sum_const, nsmul_one_coe,
    show (1 : EReal) = ((1 : ℝ) : EReal) from rfl]
  exact (EReal.coe_strictMono.monotone.map_max).symm

/-- The mean of gathered rows, then the weights, is the inbox's sum of products divided by the count. -/
theorem rel_term {K : Type*} [Fintype K] (S : Finset (Fin 800000)) (X : Fin 800000 → K → EReal) (W : K → EReal) (c : EReal)
    (hX : ∀ a k, IsReal (X a k)) (hW : ∀ k, IsReal (W k)) (hc : ∃ r : ℝ, 1 ≤ r ∧ c = (r : EReal)) :
    (∑ k, ((Ideal.ofBits .f32 0x00000000#32 + ∑ a ∈ S, X a k) * Ideal.div (Ideal.ofBits .f32 0x3F800000#32) c) * W k)
      = Ideal.div (Ideal.ofBits .f32 0x00000000#32 + ∑ a ∈ S, ∑ k, X a k * W k) c := by
  obtain ⟨c', hc1, rfl⟩ := hc
  have hc0 : c' ≠ 0 := by linarith
  choose X' hX' using hX
  choose W' hW' using hW
  simp only [hX', hW', ofBits_zero, ofBits_one, zero_add]
  rw [show (1 : EReal) = ((1 : ℝ) : EReal) from rfl, div_coe_coe 1 c' hc0]
  simp only [← EReal.coe_mul, coe_sum]
  rw [div_coe_coe _ c' hc0, mean_then_weights_real S X' W' c' hc0]

end Cert.Lib

end
-- ==== Proof.PreReal.lean ====
/- From the precondition to real inputs. The precondition says that a printed predicate — the conjunction, over the nine
   float arguments, of "every entry's absolute value is below +∞" — evaluates to 1 on every device. An extended real whose
   absolute value is below +∞ is neither +∞ nor −∞, so it is the coercion of a real; a conjunction of one-bit words that is 1
   has every conjunct 1; and an all-axes reduction by "and" that is 1 had a 1 at every index. Hence every entry of every
   float argument is a real. -/
import proofs.«118327_j29411936043504_1_alg».proof.Defs
import proofs.«118327_j29411936043504_1_alg».proof.Proof.LibLayerAlgebra
import Idealize.ShloMosaic.Lib.ReduceAll
import Idealize.ShloMosaic.Lib.ValueIdx

noncomputable section

namespace Cert.KernelIdeal.PreReal

open Idealize.ShloMosaic Idealize.SL.Sem Cert.KernelIdeal Cert.Lib

/-- The rank-0 shape has one index. -/
instance : Subsingleton Cert.Pre_finite_inputs.S_.Idx := ⟨fun a b => funext fun d => d.elim0⟩

/-- The word of +∞ denotes the top element. -/
theorem ofBits_inf : Ideal.ofBits .f32 0x7F800000#32 = ⊤ := by
  simp [Ideal.ofBits, Ideal.ieee]

/-- An extended real whose absolute value compares below +∞ is a real. -/
theorem isReal_of_abs_lt_inf (x : Ideal .f32)
    (h : FloatOps.cmpf (F := Ideal) .olt (FloatOps.hostAbsf x) (FloatOps.ofBits .f32 0x7F800000#32) = 1#1) : IsReal x := by
  change Ideal.cmp .olt (max x (-x)) (Ideal.ofBits .f32 0x7F800000#32) = 1#1 at h
  rw [ofBits_inf] at h
  induction x using EReal.rec with
  | bot => simp [Ideal.cmp] at h
  | coe r => exact ⟨r, rfl⟩
  | top => simp [Ideal.cmp] at h

/-- One argument: if the all-axes "and" of the entrywise test "absolute value below +∞" is 1, every entry is a real. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant Cert.Pre_finite_inputs.S_ .f32 0x7F800000#32)))
          (constantI Cert.Pre_finite_inputs.S_ 1 1#1) hr hu ValueIdx.ix0 = 1#1) (i : s.Idx) : IsReal (x i) :=
  isReal_of_abs_lt_inf (x i) (Host.reduce_andi_all _ _ hr hu _ e i)

/-- Under the precondition every entry of every float argument is a real, on every device. -/
theorem real_inputs [hPre_finite_inputs : Cert.Pre_finite_inputs.Facts]
    (m : (ℓ : Loc nD τ sig) → Buf (Elt Ideal) ℓ) (h : Cert.Pre_KernelIdeal m) :
    ∀ c : Dev nD,
      (∀ i, IsReal (m ((c.tc : Thread nD τ).loc main_arg0) i))
      ∧ (∀ i, IsReal (m ((c.tc : Thread nD τ).loc main_arg3) i))
      ∧ (∀ i, IsReal (m ((c.tc : Thread nD τ).loc main_arg4) i))
      ∧ (∀ i, IsReal (m ((c.tc : Thread nD τ).loc main_arg5) i))
      ∧ (∀ i, IsReal (m ((c.tc : Thread nD τ).loc main_arg6) i))
      ∧ (∀ i, IsReal (m ((c.tc : Thread nD τ).loc main_arg7) i))
      ∧ (∀ i, IsReal (m ((c.tc : Thread nD τ).loc main_arg8) i))
      ∧ (∀ i, IsReal (m ((c.tc : Thread nD τ).loc main_arg9) i))
      ∧ (∀ i, IsReal (m ((c.tc : Thread nD τ).loc main_arg10) i)) := by
  intro c
  have h0 := congrFun (h c) ValueIdx.ix0
  dsimp only [Cert.Pre_finite_inputs.fn, Cert.Pre_finite_inputs.fn_part1, Cert.Pre_finite_inputs.fn_part2, andi] at h0
  simp only [IntOp.andi_eq_one] at h0
  obtain ⟨⟨⟨⟨⟨⟨⟨⟨e0, e3⟩, e4⟩, e5⟩, e6⟩, e7⟩, e8⟩, e9⟩, e10⟩ := h0
  exact ⟨all_real _ _ _ _ e0, all_real _ _ _ _ e3, all_real _ _ _ _ e4, all_real _ _ _ _ e5, all_real _ _ _ _ e6,
    all_real _ _ _ _ e7, all_real _ _ _ _ e8, all_real _ _ _ _ e9, all_real _ _ _ _ e10⟩

end Cert.KernelIdeal.PreReal

end
-- ==== Proof.NetAlgebra.lean ====
/-
  Scalar algebra of the network's non-linear steps, over the extended reals.

  A node's new feature is a rectified two-layer perceptron of (own row + sum of neighbour rows); then each feature
  column is normalised by its mean and variance over all 50000 nodes and rectified again.  The normalisation is
  written in two ways: "subtract the mean, scale by the reciprocal deviation, scale by gamma, add beta", and
  "scale by (gamma times the reciprocal deviation), add (beta minus mean times that scale)".  Over the reals the
  two agree by distributivity; over the extended reals distributivity fails at the infinities, so the agreement is
  proved for REAL entries, and this file also shows that every intermediate value is real when the inputs are:
  finite sums and products of reals, a maximum of reals, a quotient by 50000, and the reciprocal square root of
  (variance + epsilon), which is positive because a variance is a mean of squares and epsilon is positive.
-/
import proofs.«118327_j29411936043504_1_alg».proof.Proof.LibLayerAlgebra

noncomputable section

open scoped BigOperators
open Idealize.ShloMosaic

namespace Cert.Gin

open Cert.Lib

/-- The word of 50000.0 denotes the real 50000. -/
theorem ofBits_5e4 : Ideal.ofBits .f32 0x47435000#32 = ((50000 : ℝ) : EReal) := by
  simp [Ideal.ofBits, Ideal.ieee, -EReal.coe_mul]; norm_num

/-- A maximum of two reals is real. -/
theorem isReal_max {x y : EReal} (hx : IsReal x) (hy : IsReal y) : IsReal (max x y) := by
  rcases le_total x y with h | h
  · rwa [max_eq_right h]
  · rwa [max_eq_left h]

/-- The reciprocal square root of a positive real is real. -/
theorem rsqrt_isReal_of_pos (t : ℝ) (ht : 0 < t) : IsReal (Ideal.rsqrt (t : EReal)) := by
  show IsReal (if t < 0 then (⊥ : EReal) else if t = 0 then ⊤ else (((Real.sqrt t)⁻¹ : ℝ) : EReal))
  rw [if_neg (not_lt.mpr ht.le), if_neg ht.ne']
  exact ⟨_, rfl⟩

/-! ## The perceptron at one node and one feature -/

/-- Entry (r, c) of the rectified two-layer perceptron applied to x + a. -/
def mlpAt (x a : Fin 50000 → Fin 64 → EReal) (w1 : Fin 64 → Fin 64 → EReal) (b1 : Fin 64 → EReal)
    (w2 : Fin 64 → Fin 64 → EReal) (b2 : Fin 64 → EReal) (r : Fin 50000) (c : Fin 64) : EReal :=
  max ((∑ k : Fin 64, max ((∑ j : Fin 64, (x r j + a r j) * w1 j k) + b1 k) 0 * w2 k c) + b2 c) 0

theorem mlpAt_isReal {x a : Fin 50000 → Fin 64 → EReal} {w1 : Fin 64 → Fin 64 → EReal} {b1 : Fin 64 → EReal}
    {w2 : Fin 64 → Fin 64 → EReal} {b2 : Fin 64 → EReal}
    (hx : ∀ r j, IsReal (x r j)) (ha : ∀ r j, IsReal (a r j)) (hw1 : ∀ j k, IsReal (w1 j k)) (hb1 : ∀ k, IsReal (b1 k))
    (hw2 : ∀ j k, IsReal (w2 j k)) (hb2 : ∀ k, IsReal (b2 k)) (r : Fin 50000) (c : Fin 64) :
    IsReal (mlpAt x a w1 b1 w2 b2 r c) := by
  unfold mlpAt
  refine isReal_max (IsReal.add (IsReal.sum _ fun k _ => IsReal.mul (isReal_max (IsReal.add (IsReal.sum _ fun j _ =>
    IsReal.mul (IsReal.add (hx r j) (ha r j)) (hw1 j k)) (hb1 k)) isReal_zero) (hw2 k c)) (hb2 c)) isReal_zero

/-! ## A column's mean and reciprocal deviation -/

/-- The mean of a column over the 50000 nodes, as the host computes it: (0 + sum) / 50000. -/
def meanAt (h : Fin 50000 → EReal) : EReal :=
  Ideal.div (0 + ∑ r : Fin 50000, h r) (Ideal.ofBits .f32 0x47435000#32)

/-- The reciprocal deviation of a column: 1 / sqrt (mean of squared deviations + epsilon). -/
def rstdAt (h : Fin 50000 → EReal) : EReal :=
  Ideal.rsqrt (Ideal.div (0 + ∑ r : Fin 50000, (h r - meanAt h) * (h r - meanAt h)) (Ideal.ofBits .f32 0x47435000#32)
    + Ideal.ofBits .f32 0x3727C5AC#32)

theorem meanAt_isReal {h : Fin 50000 → EReal} (hh : ∀ r, IsReal (h r)) : IsReal (meanAt h) := by
  unfold meanAt
  rw [ofBits_5e4]
  exact IsReal.div (IsReal.add isReal_zero (IsReal.sum _ fun r _ => hh r)) (by norm_num)

theorem rstdAt_isReal {h : Fin 50000 → EReal} (hh : ∀ r, IsReal (h r)) : IsReal (rstdAt h) := by
  obtain ⟨mu, hmu⟩ := meanAt_isReal hh
  choose h' hh' using hh
  obtain ⟨e, he, hE⟩ := ofBits_eps
  unfold rstdAt
  rw [hmu, hE, ofBits_5e4]
  have hs : (0 + ∑ r : Fin 50000, (h r - (mu : EReal)) * (h r - (mu : EReal)))
      = ((∑ r : Fin 50000, (h' r - mu) * (h' r - mu) : ℝ) : EReal) := by
    rw [zero_add, ← coe_sum]
    refine Finset.sum_congr rfl fun r _ => ?_
    rw [hh' r, ← EReal.coe_sub, ← EReal.coe_mul]
  rw [hs, div_coe_coe _ _ (by norm_num), ← EReal.coe_add]
  refine rsqrt_isReal_of_pos _ ?_
  have : 0 ≤ (∑ r : Fin 50000, (h' r - mu) * (h' r - mu)) / 50000 :=
    div_nonneg (Finset.sum_nonneg fun r _ => mul_self_nonneg _) (by norm_num)
  linarith

/-! ## Normalise and rectify, in the two arrangements -/

/-- "scale by (gamma * rs), add (beta - mu * (gamma * rs))", rectified. -/
def bnScaleShiftAt (h mu rs g b : EReal) : EReal := max (h * (g * rs) + (b - mu * (g * rs))) 0

/-- "subtract mu, scale by rs, scale by gamma, add beta", rectified. -/
def bnCentredAt (h mu rs g b : EReal) : EReal := max (((h - mu) * rs) * g + b) 0

/-- Over real entries the two arrangements agree (distributivity of the reals). -/
theorem bn_arrangements_eq {h mu rs g b : EReal} (hh : IsReal h) (hmu : IsReal mu) (hrs : IsReal rs) (hg : IsReal g)
    (hb : IsReal b) : bnScaleShiftAt h mu rs g b = bnCentredAt h mu rs g b := by
  obtain ⟨h', rfl⟩ := hh
  obtain ⟨mu', rfl⟩ := hmu
  obtain ⟨rs', rfl⟩ := hrs
  obtain ⟨g', rfl⟩ := hg
  obtain ⟨b', rfl⟩ := hb
  unfold bnScaleShiftAt bnCentredAt
  congr 1
  rw [← EReal.coe_mul, ← EReal.coe_mul, ← EReal.coe_mul, ← EReal.coe_sub, ← EReal.coe_add,
    ← EReal.coe_sub, ← EReal.coe_mul, ← EReal.coe_mul, ← EReal.coe_add]
  congr 1
  ring

theorem bnCentredAt_isReal {h mu rs g b : EReal} (hh : IsReal h) (hmu : IsReal mu) (hrs : IsReal rs) (hg : IsReal g)
    (hb : IsReal b) : IsReal (bnCentredAt h mu rs g b) :=
  isReal_max (IsReal.add (IsReal.mul (IsReal.mul (IsReal.sub hh hmu) hrs) hg) hb) isReal_zero

end Cert.Gin

end
-- ==== Proof.RefForm.lean ====
/-
  One round of the network as array-level functions over the host's own operations, and what each holds index by
  index over the extended reals.

  A round maps the node features X (50000 x 64) to
      normalise-and-rectify ( perceptron ( X + aggregate X ) )
  where aggregate X sums, into each node's row, the rows of X named by the edge list (a row gather followed by an
  accumulating row scatter into zeros); the perceptron is two 64 x 64 matrix products with bias rows and rectifiers;
  and the normalisation subtracts each column's mean over the nodes, scales by the reciprocal deviation and by gamma,
  and adds beta.  The reference program is three such rounds followed by a per-graph row sum and a linear read-out;
  the rounds are literally these functions applied to its earlier values (the equalities by unfolding are stated in
  another module).  Here each function is read at an index: a matrix product is a sum over the contracted axis, a
  column sum is the initial value plus the sum down the column, a row broadcast reads its vector at the column.
-/
import proofs.«118327_j29411936043504_1_alg».proof.Proof.ReferenceReadPatched
import proofs.«118327_j29411936043504_1_alg».proof.Proof.NetAlgebra
import Idealize.ShloMosaic.Lib.ValueIdx
import Idealize.ShloMosaic.Lib.Pipeline.Value
import Idealize.ShloMosaic.PureOps.Ideal.Laws

noncomputable section

open scoped BigOperators

namespace Cert.Gin

open Cert.ReferenceIdeal Cert.ReferenceIdeal.Gen Cert.ReferenceIdeal.ReadP Idealize.ShloMosaic Idealize.ShloMosaic.ValueIdx Cert.Lib

abbrev Feat := FVec Ideal S50000x64 .f32
abbrev Wmat := FVec Ideal S64x64 .f32
abbrev Vec64 := FVec Ideal S64 .f32
abbrev Edges := (⟨S2x800000, .i32⟩ : BufTy).Contents (Elt Ideal)

/-! ## The functions -/

/-- The all-zero feature array the rectifier compares against. -/
def zeroFeat : Feat := val_main_call0_v0 (F := Ideal)

/-- A 64-vector repeated down the 50000 rows. -/
def rowB (b : Vec64) : Feat :=
  broadcastInDim S50000x64 ![0, 1] bcast_S1x64_S50000x64_0_1 (broadcastInDim S1x64 ![1] bcast_S64_S1x64_1 b)

/-- Each node's sum of the rows its incoming edges name. -/
def aggRef (X : Feat) (e : Edges) : Feat :=
  Host.scatterAdd (F := Ideal) scatter_S50000x64_S800000x1_S800000x64_1_0_0_1 (val_main_v4 (F := Ideal)) (val_main_v17 (F := Ideal) e)
    (Host.gather gather_S50000x64_S800000x1_S800000x64_1_0_n_n_0_1_164 X (val_main_v10 (F := Ideal) e))

/-- The rectified two-layer perceptron of X + A. -/
def mlpRef (X A : Feat) (W1s : Wmat) (b1v : Vec64) (W2s : Wmat) (b2v : Vec64) : Feat :=
  maximumf (F := Ideal) (addf (F := Ideal) (Host.dotGeneral (F := Ideal) dot_S50000x64_S64x64_S50000x64_1_0_0_1_n_n none
    (maximumf (F := Ideal) (addf (F := Ideal) (Host.dotGeneral (F := Ideal) dot_S50000x64_S64x64_S50000x64_1_0_0_1_n_n none (addf (F := Ideal) X A) W1s) (rowB b1v)) zeroFeat) W2s) (rowB b2v)) zeroFeat

/-- Column means over the nodes. -/
def meanRef (H : Feat) : Vec64 :=
  Host.divf (F := Ideal) (Host.reduceAdd (F := Ideal) H (val_main_cst_3 (F := Ideal)) reducesTo_S50000x64_S64_d0 h_S_) (val_main_v39 (F := Ideal))

/-- Column reciprocal deviations: 1 / sqrt (mean squared deviation + epsilon). -/
def rstdRef (H : Feat) : Vec64 :=
  Host.rsqrt (F := Ideal) (addf (F := Ideal) (Host.divf (F := Ideal) (Host.reduceAdd (F := Ideal) (mulf (F := Ideal) (subf (F := Ideal) H (rowB (meanRef H))) (subf (F := Ideal) H (rowB (meanRef H))))
    (val_main_cst_5 (F := Ideal)) reducesTo_S50000x64_S64_d0 h_S_) (val_main_v46 (F := Ideal))) (val_main_v51 (F := Ideal)))

/-- Normalise each column, scale by g, add b, rectify. -/
def bnRef (H : Feat) (g b : Vec64) : Feat :=
  maximumf (F := Ideal) (addf (F := Ideal) (mulf (F := Ideal) (mulf (F := Ideal) (subf (F := Ideal) H (rowB (meanRef H))) (rowB (rstdRef H))) (rowB g)) (rowB b)) zeroFeat

/-- One round. -/
def layerRef (X : Feat) (e : Edges) (W1s : Wmat) (b1v : Vec64) (W2s : Wmat) (b2v g b : Vec64) : Feat :=
  bnRef (mlpRef X (aggRef X e) W1s b1v W2s b2v) g b

/-! ## Read at an index -/

theorem zeroFeat_apply (i : S50000x64.Idx) : zeroFeat i = 0 := by
  unfold zeroFeat
  rw [val_main_call0_v0_apply, val_main_call0_cst_apply]
  exact Ideal.ofBits_zero_f32

theorem rowB_apply (b : Vec64) (r : Fin 50000) (c : Fin 64) : rowB b (ix2 r c) = b (ix1 c) := by
  unfold rowB
  rw [broadcastInDim_apply _ bcast_S1x64_S50000x64_0_1 _ (ix2 r c) (ix2 (0 : Fin 1) c) (fun a => match a with
    | ⟨0, _⟩ => by show (0 : ℕ) = if (1 : Nat) = 1 then 0 else r.val; rw [if_pos rfl]
    | ⟨1, _⟩ => by show c.val = if (64 : Nat) = 1 then 0 else c.val; rw [if_neg (by decide)])]
  exact broadcastInDim_apply _ bcast_S64_S1x64_1 b (ix2 (0 : Fin 1) c) (ix1 c) (fun a => match a with
    | ⟨0, _⟩ => by show c.val = if (64 : Nat) = 1 then 0 else c.val; rw [if_neg (by decide)])

/-- A 50000 x 64 by 64 x 64 product at (r, c): the sum over the contracted axis. -/
theorem dot_apply (L : Feat) (R : Wmat) (r : Fin 50000) (c : Fin 64) :
    Host.dotGeneral (F := Ideal) dot_S50000x64_S64x64_S50000x64_1_0_0_1_n_n none L R (ix2 r c) = ∑ k : Fin 64, L (ix2 r k) * R (ix2 k c) := by
  simp only [Host.dotGeneral]
  rw [Ideal.dotGeneral_apply, ← Equiv.sum_comp (ValueIdx.contrEquiv1 dot_S50000x64_S64x64_S50000x64_1_0_0_1_n_n 64 rfl rfl).symm]
  refine Finset.sum_congr rfl fun k _ => ?_
  have hk := ValueIdx.contrEquiv1_symm_val dot_S50000x64_S64x64_S50000x64_1_0_0_1_n_n 64 rfl rfl k
  have el : dot_S50000x64_S64x64_S50000x64_1_0_0_1_n_n.lhsIdx (ix2 r c) ((ValueIdx.contrEquiv1 dot_S50000x64_S64x64_S50000x64_1_0_0_1_n_n 64 rfl rfl).symm k) = ix2 r k := funext fun a => Fin.ext (by
    match a with
    | ⟨0, _⟩ => exact lhs_main_v22_0 _ _
    | ⟨1, _⟩ => exact (lhs_main_v22_1 _ _).trans hk)
  have er : dot_S50000x64_S64x64_S50000x64_1_0_0_1_n_n.rhsIdx (ix2 r c) ((ValueIdx.contrEquiv1 dot_S50000x64_S64x64_S50000x64_1_0_0_1_n_n 64 rfl rfl).symm k) = ix2 k c := funext fun a => Fin.ext (by
    match a with
    | ⟨0, _⟩ => exact (rhs_main_v22_0 _ _).trans hk
    | ⟨1, _⟩ => exact rhs_main_v22_1 _ _)
  rw [el, er]

/-- A column sum at c: the initial value plus the sum down the column. -/
theorem colsum_apply (H : Feat) (z : FVec Ideal S_ .f32) (c : Fin 64) :
    Host.reduceAdd (F := Ideal) H z reducesTo_S50000x64_S64_d0 h_S_ (ix1 c) = z (Shape.Idx.first h_S_) + ∑ r : Fin 50000, H (ix2 r c) := by
  simp only [Host.reduceAdd, Ideal.hostReduceAdd_def]
  rw [Ideal.hostReduceAdd_single reducesTo_S50000x64_S64_d0 (by decide)]
  refine congrArg (_ + ·) (Finset.sum_congr rfl fun k _ => ?_)
  exact congrArg H (funext fun a => Fin.ext (by match a with | ⟨0, _⟩ => rfl | ⟨1, _⟩ => rfl))

theorem mlpRef_apply (X A : Feat) (W1s : Wmat) (b1v : Vec64) (W2s : Wmat) (b2v : Vec64) (r : Fin 50000) (c : Fin 64) :
    mlpRef X A W1s b1v W2s b2v (ix2 r c)
      = mlpAt (fun r j => X (ix2 r j)) (fun r j => A (ix2 r j)) (fun j k => W1s (ix2 j k)) (fun k => b1v (ix1 k))
          (fun j k => W2s (ix2 j k)) (fun k => b2v (ix1 k)) r c := by
  unfold mlpRef mlpAt
  simp only [maximumf_apply, addf_apply, dot_apply, rowB_apply, zeroFeat_apply]

theorem meanRef_apply (H : Feat) (c : Fin 64) : meanRef H (ix1 c) = meanAt (fun r => H (ix2 r c)) := by
  unfold meanRef meanAt
  show Ideal.div (Host.reduceAdd (F := Ideal) H (val_main_cst_3 (F := Ideal)) reducesTo_S50000x64_S64_d0 h_S_ (ix1 c)) (val_main_v39 (F := Ideal) (ix1 c)) = _
  rw [colsum_apply, val_main_v39_apply, val_main_cst_4_apply, val_main_cst_3_apply]
  simp only [Ideal.ofBits_def, Ideal.ofBits_zero_f32]

theorem rstdRef_apply (H : Feat) (c : Fin 64) : rstdRef H (ix1 c) = rstdAt (fun r => H (ix2 r c)) := by
  unfold rstdRef rstdAt
  show Ideal.rsqrt (Ideal.div (Host.reduceAdd (F := Ideal) (mulf (F := Ideal) (subf (F := Ideal) H (rowB (meanRef H))) (subf (F := Ideal) H (rowB (meanRef H))))
      (val_main_cst_5 (F := Ideal)) reducesTo_S50000x64_S64_d0 h_S_ (ix1 c)) (val_main_v46 (F := Ideal) (ix1 c))
    + val_main_v51 (F := Ideal) (ix1 c)) = _
  rw [colsum_apply, val_main_v46_apply, val_main_cst_6_apply, val_main_cst_5_apply, val_main_v51_apply, val_main_cst_7_apply]
  simp only [Ideal.ofBits_def, Ideal.ofBits_zero_f32, mulf_apply, subf_apply, rowB_apply, meanRef_apply]

theorem bnRef_apply (H : Feat) (g b : Vec64) (r : Fin 50000) (c : Fin 64) :
    bnRef H g b (ix2 r c)
      = bnCentredAt (H (ix2 r c)) (meanAt (fun r => H (ix2 r c))) (rstdAt (fun r => H (ix2 r c))) (g (ix1 c)) (b (ix1 c)) := by
  unfold bnRef bnCentredAt
  simp only [maximumf_apply, addf_apply, mulf_apply, subf_apply, rowB_apply, zeroFeat_apply, meanRef_apply, rstdRef_apply]

/-! ## Reality is preserved -/

/-- The aggregate of real rows is real: each entry is a zero plus a finite sum of entries of X. -/
theorem aggRef_isReal (X : Feat) (e : Edges) (hX : ∀ i, IsReal (X i)) (r : Fin 50000) (c : Fin 64) : IsReal (aggRef X e (ix2 r c)) := by
  unfold aggRef
  rw [scatterAdd2_apply (n := 50000) (e := 800000) (k := 64) scatter_S50000x64_S800000x1_S800000x64_1_0_0_1 rfl rfl rfl rfl]
  refine IsReal.add ?_ (IsReal.sum _ fun a _ => ?_)
  · rw [val_main_v4_apply, val_main_cst_apply]
    exact ⟨0, Ideal.ofBits_zero_f32⟩
  · rw [gather_rows_apply (n := 50000) (e := 800000) (k := 64) (by decide) gather_S50000x64_S800000x1_S800000x64_1_0_n_n_0_1_164 rfl rfl rfl rfl rfl rfl rfl]
    exact hX _

end Cert.Gin

end
-- ==== Proof.RefIs.lean ====
/-
  The reference program's result is three rounds and a read-out.

  The reference unrolls its three rounds, so its text names every intermediate array separately; each round's value
  is nevertheless the one function `layerRef` of the previous round's value, the edge list and that round's slices of
  the weights, and the result is the read-out `tailRef` of the third round's value: a sum of node rows per graph, one
  64 x 1 matrix product and a bias.  Each equation holds by unfolding the definitions.
-/
import proofs.«118327_j29411936043504_1_alg».proof.Proof.RefForm

noncomputable section

namespace Cert.Gin

open Cert.ReferenceIdeal Cert.ReferenceIdeal.Gen Cert.ReferenceIdeal.ReadP Idealize.ShloMosaic

abbrev Batch := (⟨S50000, .i32⟩ : BufTy).Contents (Elt Ideal)
abbrev W3 := FVec Ideal S3x64x64 .f32
abbrev B3 := FVec Ideal S3x64 .f32
abbrev WfT := FVec Ideal S64x1 .f32
abbrev BfT := FVec Ideal S1 .f32
abbrev OutT := FVec Ideal S256x1 .f32

/-- The read-out: per-graph sums of node rows, times the 64 x 1 weights, plus the bias. -/
def tailRef (X : Feat) (x2 : Batch) (x9 : WfT) (x10 : BfT) : OutT :=
  addf (F := Ideal) (Host.dotGeneral (F := Ideal) dot_S256x64_S64x1_S256x1_1_0_0_1_n_n none
    (Host.scatterAdd (F := Ideal) scatter_S256x64_S50000x1_S50000x64_1_0_0_1 (val_main_v196 (F := Ideal)) (val_main_v197 (F := Ideal) x2) X) x9)
    (val_main_v201 (F := Ideal) x10)

/-- Round one of the whole network, as a function of the arguments. -/
def round1 (x0 : Feat) (x1 : Edges) (x3 : W3) (x4 : B3) (x5 : W3) (x6 x7 x8 : B3) : Feat :=
  layerRef x0 x1 (val_main_v21 (F := Ideal) x3) (val_main_v24 (F := Ideal) x4) (val_main_v30 (F := Ideal) x5)
    (val_main_v33 (F := Ideal) x6) (val_main_v58 (F := Ideal) x7) (val_main_v63 (F := Ideal) x8)

def round2 (x0 : Feat) (x1 : Edges) (x3 : W3) (x4 : B3) (x5 : W3) (x6 x7 x8 : B3) : Feat :=
  layerRef (round1 x0 x1 x3 x4 x5 x6 x7 x8) x1 (val_main_v85 (F := Ideal) x3) (val_main_v88 (F := Ideal) x4) (val_main_v94 (F := Ideal) x5)
    (val_main_v97 (F := Ideal) x6) (val_main_v122 (F := Ideal) x7) (val_main_v127 (F := Ideal) x8)

def round3 (x0 : Feat) (x1 : Edges) (x3 : W3) (x4 : B3) (x5 : W3) (x6 x7 x8 : B3) : Feat :=
  layerRef (round2 x0 x1 x3 x4 x5 x6 x7 x8) x1 (val_main_v149 (F := Ideal) x3) (val_main_v152 (F := Ideal) x4) (val_main_v158 (F := Ideal) x5)
    (val_main_v161 (F := Ideal) x6) (val_main_v186 (F := Ideal) x7) (val_main_v191 (F := Ideal) x8)

/-- The whole network. -/
def net (x0 : Feat) (x1 : Edges) (x2 : Batch) (x3 : W3) (x4 : B3) (x5 : W3) (x6 x7 x8 : B3) (x9 : WfT) (x10 : BfT) : OutT :=
  tailRef (round3 x0 x1 x3 x4 x5 x6 x7 x8) x2 x9 x10

theorem ref_round1 (x0 : Feat) (x1 : Edges) (x3 : W3) (x4 : B3) (x5 : W3) (x6 x7 x8 : B3) :
    val_main_v67 (F := Ideal) x0 x1 x3 x4 x5 x6 x7 x8 = round1 x0 x1 x3 x4 x5 x6 x7 x8 := rfl

theorem ref_round2 (x0 : Feat) (x1 : Edges) (x3 : W3) (x4 : B3) (x5 : W3) (x6 x7 x8 : B3) :
    val_main_v131 (F := Ideal) x0 x1 x3 x4 x5 x6 x7 x8 = round2 x0 x1 x3 x4 x5 x6 x7 x8 := by
  unfold round2
  rw [← ref_round1]
  rfl

theorem ref_round3 (x0 : Feat) (x1 : Edges) (x3 : W3) (x4 : B3) (x5 : W3) (x6 x7 x8 : B3) :
    val_main_v195 (F := Ideal) x0 x1 x3 x4 x5 x6 x7 x8 = round3 x0 x1 x3 x4 x5 x6 x7 x8 := by
  unfold round3
  rw [← ref_round2]
  rfl

/-- The reference's result is the network of its arguments. -/
theorem ref_is_net (x0 : Feat) (x1 : Edges) (x2 : Batch) (x3 : W3) (x4 : B3) (x5 : W3) (x6 x7 x8 : B3) (x9 : WfT) (x10 : BfT) :
    val_main_v202 (F := Ideal) x0 x1 x2 x3 x4 x5 x6 x7 x8 x9 x10 = net x0 x1 x2 x3 x4 x5 x6 x7 x8 x9 x10 := by
  unfold net
  rw [← ref_round3]
  rfl

end Cert.Gin

end
-- ==== Proof.KernelHost.lean ====
/-
  The host stretches of the tiled program, each as a function of the buffer contents it starts from.

  Between the tiled regions the program runs plain array operations: before a perceptron region the aggregate of the
  current features over the edge list and that round's slices of the weights and biases (the biases reshaped to
  1 x 64 rows); before a normalising region the column means and reciprocal deviations of the perceptron's output and
  from them the scale row gamma * rstd and the shift row beta - mean * scale; after the last region the read-out.
  Each result is the same composition of operations the reference applies, so it is stated with the reference's
  functions, from ANY starting contents B.  The index vectors of the edge list are computed once, before the first
  region, and read again by the later stretches.
-/
import proofs.«118327_j29411936043504_1_alg».proof.Proof.Gen.KernelIdeal.Frame
import proofs.«118327_j29411936043504_1_alg».proof.Proof.RefIs
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo
open Cert.Gin (aggRef meanRef rstdRef tailRef)

variable (B : Valuation τ sig (Elt Ideal))

theorem st0_src : StableHlo.after hostOps0 B (Proc.devRef .tc main_v1) = Cert.ReferenceIdeal.ReadP.val_main_v1 (F := Ideal) (B (Proc.devRef .tc main_arg1)) := by
  after_results
  rfl

theorem st0_dst : StableHlo.after hostOps0 B (Proc.devRef .tc main_v3) = Cert.ReferenceIdeal.ReadP.val_main_v3 (F := Ideal) (B (Proc.devRef .tc main_arg1)) := by
  after_results
  rfl

set_option maxHeartbeats 4000000 in
/-- The aggregate the stretch before region 0 computes: the edge sums of the current features. -/
theorem st0_agg :
    StableHlo.after hostOps0 B (Proc.devRef .tc main_v18) = aggRef (B (Proc.devRef .tc main_arg0)) (B (Proc.devRef .tc main_arg1)) := by
  after_results_simp
  rfl

theorem st0_w1 : StableHlo.after hostOps0 B (Proc.devRef .tc main_v26) = Cert.ReferenceIdeal.ReadP.val_main_v21 (F := Ideal) (B (Proc.devRef .tc main_arg3)) := by
  after_results
  rfl

theorem st0_b1 : StableHlo.after hostOps0 B (Proc.devRef .tc main_v21) = shapeCast S1x64 (Cert.ReferenceIdeal.ReadP.val_main_v24 (F := Ideal) (B (Proc.devRef .tc main_arg4))) shapeCasts_S64_S1x64 := by
  after_results
  rfl

theorem st0_w2 : StableHlo.after hostOps0 B (Proc.devRef .tc main_v28) = Cert.ReferenceIdeal.ReadP.val_main_v30 (F := Ideal) (B (Proc.devRef .tc main_arg5)) := by
  after_results
  rfl

theorem st0_b2 : StableHlo.after hostOps0 B (Proc.devRef .tc main_v24) = shapeCast S1x64 (Cert.ReferenceIdeal.ReadP.val_main_v33 (F := Ideal) (B (Proc.devRef .tc main_arg6))) shapeCasts_S64_S1x64 := by
  after_results
  rfl

set_option maxHeartbeats 4000000 in
/-- The scale row the stretch before region 1 computes: gamma times the reciprocal deviation, as a 1 x 64 array. -/
theorem st1_scale : StableHlo.after hostOps1 B (Proc.devRef .tc main_v50)
    = shapeCast S1x64 (mulf (F := Ideal) (Cert.ReferenceIdeal.ReadP.val_main_v58 (F := Ideal) (B (Proc.devRef .tc main_arg7))) (rstdRef (B (Proc.devRef .tc main_v29)))) shapeCasts_S64_S1x64 := by
  after_results_simp
  rfl

set_option maxHeartbeats 4000000 in
/-- The shift row: beta minus mean times the scale, as a 1 x 64 array. -/
theorem st1_shift : StableHlo.after hostOps1 B (Proc.devRef .tc main_v51)
    = shapeCast S1x64 (subf (F := Ideal) (Cert.ReferenceIdeal.ReadP.val_main_v63 (F := Ideal) (B (Proc.devRef .tc main_arg8))) (mulf (F := Ideal) (meanRef (B (Proc.devRef .tc main_v29)))
        (mulf (F := Ideal) (Cert.ReferenceIdeal.ReadP.val_main_v58 (F := Ideal) (B (Proc.devRef .tc main_arg7))) (rstdRef (B (Proc.devRef .tc main_v29)))))) shapeCasts_S64_S1x64 := by
  after_results_simp
  rfl

set_option maxHeartbeats 4000000 in
/-- The aggregate the stretch before region 2 computes: the edge sums of the current features. -/
theorem st2_agg (e : Cert.Gin.Edges) (hv1 : B (Proc.devRef .tc main_v1) = Cert.ReferenceIdeal.ReadP.val_main_v1 (F := Ideal) e) (hv3 : B (Proc.devRef .tc main_v3) = Cert.ReferenceIdeal.ReadP.val_main_v3 (F := Ideal) e) :
    StableHlo.after hostOps2 B (Proc.devRef .tc main_v67) = aggRef (B (Proc.devRef .tc main_v52)) e := by
  after_results_simp
  rw [hv1, hv3]
  rfl

theorem st2_w1 : StableHlo.after hostOps2 B (Proc.devRef .tc main_v75) = Cert.ReferenceIdeal.ReadP.val_main_v85 (F := Ideal) (B (Proc.devRef .tc main_arg3)) := by
  after_results
  rfl

theorem st2_b1 : StableHlo.after hostOps2 B (Proc.devRef .tc main_v70) = shapeCast S1x64 (Cert.ReferenceIdeal.ReadP.val_main_v88 (F := Ideal) (B (Proc.devRef .tc main_arg4))) shapeCasts_S64_S1x64 := by
  after_results
  rfl

theorem st2_w2 : StableHlo.after hostOps2 B (Proc.devRef .tc main_v77) = Cert.ReferenceIdeal.ReadP.val_main_v94 (F := Ideal) (B (Proc.devRef .tc main_arg5)) := by
  after_results
  rfl

theorem st2_b2 : StableHlo.after hostOps2 B (Proc.devRef .tc main_v73) = shapeCast S1x64 (Cert.ReferenceIdeal.ReadP.val_main_v97 (F := Ideal) (B (Proc.devRef .tc main_arg6))) shapeCasts_S64_S1x64 := by
  after_results
  rfl

set_option maxHeartbeats 4000000 in
/-- The scale row the stretch before region 3 computes: gamma times the reciprocal deviation, as a 1 x 64 array. -/
theorem st3_scale : StableHlo.after hostOps3 B (Proc.devRef .tc main_v99)
    = shapeCast S1x64 (mulf (F := Ideal) (Cert.ReferenceIdeal.ReadP.val_main_v122 (F := Ideal) (B (Proc.devRef .tc main_arg7))) (rstdRef (B (Proc.devRef .tc main_v78)))) shapeCasts_S64_S1x64 := by
  after_results_simp
  rfl

set_option maxHeartbeats 4000000 in
/-- The shift row: beta minus mean times the scale, as a 1 x 64 array. -/
theorem st3_shift : StableHlo.after hostOps3 B (Proc.devRef .tc main_v100)
    = shapeCast S1x64 (subf (F := Ideal) (Cert.ReferenceIdeal.ReadP.val_main_v127 (F := Ideal) (B (Proc.devRef .tc main_arg8))) (mulf (F := Ideal) (meanRef (B (Proc.devRef .tc main_v78)))
        (mulf (F := Ideal) (Cert.ReferenceIdeal.ReadP.val_main_v122 (F := Ideal) (B (Proc.devRef .tc main_arg7))) (rstdRef (B (Proc.devRef .tc main_v78)))))) shapeCasts_S64_S1x64 := by
  after_results_simp
  rfl

set_option maxHeartbeats 4000000 in
/-- The aggregate the stretch before region 4 computes: the edge sums of the current features. -/
theorem st4_agg (e : Cert.Gin.Edges) (hv1 : B (Proc.devRef .tc main_v1) = Cert.ReferenceIdeal.ReadP.val_main_v1 (F := Ideal) e) (hv3 : B (Proc.devRef .tc main_v3) = Cert.ReferenceIdeal.ReadP.val_main_v3 (F := Ideal) e) :
    StableHlo.after hostOps4 B (Proc.devRef .tc main_v116) = aggRef (B (Proc.devRef .tc main_v101)) e := by
  after_results_simp
  rw [hv1, hv3]
  rfl

theorem st4_w1 : StableHlo.after hostOps4 B (Proc.devRef .tc main_v124) = Cert.ReferenceIdeal.ReadP.val_main_v149 (F := Ideal) (B (Proc.devRef .tc main_arg3)) := by
  after_results
  rfl

theorem st4_b1 : StableHlo.after hostOps4 B (Proc.devRef .tc main_v119) = shapeCast S1x64 (Cert.ReferenceIdeal.ReadP.val_main_v152 (F := Ideal) (B (Proc.devRef .tc main_arg4))) shapeCasts_S64_S1x64 := by
  after_results
  rfl

theorem st4_w2 : StableHlo.after hostOps4 B (Proc.devRef .tc main_v126) = Cert.ReferenceIdeal.ReadP.val_main_v158 (F := Ideal) (B (Proc.devRef .tc main_arg5)) := by
  after_results
  rfl

theorem st4_b2 : StableHlo.after hostOps4 B (Proc.devRef .tc main_v122) = shapeCast S1x64 (Cert.ReferenceIdeal.ReadP.val_main_v161 (F := Ideal) (B (Proc.devRef .tc main_arg6))) shapeCasts_S64_S1x64 := by
  after_results
  rfl

set_option maxHeartbeats 4000000 in
/-- The scale row the stretch before region 5 computes: gamma times the reciprocal deviation, as a 1 x 64 array. -/
theorem st5_scale : StableHlo.after hostOps5 B (Proc.devRef .tc main_v148)
    = shapeCast S1x64 (mulf (F := Ideal) (Cert.ReferenceIdeal.ReadP.val_main_v186 (F := Ideal) (B (Proc.devRef .tc main_arg7))) (rstdRef (B (Proc.devRef .tc main_v127)))) shapeCasts_S64_S1x64 := by
  after_results_simp
  rfl

set_option maxHeartbeats 4000000 in
/-- The shift row: beta minus mean times the scale, as a 1 x 64 array. -/
theorem st5_shift : StableHlo.after hostOps5 B (Proc.devRef .tc main_v149)
    = shapeCast S1x64 (subf (F := Ideal) (Cert.ReferenceIdeal.ReadP.val_main_v191 (F := Ideal) (B (Proc.devRef .tc main_arg8))) (mulf (F := Ideal) (meanRef (B (Proc.devRef .tc main_v127)))
        (mulf (F := Ideal) (Cert.ReferenceIdeal.ReadP.val_main_v186 (F := Ideal) (B (Proc.devRef .tc main_arg7))) (rstdRef (B (Proc.devRef .tc main_v127)))))) shapeCasts_S64_S1x64 := by
  after_results_simp
  rfl

/-- The read-out after the last region. -/
theorem st6_out : StableHlo.after hostOps6 B (Proc.devRef .tc main_v157)
    = tailRef (B (Proc.devRef .tc main_v150)) (B (Proc.devRef .tc main_arg2)) (B (Proc.devRef .tc main_arg9)) (B (Proc.devRef .tc main_arg10)) := by
  after_results
  rfl

end Cert.KernelIdeal.HostValue

end
-- ==== Proof.KernelCarry.lean ====
/-
  Buffers that nothing overwrites, carried through the run.

  The argument arrays, and the two index vectors of the edge list computed before the first region, are written by
  no later host operation and are the output of no region; so at every boundary between a host stretch and a region
  they still hold what they held before: an argument its launch contents, an index vector the reshaped row of the
  edge list.  One lemma per buffer and boundary, each from the previous boundary's.
-/
import proofs.«118327_j29411936043504_1_alg».proof.Proof.KernelHost

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

/-- A buffer none of a stretch's operations writes holds after the stretch what it held before. -/
macro "keep_tac" : tactic => `(tactic| (
  refine StableHlo.after_of_forall_not_mem _ _ (List.forall_iff_forall_mem.mp ?_)
  simp only [hostOps0, hostOps1, hostOps2, hostOps3, hostOps4, hostOps5, hostOps6, List.flatten_cons, List.flatten_nil,
    List.append_nil, List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg) (c : Dev nD)

theorem at0_arg0 : W0 m ρ c (Proc.devRef .tc main_arg0) = m ((c : Thread nD τ).loc main_arg0) := rfl
theorem at1_arg0 : W1 m ρ c (Proc.devRef .tc main_arg0) = m ((c : Thread nD τ).loc main_arg0) :=
  (show StableHlo.after hostOps0 (W0 m ρ c) (Proc.devRef .tc main_arg0) = W0 m ρ c (Proc.devRef .tc main_arg0) by keep_tac).trans (at0_arg0 m ρ c)

theorem at0_arg1 : W0 m ρ c (Proc.devRef .tc main_arg1) = m ((c : Thread nD τ).loc main_arg1) := rfl

theorem at0_arg2 : W0 m ρ c (Proc.devRef .tc main_arg2) = m ((c : Thread nD τ).loc main_arg2) := rfl
theorem at1_arg2 : W1 m ρ c (Proc.devRef .tc main_arg2) = m ((c : Thread nD τ).loc main_arg2) :=
  (show StableHlo.after hostOps0 (W0 m ρ c) (Proc.devRef .tc main_arg2) = W0 m ρ c (Proc.devRef .tc main_arg2) by keep_tac).trans (at0_arg2 m ρ c)
theorem at2_arg2 : W2 m ρ c (Proc.devRef .tc main_arg2) = m ((c : Thread nD τ).loc main_arg2) :=
  (W2_of_ne m ρ c main_arg2 (by decide)).trans (at1_arg2 m ρ c)
theorem at3_arg2 : W3 m ρ c (Proc.devRef .tc main_arg2) = m ((c : Thread nD τ).loc main_arg2) :=
  (show StableHlo.after hostOps1 (W2 m ρ c) (Proc.devRef .tc main_arg2) = W2 m ρ c (Proc.devRef .tc main_arg2) by keep_tac).trans (at2_arg2 m ρ c)
theorem at4_arg2 : W4 m ρ c (Proc.devRef .tc main_arg2) = m ((c : Thread nD τ).loc main_arg2) :=
  (W4_of_ne m ρ c main_arg2 (by decide)).trans (at3_arg2 m ρ c)
theorem at5_arg2 : W5 m ρ c (Proc.devRef .tc main_arg2) = m ((c : Thread nD τ).loc main_arg2) :=
  (show StableHlo.after hostOps2 (W4 m ρ c) (Proc.devRef .tc main_arg2) = W4 m ρ c (Proc.devRef .tc main_arg2) by keep_tac).trans (at4_arg2 m ρ c)
theorem at6_arg2 : W6 m ρ c (Proc.devRef .tc main_arg2) = m ((c : Thread nD τ).loc main_arg2) :=
  (W6_of_ne m ρ c main_arg2 (by decide)).trans (at5_arg2 m ρ c)
theorem at7_arg2 : W7 m ρ c (Proc.devRef .tc main_arg2) = m ((c : Thread nD τ).loc main_arg2) :=
  (show StableHlo.after hostOps3 (W6 m ρ c) (Proc.devRef .tc main_arg2) = W6 m ρ c (Proc.devRef .tc main_arg2) by keep_tac).trans (at6_arg2 m ρ c)
theorem at8_arg2 : W8 m ρ c (Proc.devRef .tc main_arg2) = m ((c : Thread nD τ).loc main_arg2) :=
  (W8_of_ne m ρ c main_arg2 (by decide)).trans (at7_arg2 m ρ c)
theorem at9_arg2 : W9 m ρ c (Proc.devRef .tc main_arg2) = m ((c : Thread nD τ).loc main_arg2) :=
  (show StableHlo.after hostOps4 (W8 m ρ c) (Proc.devRef .tc main_arg2) = W8 m ρ c (Proc.devRef .tc main_arg2) by keep_tac).trans (at8_arg2 m ρ c)
theorem at10_arg2 : W10 m ρ c (Proc.devRef .tc main_arg2) = m ((c : Thread nD τ).loc main_arg2) :=
  (W10_of_ne m ρ c main_arg2 (by decide)).trans (at9_arg2 m ρ c)
theorem at11_arg2 : W11 m ρ c (Proc.devRef .tc main_arg2) = m ((c : Thread nD τ).loc main_arg2) :=
  (show StableHlo.after hostOps5 (W10 m ρ c) (Proc.devRef .tc main_arg2) = W10 m ρ c (Proc.devRef .tc main_arg2) by keep_tac).trans (at10_arg2 m ρ c)
theorem at12_arg2 : W12 m ρ c (Proc.devRef .tc main_arg2) = m ((c : Thread nD τ).loc main_arg2) :=
  (W12_of_ne m ρ c main_arg2 (by decide)).trans (at11_arg2 m ρ c)

theorem at0_arg3 : W0 m ρ c (Proc.devRef .tc main_arg3) = m ((c : Thread nD τ).loc main_arg3) := rfl
theorem at1_arg3 : W1 m ρ c (Proc.devRef .tc main_arg3) = m ((c : Thread nD τ).loc main_arg3) :=
  (show StableHlo.after hostOps0 (W0 m ρ c) (Proc.devRef .tc main_arg3) = W0 m ρ c (Proc.devRef .tc main_arg3) by keep_tac).trans (at0_arg3 m ρ c)
theorem at2_arg3 : W2 m ρ c (Proc.devRef .tc main_arg3) = m ((c : Thread nD τ).loc main_arg3) :=
  (W2_of_ne m ρ c main_arg3 (by decide)).trans (at1_arg3 m ρ c)
theorem at3_arg3 : W3 m ρ c (Proc.devRef .tc main_arg3) = m ((c : Thread nD τ).loc main_arg3) :=
  (show StableHlo.after hostOps1 (W2 m ρ c) (Proc.devRef .tc main_arg3) = W2 m ρ c (Proc.devRef .tc main_arg3) by keep_tac).trans (at2_arg3 m ρ c)
theorem at4_arg3 : W4 m ρ c (Proc.devRef .tc main_arg3) = m ((c : Thread nD τ).loc main_arg3) :=
  (W4_of_ne m ρ c main_arg3 (by decide)).trans (at3_arg3 m ρ c)
theorem at5_arg3 : W5 m ρ c (Proc.devRef .tc main_arg3) = m ((c : Thread nD τ).loc main_arg3) :=
  (show StableHlo.after hostOps2 (W4 m ρ c) (Proc.devRef .tc main_arg3) = W4 m ρ c (Proc.devRef .tc main_arg3) by keep_tac).trans (at4_arg3 m ρ c)
theorem at6_arg3 : W6 m ρ c (Proc.devRef .tc main_arg3) = m ((c : Thread nD τ).loc main_arg3) :=
  (W6_of_ne m ρ c main_arg3 (by decide)).trans (at5_arg3 m ρ c)
theorem at7_arg3 : W7 m ρ c (Proc.devRef .tc main_arg3) = m ((c : Thread nD τ).loc main_arg3) :=
  (show StableHlo.after hostOps3 (W6 m ρ c) (Proc.devRef .tc main_arg3) = W6 m ρ c (Proc.devRef .tc main_arg3) by keep_tac).trans (at6_arg3 m ρ c)
theorem at8_arg3 : W8 m ρ c (Proc.devRef .tc main_arg3) = m ((c : Thread nD τ).loc main_arg3) :=
  (W8_of_ne m ρ c main_arg3 (by decide)).trans (at7_arg3 m ρ c)

theorem at0_arg4 : W0 m ρ c (Proc.devRef .tc main_arg4) = m ((c : Thread nD τ).loc main_arg4) := rfl
theorem at1_arg4 : W1 m ρ c (Proc.devRef .tc main_arg4) = m ((c : Thread nD τ).loc main_arg4) :=
  (show StableHlo.after hostOps0 (W0 m ρ c) (Proc.devRef .tc main_arg4) = W0 m ρ c (Proc.devRef .tc main_arg4) by keep_tac).trans (at0_arg4 m ρ c)
theorem at2_arg4 : W2 m ρ c (Proc.devRef .tc main_arg4) = m ((c : Thread nD τ).loc main_arg4) :=
  (W2_of_ne m ρ c main_arg4 (by decide)).trans (at1_arg4 m ρ c)
theorem at3_arg4 : W3 m ρ c (Proc.devRef .tc main_arg4) = m ((c : Thread nD τ).loc main_arg4) :=
  (show StableHlo.after hostOps1 (W2 m ρ c) (Proc.devRef .tc main_arg4) = W2 m ρ c (Proc.devRef .tc main_arg4) by keep_tac).trans (at2_arg4 m ρ c)
theorem at4_arg4 : W4 m ρ c (Proc.devRef .tc main_arg4) = m ((c : Thread nD τ).loc main_arg4) :=
  (W4_of_ne m ρ c main_arg4 (by decide)).trans (at3_arg4 m ρ c)
theorem at5_arg4 : W5 m ρ c (Proc.devRef .tc main_arg4) = m ((c : Thread nD τ).loc main_arg4) :=
  (show StableHlo.after hostOps2 (W4 m ρ c) (Proc.devRef .tc main_arg4) = W4 m ρ c (Proc.devRef .tc main_arg4) by keep_tac).trans (at4_arg4 m ρ c)
theorem at6_arg4 : W6 m ρ c (Proc.devRef .tc main_arg4) = m ((c : Thread nD τ).loc main_arg4) :=
  (W6_of_ne m ρ c main_arg4 (by decide)).trans (at5_arg4 m ρ c)
theorem at7_arg4 : W7 m ρ c (Proc.devRef .tc main_arg4) = m ((c : Thread nD τ).loc main_arg4) :=
  (show StableHlo.after hostOps3 (W6 m ρ c) (Proc.devRef .tc main_arg4) = W6 m ρ c (Proc.devRef .tc main_arg4) by keep_tac).trans (at6_arg4 m ρ c)
theorem at8_arg4 : W8 m ρ c (Proc.devRef .tc main_arg4) = m ((c : Thread nD τ).loc main_arg4) :=
  (W8_of_ne m ρ c main_arg4 (by decide)).trans (at7_arg4 m ρ c)

theorem at0_arg5 : W0 m ρ c (Proc.devRef .tc main_arg5) = m ((c : Thread nD τ).loc main_arg5) := rfl
theorem at1_arg5 : W1 m ρ c (Proc.devRef .tc main_arg5) = m ((c : Thread nD τ).loc main_arg5) :=
  (show StableHlo.after hostOps0 (W0 m ρ c) (Proc.devRef .tc main_arg5) = W0 m ρ c (Proc.devRef .tc main_arg5) by keep_tac).trans (at0_arg5 m ρ c)
theorem at2_arg5 : W2 m ρ c (Proc.devRef .tc main_arg5) = m ((c : Thread nD τ).loc main_arg5) :=
  (W2_of_ne m ρ c main_arg5 (by decide)).trans (at1_arg5 m ρ c)
theorem at3_arg5 : W3 m ρ c (Proc.devRef .tc main_arg5) = m ((c : Thread nD τ).loc main_arg5) :=
  (show StableHlo.after hostOps1 (W2 m ρ c) (Proc.devRef .tc main_arg5) = W2 m ρ c (Proc.devRef .tc main_arg5) by keep_tac).trans (at2_arg5 m ρ c)
theorem at4_arg5 : W4 m ρ c (Proc.devRef .tc main_arg5) = m ((c : Thread nD τ).loc main_arg5) :=
  (W4_of_ne m ρ c main_arg5 (by decide)).trans (at3_arg5 m ρ c)
theorem at5_arg5 : W5 m ρ c (Proc.devRef .tc main_arg5) = m ((c : Thread nD τ).loc main_arg5) :=
  (show StableHlo.after hostOps2 (W4 m ρ c) (Proc.devRef .tc main_arg5) = W4 m ρ c (Proc.devRef .tc main_arg5) by keep_tac).trans (at4_arg5 m ρ c)
theorem at6_arg5 : W6 m ρ c (Proc.devRef .tc main_arg5) = m ((c : Thread nD τ).loc main_arg5) :=
  (W6_of_ne m ρ c main_arg5 (by decide)).trans (at5_arg5 m ρ c)
theorem at7_arg5 : W7 m ρ c (Proc.devRef .tc main_arg5) = m ((c : Thread nD τ).loc main_arg5) :=
  (show StableHlo.after hostOps3 (W6 m ρ c) (Proc.devRef .tc main_arg5) = W6 m ρ c (Proc.devRef .tc main_arg5) by keep_tac).trans (at6_arg5 m ρ c)
theorem at8_arg5 : W8 m ρ c (Proc.devRef .tc main_arg5) = m ((c : Thread nD τ).loc main_arg5) :=
  (W8_of_ne m ρ c main_arg5 (by decide)).trans (at7_arg5 m ρ c)

theorem at0_arg6 : W0 m ρ c (Proc.devRef .tc main_arg6) = m ((c : Thread nD τ).loc main_arg6) := rfl
theorem at1_arg6 : W1 m ρ c (Proc.devRef .tc main_arg6) = m ((c : Thread nD τ).loc main_arg6) :=
  (show StableHlo.after hostOps0 (W0 m ρ c) (Proc.devRef .tc main_arg6) = W0 m ρ c (Proc.devRef .tc main_arg6) by keep_tac).trans (at0_arg6 m ρ c)
theorem at2_arg6 : W2 m ρ c (Proc.devRef .tc main_arg6) = m ((c : Thread nD τ).loc main_arg6) :=
  (W2_of_ne m ρ c main_arg6 (by decide)).trans (at1_arg6 m ρ c)
theorem at3_arg6 : W3 m ρ c (Proc.devRef .tc main_arg6) = m ((c : Thread nD τ).loc main_arg6) :=
  (show StableHlo.after hostOps1 (W2 m ρ c) (Proc.devRef .tc main_arg6) = W2 m ρ c (Proc.devRef .tc main_arg6) by keep_tac).trans (at2_arg6 m ρ c)
theorem at4_arg6 : W4 m ρ c (Proc.devRef .tc main_arg6) = m ((c : Thread nD τ).loc main_arg6) :=
  (W4_of_ne m ρ c main_arg6 (by decide)).trans (at3_arg6 m ρ c)
theorem at5_arg6 : W5 m ρ c (Proc.devRef .tc main_arg6) = m ((c : Thread nD τ).loc main_arg6) :=
  (show StableHlo.after hostOps2 (W4 m ρ c) (Proc.devRef .tc main_arg6) = W4 m ρ c (Proc.devRef .tc main_arg6) by keep_tac).trans (at4_arg6 m ρ c)
theorem at6_arg6 : W6 m ρ c (Proc.devRef .tc main_arg6) = m ((c : Thread nD τ).loc main_arg6) :=
  (W6_of_ne m ρ c main_arg6 (by decide)).trans (at5_arg6 m ρ c)
theorem at7_arg6 : W7 m ρ c (Proc.devRef .tc main_arg6) = m ((c : Thread nD τ).loc main_arg6) :=
  (show StableHlo.after hostOps3 (W6 m ρ c) (Proc.devRef .tc main_arg6) = W6 m ρ c (Proc.devRef .tc main_arg6) by keep_tac).trans (at6_arg6 m ρ c)
theorem at8_arg6 : W8 m ρ c (Proc.devRef .tc main_arg6) = m ((c : Thread nD τ).loc main_arg6) :=
  (W8_of_ne m ρ c main_arg6 (by decide)).trans (at7_arg6 m ρ c)

theorem at0_arg7 : W0 m ρ c (Proc.devRef .tc main_arg7) = m ((c : Thread nD τ).loc main_arg7) := rfl
theorem at1_arg7 : W1 m ρ c (Proc.devRef .tc main_arg7) = m ((c : Thread nD τ).loc main_arg7) :=
  (show StableHlo.after hostOps0 (W0 m ρ c) (Proc.devRef .tc main_arg7) = W0 m ρ c (Proc.devRef .tc main_arg7) by keep_tac).trans (at0_arg7 m ρ c)
theorem at2_arg7 : W2 m ρ c (Proc.devRef .tc main_arg7) = m ((c : Thread nD τ).loc main_arg7) :=
  (W2_of_ne m ρ c main_arg7 (by decide)).trans (at1_arg7 m ρ c)
theorem at3_arg7 : W3 m ρ c (Proc.devRef .tc main_arg7) = m ((c : Thread nD τ).loc main_arg7) :=
  (show StableHlo.after hostOps1 (W2 m ρ c) (Proc.devRef .tc main_arg7) = W2 m ρ c (Proc.devRef .tc main_arg7) by keep_tac).trans (at2_arg7 m ρ c)
theorem at4_arg7 : W4 m ρ c (Proc.devRef .tc main_arg7) = m ((c : Thread nD τ).loc main_arg7) :=
  (W4_of_ne m ρ c main_arg7 (by decide)).trans (at3_arg7 m ρ c)
theorem at5_arg7 : W5 m ρ c (Proc.devRef .tc main_arg7) = m ((c : Thread nD τ).loc main_arg7) :=
  (show StableHlo.after hostOps2 (W4 m ρ c) (Proc.devRef .tc main_arg7) = W4 m ρ c (Proc.devRef .tc main_arg7) by keep_tac).trans (at4_arg7 m ρ c)
theorem at6_arg7 : W6 m ρ c (Proc.devRef .tc main_arg7) = m ((c : Thread nD τ).loc main_arg7) :=
  (W6_of_ne m ρ c main_arg7 (by decide)).trans (at5_arg7 m ρ c)
theorem at7_arg7 : W7 m ρ c (Proc.devRef .tc main_arg7) = m ((c : Thread nD τ).loc main_arg7) :=
  (show StableHlo.after hostOps3 (W6 m ρ c) (Proc.devRef .tc main_arg7) = W6 m ρ c (Proc.devRef .tc main_arg7) by keep_tac).trans (at6_arg7 m ρ c)
theorem at8_arg7 : W8 m ρ c (Proc.devRef .tc main_arg7) = m ((c : Thread nD τ).loc main_arg7) :=
  (W8_of_ne m ρ c main_arg7 (by decide)).trans (at7_arg7 m ρ c)
theorem at9_arg7 : W9 m ρ c (Proc.devRef .tc main_arg7) = m ((c : Thread nD τ).loc main_arg7) :=
  (show StableHlo.after hostOps4 (W8 m ρ c) (Proc.devRef .tc main_arg7) = W8 m ρ c (Proc.devRef .tc main_arg7) by keep_tac).trans (at8_arg7 m ρ c)
theorem at10_arg7 : W10 m ρ c (Proc.devRef .tc main_arg7) = m ((c : Thread nD τ).loc main_arg7) :=
  (W10_of_ne m ρ c main_arg7 (by decide)).trans (at9_arg7 m ρ c)

theorem at0_arg8 : W0 m ρ c (Proc.devRef .tc main_arg8) = m ((c : Thread nD τ).loc main_arg8) := rfl
theorem at1_arg8 : W1 m ρ c (Proc.devRef .tc main_arg8) = m ((c : Thread nD τ).loc main_arg8) :=
  (show StableHlo.after hostOps0 (W0 m ρ c) (Proc.devRef .tc main_arg8) = W0 m ρ c (Proc.devRef .tc main_arg8) by keep_tac).trans (at0_arg8 m ρ c)
theorem at2_arg8 : W2 m ρ c (Proc.devRef .tc main_arg8) = m ((c : Thread nD τ).loc main_arg8) :=
  (W2_of_ne m ρ c main_arg8 (by decide)).trans (at1_arg8 m ρ c)
theorem at3_arg8 : W3 m ρ c (Proc.devRef .tc main_arg8) = m ((c : Thread nD τ).loc main_arg8) :=
  (show StableHlo.after hostOps1 (W2 m ρ c) (Proc.devRef .tc main_arg8) = W2 m ρ c (Proc.devRef .tc main_arg8) by keep_tac).trans (at2_arg8 m ρ c)
theorem at4_arg8 : W4 m ρ c (Proc.devRef .tc main_arg8) = m ((c : Thread nD τ).loc main_arg8) :=
  (W4_of_ne m ρ c main_arg8 (by decide)).trans (at3_arg8 m ρ c)
theorem at5_arg8 : W5 m ρ c (Proc.devRef .tc main_arg8) = m ((c : Thread nD τ).loc main_arg8) :=
  (show StableHlo.after hostOps2 (W4 m ρ c) (Proc.devRef .tc main_arg8) = W4 m ρ c (Proc.devRef .tc main_arg8) by keep_tac).trans (at4_arg8 m ρ c)
theorem at6_arg8 : W6 m ρ c (Proc.devRef .tc main_arg8) = m ((c : Thread nD τ).loc main_arg8) :=
  (W6_of_ne m ρ c main_arg8 (by decide)).trans (at5_arg8 m ρ c)
theorem at7_arg8 : W7 m ρ c (Proc.devRef .tc main_arg8) = m ((c : Thread nD τ).loc main_arg8) :=
  (show StableHlo.after hostOps3 (W6 m ρ c) (Proc.devRef .tc main_arg8) = W6 m ρ c (Proc.devRef .tc main_arg8) by keep_tac).trans (at6_arg8 m ρ c)
theorem at8_arg8 : W8 m ρ c (Proc.devRef .tc main_arg8) = m ((c : Thread nD τ).loc main_arg8) :=
  (W8_of_ne m ρ c main_arg8 (by decide)).trans (at7_arg8 m ρ c)
theorem at9_arg8 : W9 m ρ c (Proc.devRef .tc main_arg8) = m ((c : Thread nD τ).loc main_arg8) :=
  (show StableHlo.after hostOps4 (W8 m ρ c) (Proc.devRef .tc main_arg8) = W8 m ρ c (Proc.devRef .tc main_arg8) by keep_tac).trans (at8_arg8 m ρ c)
theorem at10_arg8 : W10 m ρ c (Proc.devRef .tc main_arg8) = m ((c : Thread nD τ).loc main_arg8) :=
  (W10_of_ne m ρ c main_arg8 (by decide)).trans (at9_arg8 m ρ c)

theorem at0_arg9 : W0 m ρ c (Proc.devRef .tc main_arg9) = m ((c : Thread nD τ).loc main_arg9) := rfl
theorem at1_arg9 : W1 m ρ c (Proc.devRef .tc main_arg9) = m ((c : Thread nD τ).loc main_arg9) :=
  (show StableHlo.after hostOps0 (W0 m ρ c) (Proc.devRef .tc main_arg9) = W0 m ρ c (Proc.devRef .tc main_arg9) by keep_tac).trans (at0_arg9 m ρ c)
theorem at2_arg9 : W2 m ρ c (Proc.devRef .tc main_arg9) = m ((c : Thread nD τ).loc main_arg9) :=
  (W2_of_ne m ρ c main_arg9 (by decide)).trans (at1_arg9 m ρ c)
theorem at3_arg9 : W3 m ρ c (Proc.devRef .tc main_arg9) = m ((c : Thread nD τ).loc main_arg9) :=
  (show StableHlo.after hostOps1 (W2 m ρ c) (Proc.devRef .tc main_arg9) = W2 m ρ c (Proc.devRef .tc main_arg9) by keep_tac).trans (at2_arg9 m ρ c)
theorem at4_arg9 : W4 m ρ c (Proc.devRef .tc main_arg9) = m ((c : Thread nD τ).loc main_arg9) :=
  (W4_of_ne m ρ c main_arg9 (by decide)).trans (at3_arg9 m ρ c)
theorem at5_arg9 : W5 m ρ c (Proc.devRef .tc main_arg9) = m ((c : Thread nD τ).loc main_arg9) :=
  (show StableHlo.after hostOps2 (W4 m ρ c) (Proc.devRef .tc main_arg9) = W4 m ρ c (Proc.devRef .tc main_arg9) by keep_tac).trans (at4_arg9 m ρ c)
theorem at6_arg9 : W6 m ρ c (Proc.devRef .tc main_arg9) = m ((c : Thread nD τ).loc main_arg9) :=
  (W6_of_ne m ρ c main_arg9 (by decide)).trans (at5_arg9 m ρ c)
theorem at7_arg9 : W7 m ρ c (Proc.devRef .tc main_arg9) = m ((c : Thread nD τ).loc main_arg9) :=
  (show StableHlo.after hostOps3 (W6 m ρ c) (Proc.devRef .tc main_arg9) = W6 m ρ c (Proc.devRef .tc main_arg9) by keep_tac).trans (at6_arg9 m ρ c)
theorem at8_arg9 : W8 m ρ c (Proc.devRef .tc main_arg9) = m ((c : Thread nD τ).loc main_arg9) :=
  (W8_of_ne m ρ c main_arg9 (by decide)).trans (at7_arg9 m ρ c)
theorem at9_arg9 : W9 m ρ c (Proc.devRef .tc main_arg9) = m ((c : Thread nD τ).loc main_arg9) :=
  (show StableHlo.after hostOps4 (W8 m ρ c) (Proc.devRef .tc main_arg9) = W8 m ρ c (Proc.devRef .tc main_arg9) by keep_tac).trans (at8_arg9 m ρ c)
theorem at10_arg9 : W10 m ρ c (Proc.devRef .tc main_arg9) = m ((c : Thread nD τ).loc main_arg9) :=
  (W10_of_ne m ρ c main_arg9 (by decide)).trans (at9_arg9 m ρ c)
theorem at11_arg9 : W11 m ρ c (Proc.devRef .tc main_arg9) = m ((c : Thread nD τ).loc main_arg9) :=
  (show StableHlo.after hostOps5 (W10 m ρ c) (Proc.devRef .tc main_arg9) = W10 m ρ c (Proc.devRef .tc main_arg9) by keep_tac).trans (at10_arg9 m ρ c)
theorem at12_arg9 : W12 m ρ c (Proc.devRef .tc main_arg9) = m ((c : Thread nD τ).loc main_arg9) :=
  (W12_of_ne m ρ c main_arg9 (by decide)).trans (at11_arg9 m ρ c)

theorem at0_arg10 : W0 m ρ c (Proc.devRef .tc main_arg10) = m ((c : Thread nD τ).loc main_arg10) := rfl
theorem at1_arg10 : W1 m ρ c (Proc.devRef .tc main_arg10) = m ((c : Thread nD τ).loc main_arg10) :=
  (show StableHlo.after hostOps0 (W0 m ρ c) (Proc.devRef .tc main_arg10) = W0 m ρ c (Proc.devRef .tc main_arg10) by keep_tac).trans (at0_arg10 m ρ c)
theorem at2_arg10 : W2 m ρ c (Proc.devRef .tc main_arg10) = m ((c : Thread nD τ).loc main_arg10) :=
  (W2_of_ne m ρ c main_arg10 (by decide)).trans (at1_arg10 m ρ c)
theorem at3_arg10 : W3 m ρ c (Proc.devRef .tc main_arg10) = m ((c : Thread nD τ).loc main_arg10) :=
  (show StableHlo.after hostOps1 (W2 m ρ c) (Proc.devRef .tc main_arg10) = W2 m ρ c (Proc.devRef .tc main_arg10) by keep_tac).trans (at2_arg10 m ρ c)
theorem at4_arg10 : W4 m ρ c (Proc.devRef .tc main_arg10) = m ((c : Thread nD τ).loc main_arg10) :=
  (W4_of_ne m ρ c main_arg10 (by decide)).trans (at3_arg10 m ρ c)
theorem at5_arg10 : W5 m ρ c (Proc.devRef .tc main_arg10) = m ((c : Thread nD τ).loc main_arg10) :=
  (show StableHlo.after hostOps2 (W4 m ρ c) (Proc.devRef .tc main_arg10) = W4 m ρ c (Proc.devRef .tc main_arg10) by keep_tac).trans (at4_arg10 m ρ c)
theorem at6_arg10 : W6 m ρ c (Proc.devRef .tc main_arg10) = m ((c : Thread nD τ).loc main_arg10) :=
  (W6_of_ne m ρ c main_arg10 (by decide)).trans (at5_arg10 m ρ c)
theorem at7_arg10 : W7 m ρ c (Proc.devRef .tc main_arg10) = m ((c : Thread nD τ).loc main_arg10) :=
  (show StableHlo.after hostOps3 (W6 m ρ c) (Proc.devRef .tc main_arg10) = W6 m ρ c (Proc.devRef .tc main_arg10) by keep_tac).trans (at6_arg10 m ρ c)
theorem at8_arg10 : W8 m ρ c (Proc.devRef .tc main_arg10) = m ((c : Thread nD τ).loc main_arg10) :=
  (W8_of_ne m ρ c main_arg10 (by decide)).trans (at7_arg10 m ρ c)
theorem at9_arg10 : W9 m ρ c (Proc.devRef .tc main_arg10) = m ((c : Thread nD τ).loc main_arg10) :=
  (show StableHlo.after hostOps4 (W8 m ρ c) (Proc.devRef .tc main_arg10) = W8 m ρ c (Proc.devRef .tc main_arg10) by keep_tac).trans (at8_arg10 m ρ c)
theorem at10_arg10 : W10 m ρ c (Proc.devRef .tc main_arg10) = m ((c : Thread nD τ).loc main_arg10) :=
  (W10_of_ne m ρ c main_arg10 (by decide)).trans (at9_arg10 m ρ c)
theorem at11_arg10 : W11 m ρ c (Proc.devRef .tc main_arg10) = m ((c : Thread nD τ).loc main_arg10) :=
  (show StableHlo.after hostOps5 (W10 m ρ c) (Proc.devRef .tc main_arg10) = W10 m ρ c (Proc.devRef .tc main_arg10) by keep_tac).trans (at10_arg10 m ρ c)
theorem at12_arg10 : W12 m ρ c (Proc.devRef .tc main_arg10) = m ((c : Thread nD τ).loc main_arg10) :=
  (W12_of_ne m ρ c main_arg10 (by decide)).trans (at11_arg10 m ρ c)

theorem at1_v1 : W1 m ρ c (Proc.devRef .tc main_v1) = Cert.ReferenceIdeal.ReadP.val_main_v1 (F := Ideal) (m ((c : Thread nD τ).loc main_arg1)) :=
  st0_src (W0 m ρ c)
theorem at1_v3 : W1 m ρ c (Proc.devRef .tc main_v3) = Cert.ReferenceIdeal.ReadP.val_main_v3 (F := Ideal) (m ((c : Thread nD τ).loc main_arg1)) :=
  st0_dst (W0 m ρ c)
theorem at2_v1 : W2 m ρ c (Proc.devRef .tc main_v1) = Cert.ReferenceIdeal.ReadP.val_main_v1 (F := Ideal) (m ((c : Thread nD τ).loc main_arg1)) :=
  (W2_of_ne m ρ c main_v1 (by decide)).trans (at1_v1 m ρ c)
theorem at3_v1 : W3 m ρ c (Proc.devRef .tc main_v1) = Cert.ReferenceIdeal.ReadP.val_main_v1 (F := Ideal) (m ((c : Thread nD τ).loc main_arg1)) :=
  (show StableHlo.after hostOps1 (W2 m ρ c) (Proc.devRef .tc main_v1) = W2 m ρ c (Proc.devRef .tc main_v1) by keep_tac).trans (at2_v1 m ρ c)
theorem at4_v1 : W4 m ρ c (Proc.devRef .tc main_v1) = Cert.ReferenceIdeal.ReadP.val_main_v1 (F := Ideal) (m ((c : Thread nD τ).loc main_arg1)) :=
  (W4_of_ne m ρ c main_v1 (by decide)).trans (at3_v1 m ρ c)
theorem at5_v1 : W5 m ρ c (Proc.devRef .tc main_v1) = Cert.ReferenceIdeal.ReadP.val_main_v1 (F := Ideal) (m ((c : Thread nD τ).loc main_arg1)) :=
  (show StableHlo.after hostOps2 (W4 m ρ c) (Proc.devRef .tc main_v1) = W4 m ρ c (Proc.devRef .tc main_v1) by keep_tac).trans (at4_v1 m ρ c)
theorem at6_v1 : W6 m ρ c (Proc.devRef .tc main_v1) = Cert.ReferenceIdeal.ReadP.val_main_v1 (F := Ideal) (m ((c : Thread nD τ).loc main_arg1)) :=
  (W6_of_ne m ρ c main_v1 (by decide)).trans (at5_v1 m ρ c)
theorem at7_v1 : W7 m ρ c (Proc.devRef .tc main_v1) = Cert.ReferenceIdeal.ReadP.val_main_v1 (F := Ideal) (m ((c : Thread nD τ).loc main_arg1)) :=
  (show StableHlo.after hostOps3 (W6 m ρ c) (Proc.devRef .tc main_v1) = W6 m ρ c (Proc.devRef .tc main_v1) by keep_tac).trans (at6_v1 m ρ c)
theorem at8_v1 : W8 m ρ c (Proc.devRef .tc main_v1) = Cert.ReferenceIdeal.ReadP.val_main_v1 (F := Ideal) (m ((c : Thread nD τ).loc main_arg1)) :=
  (W8_of_ne m ρ c main_v1 (by decide)).trans (at7_v1 m ρ c)
theorem at2_v3 : W2 m ρ c (Proc.devRef .tc main_v3) = Cert.ReferenceIdeal.ReadP.val_main_v3 (F := Ideal) (m ((c : Thread nD τ).loc main_arg1)) :=
  (W2_of_ne m ρ c main_v3 (by decide)).trans (at1_v3 m ρ c)
theorem at3_v3 : W3 m ρ c (Proc.devRef .tc main_v3) = Cert.ReferenceIdeal.ReadP.val_main_v3 (F := Ideal) (m ((c : Thread nD τ).loc main_arg1)) :=
  (show StableHlo.after hostOps1 (W2 m ρ c) (Proc.devRef .tc main_v3) = W2 m ρ c (Proc.devRef .tc main_v3) by keep_tac).trans (at2_v3 m ρ c)
theorem at4_v3 : W4 m ρ c (Proc.devRef .tc main_v3) = Cert.ReferenceIdeal.ReadP.val_main_v3 (F := Ideal) (m ((c : Thread nD τ).loc main_arg1)) :=
  (W4_of_ne m ρ c main_v3 (by decide)).trans (at3_v3 m ρ c)
theorem at5_v3 : W5 m ρ c (Proc.devRef .tc main_v3) = Cert.ReferenceIdeal.ReadP.val_main_v3 (F := Ideal) (m ((c : Thread nD τ).loc main_arg1)) :=
  (show StableHlo.after hostOps2 (W4 m ρ c) (Proc.devRef .tc main_v3) = W4 m ρ c (Proc.devRef .tc main_v3) by keep_tac).trans (at4_v3 m ρ c)
theorem at6_v3 : W6 m ρ c (Proc.devRef .tc main_v3) = Cert.ReferenceIdeal.ReadP.val_main_v3 (F := Ideal) (m ((c : Thread nD τ).loc main_arg1)) :=
  (W6_of_ne m ρ c main_v3 (by decide)).trans (at5_v3 m ρ c)
theorem at7_v3 : W7 m ρ c (Proc.devRef .tc main_v3) = Cert.ReferenceIdeal.ReadP.val_main_v3 (F := Ideal) (m ((c : Thread nD τ).loc main_arg1)) :=
  (show StableHlo.after hostOps3 (W6 m ρ c) (Proc.devRef .tc main_v3) = W6 m ρ c (Proc.devRef .tc main_v3) by keep_tac).trans (at6_v3 m ρ c)
theorem at8_v3 : W8 m ρ c (Proc.devRef .tc main_v3) = Cert.ReferenceIdeal.ReadP.val_main_v3 (F := Ideal) (m ((c : Thread nD τ).loc main_arg1)) :=
  (W8_of_ne m ρ c main_v3 (by decide)).trans (at7_v3 m ρ c)

end Cert.KernelIdeal.HostValue

end
-- ==== Proof.Connect.lean ====
/-
  What a tiled region leaves, entry by entry, is the host's function of the whole arrays.

  The perceptron region receives its two bias rows as 1 x 64 arrays (reshapes of the 64-vectors the host slices
  out), and the normalising region receives a scale row gamma * rstd and a shift row beta - mean * (gamma * rstd),
  again as 1 x 64 reshapes.  Entry (r, c) of the perceptron region is the perceptron's entry; entry (r, c) of the
  normalising region is max (h * scale_c + shift_c) 0, which for real h, mean, rstd, gamma, beta is the centred form
  max (((h - mean) * rstd) * gamma + beta) 0 the reference computes.  Reality is carried through a whole round.
-/
import proofs.«118327_j29411936043504_1_alg».proof.Proof.RefForm
import Idealize.ShloMosaic.Lib.ValueLayout

noncomputable section

open scoped BigOperators

namespace Cert.Gin

open Cert.ReferenceIdeal Cert.ReferenceIdeal.Gen Cert.ReferenceIdeal.ReadP Idealize.ShloMosaic Idealize.ShloMosaic.ValueIdx Cert.Lib

/-- A 64-vector reshaped to 1 x 64, read at (0, c). -/
theorem row_reshape_apply (v : Vec64) (h : S64.ShapeCasts S1x64) (c : Fin 64) :
    shapeCast S1x64 v h (ix2 (0 : Fin 1) c) = v (ix1 c) :=
  shapeCast_apply v h (ix2 (0 : Fin 1) c) (ix1 c) (by
    rewrite [Shape.rowMajor_val_two, Shape.rowMajor_val_one]
    show c.val = 0 * 64 + c.val
    omega)

/-- The perceptron's entry over bias rows given as 1 x 64 reshapes is the host perceptron's entry. -/
theorem mlp_entry (X A : Feat) (W1s : Wmat) (b1v : Vec64) (W2s : Wmat) (b2v : Vec64) (h1 h2 : S64.ShapeCasts S1x64)
    (r : Fin 50000) (c : Fin 64) :
    mlpAt (fun r j => X (ix2 r j)) (fun r j => A (ix2 r j)) (fun j k => W1s (ix2 j k))
        (fun k => shapeCast S1x64 b1v h1 (ix2 (0 : Fin 1) k)) (fun j k => W2s (ix2 j k))
        (fun k => shapeCast S1x64 b2v h2 (ix2 (0 : Fin 1) k)) r c
      = mlpRef X A W1s b1v W2s b2v (ix2 r c) := by
  rw [mlpRef_apply]
  simp only [row_reshape_apply]

/-- The normalising region's entry, for real data, is the reference's centred form. -/
theorem bn_entry (H : Feat) (g b : Vec64) (h1 h2 : S64.ShapeCasts S1x64)
    (hH : ∀ i, IsReal (H i)) (hg : ∀ i, IsReal (g i)) (hb : ∀ i, IsReal (b i)) (r : Fin 50000) (c : Fin 64) :
    max (H (ix2 r c) * shapeCast S1x64 (mulf (F := Ideal) g (rstdRef H)) h1 (ix2 (0 : Fin 1) c)
        + shapeCast S1x64 (subf (F := Ideal) b (mulf (F := Ideal) (meanRef H) (mulf (F := Ideal) g (rstdRef H)))) h2 (ix2 (0 : Fin 1) c)) 0
      = bnRef H g b (ix2 r c) := by
  rw [bnRef_apply, row_reshape_apply, row_reshape_apply]
  show max (H (ix2 r c) * (g (ix1 c) * rstdRef H (ix1 c)) + (b (ix1 c) - meanRef H (ix1 c) * (g (ix1 c) * rstdRef H (ix1 c)))) 0 = _
  rw [rstdRef_apply, meanRef_apply]
  exact bn_arrangements_eq (hH _) (meanAt_isReal fun r => hH _) (rstdAt_isReal fun r => hH _) (hg _) (hb _)

/-! ## Reality through a round -/

theorem idx_eq_ix2 (i : S50000x64.Idx) : i = ix2 (⟨(i 0).val, (i 0).isLt⟩ : Fin 50000) (⟨(i 1).val, (i 1).isLt⟩ : Fin 64) :=
  funext fun a => match a with | ⟨0, _⟩ => rfl | ⟨1, _⟩ => rfl

theorem mlpRef_isReal (X A : Feat) (W1s : Wmat) (b1v : Vec64) (W2s : Wmat) (b2v : Vec64)
    (hX : ∀ i, IsReal (X i)) (hA : ∀ i, IsReal (A i)) (hW1 : ∀ i, IsReal (W1s i)) (hb1 : ∀ i, IsReal (b1v i))
    (hW2 : ∀ i, IsReal (W2s i)) (hb2 : ∀ i, IsReal (b2v i)) (i : S50000x64.Idx) : IsReal (mlpRef X A W1s b1v W2s b2v i) := by
  rw [idx_eq_ix2 i, mlpRef_apply]
  exact mlpAt_isReal (fun _ _ => hX _) (fun _ _ => hA _) (fun _ _ => hW1 _) (fun _ => hb1 _) (fun _ _ => hW2 _) (fun _ => hb2 _) _ _

theorem bnRef_isReal (H : Feat) (g b : Vec64) (hH : ∀ i, IsReal (H i)) (hg : ∀ i, IsReal (g i)) (hb : ∀ i, IsReal (b i))
    (i : S50000x64.Idx) : IsReal (bnRef H g b i) := by
  rw [idx_eq_ix2 i, bnRef_apply]
  exact bnCentredAt_isReal (hH _) (meanAt_isReal fun r => hH _) (rstdAt_isReal fun r => hH _) (hg _) (hb _)

theorem aggRef_isReal' (X : Feat) (e : Edges) (hX : ∀ i, IsReal (X i)) (i : S50000x64.Idx) : IsReal (aggRef X e i) := by
  rw [idx_eq_ix2 i]
  exact aggRef_isReal X e hX _ _

theorem layerRef_isReal (X : Feat) (e : Edges) (W1s : Wmat) (b1v : Vec64) (W2s : Wmat) (b2v g b : Vec64)
    (hX : ∀ i, IsReal (X i)) (hW1 : ∀ i, IsReal (W1s i)) (hb1 : ∀ i, IsReal (b1v i))
    (hW2 : ∀ i, IsReal (W2s i)) (hb2 : ∀ i, IsReal (b2v i)) (hg : ∀ i, IsReal (g i)) (hb : ∀ i, IsReal (b i))
    (i : S50000x64.Idx) : IsReal (layerRef X e W1s b1v W2s b2v g b i) :=
  bnRef_isReal _ g b (mlpRef_isReal X _ W1s b1v W2s b2v hX (aggRef_isReal' X e hX) hW1 hb1 hW2 hb2) hg hb i

/-! ## The same, for whole arrays -/

/-- The perceptron region's array, entry by entry over its six entry arrays, is the host perceptron. -/
theorem mlp_array (X A : Feat) (W1s : Wmat) (b1v : Vec64) (W2s : Wmat) (b2v : Vec64) (h1 h2 : S64.ShapeCasts S1x64) :
    (fun i : S50000x64.Idx =>
      mlpAt (fun r j => X (ix2 r j)) (fun r j => A (ix2 r j)) (fun j k => W1s (ix2 j k))
        (fun k => shapeCast S1x64 b1v h1 (ix2 (0 : Fin 1) k)) (fun j k => W2s (ix2 j k))
        (fun k => shapeCast S1x64 b2v h2 (ix2 (0 : Fin 1) k)) ⟨(i 0).val, (i 0).isLt⟩ ⟨(i 1).val, (i 1).isLt⟩)
      = mlpRef X A W1s b1v W2s b2v :=
  funext fun i => (mlp_entry X A W1s b1v W2s b2v h1 h2 _ _).trans (congrArg _ (idx_eq_ix2 i).symm)

/-- The normalising region's entry at any index of the 50000 x 64 array, for real data. -/
theorem bn_at (H : Feat) (g b : Vec64) (h1 h2 : S64.ShapeCasts S1x64)
    (hH : ∀ i, IsReal (H i)) (hg : ∀ i, IsReal (g i)) (hb : ∀ i, IsReal (b i)) (i : S50000x64.Idx) :
    bnRef H g b i
      = max (H i * shapeCast S1x64 (mulf (F := Ideal) g (rstdRef H)) h1 (ix2 (0 : Fin 1) (⟨(i 1).val, (i 1).isLt⟩ : Fin 64))
        + shapeCast S1x64 (subf (F := Ideal) b (mulf (F := Ideal) (meanRef H) (mulf (F := Ideal) g (rstdRef H)))) h2
            (ix2 (0 : Fin 1) (⟨(i 1).val, (i 1).isLt⟩ : Fin 64))) 0 := by
  have e := bn_entry H g b h1 h2 hH hg hb ⟨(i 0).val, (i 0).isLt⟩ ⟨(i 1).val, (i 1).isLt⟩
  rw [← idx_eq_ix2 i] at e
  exact e.symm

/-- The normalising region's array over a scale row and a shift row given as 1 x 64 reshapes is, for real data, the
    host's normalise-and-rectify. -/
theorem bn_array (H : Feat) (g b : Vec64) (h1 h2 : S64.ShapeCasts S1x64)
    (hH : ∀ i, IsReal (H i)) (hg : ∀ i, IsReal (g i)) (hb : ∀ i, IsReal (b i)) :
    (fun i : S50000x64.Idx =>
      max (H (ix2 (⟨(i 0).val, (i 0).isLt⟩ : Fin 50000) (⟨(i 1).val, (i 1).isLt⟩ : Fin 64))
          * shapeCast S1x64 (mulf (F := Ideal) g (rstdRef H)) h1 (ix2 (0 : Fin 1) (⟨(i 1).val, (i 1).isLt⟩ : Fin 64))
        + shapeCast S1x64 (subf (F := Ideal) b (mulf (F := Ideal) (meanRef H) (mulf (F := Ideal) g (rstdRef H)))) h2
            (ix2 (0 : Fin 1) (⟨(i 1).val, (i 1).isLt⟩ : Fin 64))) 0)
      = bnRef H g b :=
  funext fun i => (bn_entry H g b h1 h2 hH hg hb _ _).trans (congrArg _ (idx_eq_ix2 i).symm)

end Cert.Gin

end
-- ==== Proof.SliceReal.lean ====
/-
  A slice of a real array is real.

  Each round takes one 64 x 64 block of each weight stack and one 64-row of each bias stack (a slice followed by a
  reshape that drops the unit axis).  Every entry of such a block or row is an entry of the stack, so it is real when
  the stack's entries are.
-/
import proofs.«118327_j29411936043504_1_alg».proof.Proof.RefIs

noncomputable section

namespace Cert.Gin

open Cert.ReferenceIdeal Cert.ReferenceIdeal.Gen Cert.ReferenceIdeal.ReadP Idealize.ShloMosaic Cert.Lib

theorem real_v21 (x : W3) (h : ∀ i, IsReal (x i)) (i) : IsReal (val_main_v21 (F := Ideal) x i) := by
  rw [val_main_v21_apply, val_main_v20_apply]
  exact h _

theorem real_v24 (x : B3) (h : ∀ i, IsReal (x i)) (i) : IsReal (val_main_v24 (F := Ideal) x i) := by
  rw [val_main_v24_apply, val_main_v23_apply]
  exact h _

theorem real_v30 (x : W3) (h : ∀ i, IsReal (x i)) (i) : IsReal (val_main_v30 (F := Ideal) x i) := by
  rw [val_main_v30_apply, val_main_v29_apply]
  exact h _

theorem real_v33 (x : B3) (h : ∀ i, IsReal (x i)) (i) : IsReal (val_main_v33 (F := Ideal) x i) := by
  rw [val_main_v33_apply, val_main_v32_apply]
  exact h _

theorem real_v58 (x : B3) (h : ∀ i, IsReal (x i)) (i) : IsReal (val_main_v58 (F := Ideal) x i) := by
  rw [val_main_v58_apply, val_main_v57_apply]
  exact h _

theorem real_v63 (x : B3) (h : ∀ i, IsReal (x i)) (i) : IsReal (val_main_v63 (F := Ideal) x i) := by
  rw [val_main_v63_apply, val_main_v62_apply]
  exact h _

theorem real_v85 (x : W3) (h : ∀ i, IsReal (x i)) (i) : IsReal (val_main_v85 (F := Ideal) x i) := by
  rw [val_main_v85_apply, val_main_v84_apply]
  exact h _

theorem real_v88 (x : B3) (h : ∀ i, IsReal (x i)) (i) : IsReal (val_main_v88 (F := Ideal) x i) := by
  rw [val_main_v88_apply, val_main_v87_apply]
  exact h _

theorem real_v94 (x : W3) (h : ∀ i, IsReal (x i)) (i) : IsReal (val_main_v94 (F := Ideal) x i) := by
  rw [val_main_v94_apply, val_main_v93_apply]
  exact h _

theorem real_v97 (x : B3) (h : ∀ i, IsReal (x i)) (i) : IsReal (val_main_v97 (F := Ideal) x i) := by
  rw [val_main_v97_apply, val_main_v96_apply]
  exact h _

theorem real_v122 (x : B3) (h : ∀ i, IsReal (x i)) (i) : IsReal (val_main_v122 (F := Ideal) x i) := by
  rw [val_main_v122_apply, val_main_v121_apply]
  exact h _

theorem real_v127 (x : B3) (h : ∀ i, IsReal (x i)) (i) : IsReal (val_main_v127 (F := Ideal) x i) := by
  rw [val_main_v127_apply, val_main_v126_apply]
  exact h _

theorem real_v149 (x : W3) (h : ∀ i, IsReal (x i)) (i) : IsReal (val_main_v149 (F := Ideal) x i) := by
  rw [val_main_v149_apply, val_main_v148_apply]
  exact h _

theorem real_v152 (x : B3) (h : ∀ i, IsReal (x i)) (i) : IsReal (val_main_v152 (F := Ideal) x i) := by
  rw [val_main_v152_apply, val_main_v151_apply]
  exact h _

theorem real_v158 (x : W3) (h : ∀ i, IsReal (x i)) (i) : IsReal (val_main_v158 (F := Ideal) x i) := by
  rw [val_main_v158_apply, val_main_v157_apply]
  exact h _

theorem real_v161 (x : B3) (h : ∀ i, IsReal (x i)) (i) : IsReal (val_main_v161 (F := Ideal) x i) := by
  rw [val_main_v161_apply, val_main_v160_apply]
  exact h _

theorem real_v186 (x : B3) (h : ∀ i, IsReal (x i)) (i) : IsReal (val_main_v186 (F := Ideal) x i) := by
  rw [val_main_v186_apply, val_main_v185_apply]
  exact h _

theorem real_v191 (x : B3) (h : ∀ i, IsReal (x i)) (i) : IsReal (val_main_v191 (F := Ideal) x i) := by
  rw [val_main_v191_apply, val_main_v190_apply]
  exact h _

end Cert.Gin

end
-- ==== Proof.RegionPayload.lean ====
/-
  The six kernel bodies' stored values, read at one entry, over the extended reals.

  Regions 0, 2, 4 run the perceptron body on a block of 5000 rows: it adds the two row blocks, multiplies by the
  first 64x64 weight matrix, adds the first bias row to every row, rectifies, multiplies by the second weight
  matrix, adds the second bias row, rectifies.  Over the extended reals the narrowing of the matrix factors is the
  identity and a matrix product into a zero accumulator is the plain sum over the 64 shared coordinates, so entry
  (p, q) of the stored block is
      max ((∑ k, max ((∑ j, (x p j + a p j) * w1 j k) + b1 k) 0 * w2 k q) + b2 q) 0.
  Regions 1, 3, 5 run the normalise body: entry (p, q) is max (h p q * s q + t q) 0, the scale and shift rows
  broadcast over the 5000 rows.

  The block lemmas at the end restate an entry in terms of whole arrays, given that the loaded blocks are the rows
  n*5000 … n*5000+4999 of the row-blocked arrays and all of the small ones.
-/
import proofs.«118327_j29411936043504_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.RegionValue

open Cert.KernelIdeal Cert.KernelIdeal.Gen Idealize.ShloMosaic Idealize.ShloMosaic.ValueIdx

/-! ## The matrix product of a block and the bias rows, at an entry -/

/-- The left factor's index at output entry `i` and shared coordinate `k` is (row of `i`, `k`) … -/
theorem lhs_row (i : S5000x64.Idx) (k : dot_S5000x64_S64x64_S5000x64_1_0_0_1_n_n.contr.Idx) :
    (dot_S5000x64_S64x64_S5000x64_1_0_0_1_n_n.lhsIdx i k 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl

theorem lhs_col (i : S5000x64.Idx) (k : dot_S5000x64_S64x64_S5000x64_1_0_0_1_n_n.contr.Idx) :
    (dot_S5000x64_S64x64_S5000x64_1_0_0_1_n_n.lhsIdx i k 1).val = (k ⟨0, by decide⟩).val :=
  dot_S5000x64_S64x64_S5000x64_1_0_0_1_n_n.lhsIdx_val_of_single rfl i k

/-- … and the right factor's is (`k`, column of `i`). -/
theorem rhs_row (i : S5000x64.Idx) (k : dot_S5000x64_S64x64_S5000x64_1_0_0_1_n_n.contr.Idx) :
    (dot_S5000x64_S64x64_S5000x64_1_0_0_1_n_n.rhsIdx i k 0).val = (k ⟨0, by decide⟩).val :=
  dot_S5000x64_S64x64_S5000x64_1_0_0_1_n_n.rhsIdx_val_of_single rfl i k

theorem rhs_col (i : S5000x64.Idx) (k : dot_S5000x64_S64x64_S5000x64_1_0_0_1_n_n.contr.Idx) :
    (dot_S5000x64_S64x64_S5000x64_1_0_0_1_n_n.rhsIdx i k 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The block's matrix product into a zero accumulator, entry (p, q): the sum over the 64 shared coordinates. -/
theorem matmul_block_apply {φ₁ φ₂ : FTy} (l : FVec Ideal S5000x64 φ₁) (r : FVec Ideal S64x64 φ₂) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_row _ _
    | ⟨1, _⟩ => exact (lhs_col _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-- A [1,64] row broadcast over the 5000 rows of a block reads its column's entry. -/
theorem bcast_row_apply {α : Type} (b : S1x64.Idx → α) (p : Fin 5000) (q : Fin 64) :
    broadcastTo S5000x64 b broadcasts_S1x64_S5000x64 (ix2 p q) = b (ix2 0 q) :=
  broadcastTo_apply b broadcasts_S1x64_S5000x64 (ix2 p q) (ix2 0 q) (fun a => match a with
    | ⟨0, _⟩ => rfl
    | ⟨1, _⟩ => rfl)

/-! ## The perceptron body -/

/-- The f32 zero word is the extended real 0. -/
theorem zero_word : (FloatOps.ofBits (F := Ideal) .f32 0x00000000#32 : EReal) = 0 := Ideal.ofBits_zero_f32

/-- Entry (p, q) of what the perceptron body stores: the rectified second layer of the rectified first layer of the
    sum of the two row blocks. -/
theorem k0_pay1_apply (x0 x1 : Vec Ideal S5000x64 .f32) (w1 : Vec Ideal S64x64 .f32) (b1 : Vec Ideal S1x64 .f32)
    (w2 : Vec Ideal S64x64 .f32) (b2 : Vec Ideal S1x64 .f32) (p : Fin 5000) (q : Fin 64) :
    k0_pay1 (F := Ideal) x0 x1 w1 b1 w2 b2 (ix2 p q)
      = max ((∑ k : Fin 64, max ((∑ j : Fin 64, (x0 (ix2 p j) + x1 (ix2 p j)) * w1 (ix2 j k)) + b1 (ix2 0 k)) 0 * w2 (ix2 k q)) + b2 (ix2 0 q)) 0 := by
  unfold k0_pay1
  simp only [shapeCast_self]
  rw [maximumf_apply, addf_apply, matmul_block_apply, bcast_row_apply, broadcast_apply, zero_word]
  refine congrArg (fun s => max (s + b2 (ix2 0 q)) 0) (Finset.sum_congr rfl fun k _ => ?_)
  rw [truncf_apply, truncf_apply, maximumf_apply, addf_apply, matmul_block_apply, bcast_row_apply, broadcast_apply]
  refine congrArg (fun s => max (s + b1 (ix2 0 k)) 0 * w2 (ix2 k q)) (Finset.sum_congr rfl fun j _ => ?_)
  rw [truncf_apply, truncf_apply, addf_apply]

/-- The perceptron bodies of regions 2 and 4 differ from region 0's by one identity shape cast. -/
theorem k2_pay1_eq (x0 x1 : Vec Ideal S5000x64 .f32) (w1 : Vec Ideal S64x64 .f32) (b1 : Vec Ideal S1x64 .f32)
    (w2 : Vec Ideal S64x64 .f32) (b2 : Vec Ideal S1x64 .f32) :
    k2_pay1 (F := Ideal) x0 x1 w1 b1 w2 b2 = k0_pay1 (F := Ideal) x0 x1 w1 b1 w2 b2 := by
  unfold k2_pay1 k0_pay1
  simp only [shapeCast_self]

theorem k4_pay1_eq (x0 x1 : Vec Ideal S5000x64 .f32) (w1 : Vec Ideal S64x64 .f32) (b1 : Vec Ideal S1x64 .f32)
    (w2 : Vec Ideal S64x64 .f32) (b2 : Vec Ideal S1x64 .f32) :
    k4_pay1 (F := Ideal) x0 x1 w1 b1 w2 b2 = k0_pay1 (F := Ideal) x0 x1 w1 b1 w2 b2 := by
  unfold k4_pay1 k0_pay1
  simp only [shapeCast_self]

/-! ## The normalise body -/

/-- Entry (p, q) of what the normalise body stores: scale, shift, rectify. -/
theorem k1_pay1_apply (h : Vec Ideal S5000x64 .f32) (s t : Vec Ideal S1x64 .f32) (p : Fin 5000) (q : Fin 64) :
    k1_pay1 (F := Ideal) h s t (ix2 p q) = max (h (ix2 p q) * s (ix2 0 q) + t (ix2 0 q)) 0 := by
  unfold k1_pay1
  simp only [shapeCast_self]
  rw [maximumf_apply, addf_apply, mulf_apply, bcast_row_apply, bcast_row_apply, broadcast_apply, zero_word]

/-- The three normalise bodies are one term. -/
theorem k3_pay1_eq (h : Vec Ideal S5000x64 .f32) (s t : Vec Ideal S1x64 .f32) :
    k3_pay1 (F := Ideal) h s t = k1_pay1 (F := Ideal) h s t := rfl

theorem k5_pay1_eq (h : Vec Ideal S5000x64 .f32) (s t : Vec Ideal S1x64 .f32) :
    k5_pay1 (F := Ideal) h s t = k1_pay1 (F := Ideal) h s t := rfl

/-! ## An entry of a stored block in terms of the whole arrays -/

/-- When the two loaded row blocks are rows n*5000 … n*5000+4999 of the arrays `X` and `A` and the four small blocks
    are the whole small arrays, entry (p, q) of the stored perceptron block is the perceptron of row r = n*5000 + p. -/
theorem mlp_block_apply (X A : S50000x64.Idx → EReal) (W1 : S64x64.Idx → EReal) (B1 : S1x64.Idx → EReal)
    (W2 : S64x64.Idx → EReal) (B2 : S1x64.Idx → EReal)
    (x0 x1 : Vec Ideal S5000x64 .f32) (w1 : Vec Ideal S64x64 .f32) (b1 : Vec Ideal S1x64 .f32)
    (w2 : Vec Ideal S64x64 .f32) (b2 : Vec Ideal S1x64 .f32) (n : Nat)
    (hx0 : ∀ (p : Fin 5000) (q : Fin 64) (r : Fin 50000), r.val = n * 5000 + p.val → x0 (ix2 p q) = X (ix2 r q))
    (hx1 : ∀ (p : Fin 5000) (q : Fin 64) (r : Fin 50000), r.val = n * 5000 + p.val → x1 (ix2 p q) = A (ix2 r q))
    (hw1 : ∀ j k : Fin 64, w1 (ix2 j k) = W1 (ix2 j k)) (hb1 : ∀ k : Fin 64, b1 (ix2 0 k) = B1 (ix2 0 k))
    (hw2 : ∀ j k : Fin 64, w2 (ix2 j k) = W2 (ix2 j k)) (hb2 : ∀ k : Fin 64, b2 (ix2 0 k) = B2 (ix2 0 k))
    (p : Fin 5000) (q : Fin 64) (r : Fin 50000) (hr : r.val = n * 5000 + p.val) :
    k0_pay1 (F := Ideal) x0 x1 w1 b1 w2 b2 (ix2 p q)
      = max ((∑ k : Fin 64, max ((∑ j : Fin 64, (X (ix2 r j) + A (ix2 r j)) * W1 (ix2 j k)) + B1 (ix2 0 k)) 0 * W2 (ix2 k q)) + B2 (ix2 0 q)) 0 := by
  rw [k0_pay1_apply, hb2 q]
  refine congrArg (fun s => max (s + B2 (ix2 0 q)) 0) (Finset.sum_congr rfl fun k _ => ?_)
  rw [hb1 k, hw2 k q]
  refine congrArg (fun s => max (s + B1 (ix2 0 k)) 0 * W2 (ix2 k q)) (Finset.sum_congr rfl fun j _ => ?_)
  rw [hx0 p j r hr, hx1 p j r hr, hw1 j k]

/-- When the loaded row block is rows n*5000 … n*5000+4999 of `H` and the two small blocks are the whole scale and
    shift rows, entry (p, q) of the stored normalise block is the scaled, shifted, rectified entry (r, q) of `H`. -/
theorem bn_block_apply (H : S50000x64.Idx → EReal) (S T : S1x64.Idx → EReal)
    (h : Vec Ideal S5000x64 .f32) (s t : Vec Ideal S1x64 .f32) (n : Nat)
    (hh : ∀ (p : Fin 5000) (q : Fin 64) (r : Fin 50000), r.val = n * 5000 + p.val → h (ix2 p q) = H (ix2 r q))
    (hs : ∀ k : Fin 64, s (ix2 0 k) = S (ix2 0 k)) (ht : ∀ k : Fin 64, t (ix2 0 k) = T (ix2 0 k))
    (p : Fin 5000) (q : Fin 64) (r : Fin 50000) (hr : r.val = n * 5000 + p.val) :
    k1_pay1 (F := Ideal) h s t (ix2 p q) = max (H (ix2 r q) * S (ix2 0 q) + T (ix2 0 q)) 0 := by
  rw [k1_pay1_apply, hh p q r hr, hs q, ht q]

/-! ## The whole-array functions the regions compute -/

/-- All-zero offsets, as the body's rectangles spell them. -/
theorem zero_offsets : (![0, 0] : Fin 2 → Nat) = fun _ => 0 := funext fun a => by fin_cases a <;> rfl

/-- The rectified two-layer perceptron of `X + A`, entry by entry of the [50000,64] array. -/
abbrev mlpArr (X A : S50000x64.Idx → EReal) (W1 : S64x64.Idx → EReal) (B1 : S1x64.Idx → EReal)
    (W2 : S64x64.Idx → EReal) (B2 : S1x64.Idx → EReal) : S50000x64.Idx → EReal := fun i =>
  max ((∑ k : Fin 64, max ((∑ j : Fin 64, (X (ix2 (⟨(i 0).val, (i 0).isLt⟩ : Fin 50000) j) + A (ix2 (⟨(i 0).val, (i 0).isLt⟩ : Fin 50000) j)) * W1 (ix2 j k))
      + B1 (ix2 0 k)) 0 * W2 (ix2 k (⟨(i 1).val, (i 1).isLt⟩ : Fin 64))) + B2 (ix2 0 (⟨(i 1).val, (i 1).isLt⟩ : Fin 64))) 0

/-- The same at an index whose coordinates are known to be `r` and `q`. -/
theorem mlpArr_apply (X A : S50000x64.Idx → EReal) (W1 : S64x64.Idx → EReal) (B1 : S1x64.Idx → EReal)
    (W2 : S64x64.Idx → EReal) (B2 : S1x64.Idx → EReal) (i : S50000x64.Idx) (r : Fin 50000) (q : Fin 64)
    (h0 : (i 0).val = r.val) (h1 : (i 1).val = q.val) :
    mlpArr X A W1 B1 W2 B2 i
      = max ((∑ k : Fin 64, max ((∑ j : Fin 64, (X (ix2 r j) + A (ix2 r j)) * W1 (ix2 j k)) + B1 (ix2 0 k)) 0 * W2 (ix2 k q)) + B2 (ix2 0 q)) 0 := by
  have e0 : (⟨(i 0).val, (i 0).isLt⟩ : Fin 50000) = r := Fin.ext h0
  have e1 : (⟨(i 1).val, (i 1).isLt⟩ : Fin 64) = q := Fin.ext h1
  show max ((∑ k : Fin 64, max ((∑ j : Fin 64, (X (ix2 (⟨(i 0).val, (i 0).isLt⟩ : Fin 50000) j) + A (ix2 (⟨(i 0).val, (i 0).isLt⟩ : Fin 50000) j)) * W1 (ix2 j k))
      + B1 (ix2 0 k)) 0 * W2 (ix2 k (⟨(i 1).val, (i 1).isLt⟩ : Fin 64))) + B2 (ix2 0 (⟨(i 1).val, (i 1).isLt⟩ : Fin 64))) 0 = _
  rw [e0, e1]

/-- Scale each column, shift it, rectify: entry by entry of the [50000,64] array. -/
abbrev bnArr (H : S50000x64.Idx → EReal) (S T : S1x64.Idx → EReal) : S50000x64.Idx → EReal := fun i =>
  max (H (ix2 (⟨(i 0).val, (i 0).isLt⟩ : Fin 50000) (⟨(i 1).val, (i 1).isLt⟩ : Fin 64)) * S (ix2 0 (⟨(i 1).val, (i 1).isLt⟩ : Fin 64))
    + T (ix2 0 (⟨(i 1).val, (i 1).isLt⟩ : Fin 64))) 0

/-- The same at an index whose coordinates are known to be `r` and `q`. -/
theorem bnArr_apply (H : S50000x64.Idx → EReal) (S T : S1x64.Idx → EReal) (i : S50000x64.Idx) (r : Fin 50000) (q : Fin 64)
    (h0 : (i 0).val = r.val) (h1 : (i 1).val = q.val) :
    bnArr H S T i = max (H (ix2 r q) * S (ix2 0 q) + T (ix2 0 q)) 0 := by
  have e0 : (⟨(i 0).val, (i 0).isLt⟩ : Fin 50000) = r := Fin.ext h0
  have e1 : (⟨(i 1).val, (i 1).isLt⟩ : Fin 64) = q := Fin.ext h1
  show max (H (ix2 (⟨(i 0).val, (i 0).isLt⟩ : Fin 50000) (⟨(i 1).val, (i 1).isLt⟩ : Fin 64)) * S (ix2 0 (⟨(i 1).val, (i 1).isLt⟩ : Fin 64))
    + T (ix2 0 (⟨(i 1).val, (i 1).isLt⟩ : Fin 64))) 0 = _
  rw [e0, e1]

end Cert.KernelIdeal.RegionValue

end
-- ==== Proof.RegionValue0.lean ====
/-
  Region 0 (the perceptron on row blocks): the output array after the region, as one function of the arrays the
  region finds.

  The grid has 10 points; point t loads rows 5000 t … 5000 t + 4999 of the two [50000,64] operands and all of the
  two weight matrices and two bias rows, and writes back rows 5000 t … 5000 t + 4999 of the result.  So what point t
  writes back is the row block t of the whole-array perceptron (an element of a block sits at block index times
  block size plus its coordinate inside the block), the ten row blocks cover the array (row r lies in block
  r / 5000), and the array ends holding the whole-array perceptron.
-/
import proofs.«118327_j29411936043504_1_alg».proof.Proof.Gen.KernelIdeal.Frame
import proofs.«118327_j29411936043504_1_alg».proof.Proof.RegionPayload
import proofs.«118327_j29411936043504_1_alg».proof.Proof.NetAlgebra
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The block indices at point `t`: the row-blocked windows are at block row `t`, the small windows at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Window 0's block at point `t` is rows 5000 t … 5000 t + 4999 of its array. -/
theorem iblk0_0_apply (c : Dev nD) (t : Fin cfg0.N) (p : Fin 5000) (q : Fin 64) (r : Fin 50000) (hr : r.val = t.val * 5000 + p.val) :
    (iblk0 V c 0 t : Vec Ideal S5000x64 .f32) (ix2 p q) = (V c (Pipeline.arrRef spec0 0) : S50000x64.Idx → EReal) (ix2 r q) := by
  obtain ⟨e0, e1, -⟩ := idx_facts0 t
  unfold iblk0
  rw [View.read_apply]
  refine congrArg (V c (Pipeline.arrRef spec0 0)) (funext fun a => Fin.ext ?_)
  match a with
  | ⟨0, _⟩ => show win0_0.index t 0 * 5000 + 1 * p.val = r.val; omega
  | ⟨1, _⟩ => show win0_0.index t 1 * 64 + 1 * q.val = q.val; omega

/-- Window 1's block at point `t` is rows 5000 t … 5000 t + 4999 of its array. -/
theorem iblk0_1_apply (c : Dev nD) (t : Fin cfg0.N) (p : Fin 5000) (q : Fin 64) (r : Fin 50000) (hr : r.val = t.val * 5000 + p.val) :
    (iblk0 V c 1 t : Vec Ideal S5000x64 .f32) (ix2 p q) = (V c (Pipeline.arrRef spec0 1) : S50000x64.Idx → EReal) (ix2 r q) := by
  obtain ⟨-, -, e0, e1, -⟩ := idx_facts0 t
  unfold iblk0
  rw [View.read_apply]
  refine congrArg (V c (Pipeline.arrRef spec0 1)) (funext fun a => Fin.ext ?_)
  match a with
  | ⟨0, _⟩ => show win0_1.index t 0 * 5000 + 1 * p.val = r.val; omega
  | ⟨1, _⟩ => show win0_1.index t 1 * 64 + 1 * q.val = q.val; omega

/-- Window 2's block at every point is its whole [64,64] array. -/
theorem iblk0_2_apply (c : Dev nD) (t : Fin cfg0.N) (j k : Fin 64) :
    (iblk0 V c 2 t : Vec Ideal S64x64 .f32) (ix2 j k) = (V c (Pipeline.arrRef spec0 2) : S64x64.Idx → EReal) (ix2 j k) := by
  obtain ⟨-, -, -, -, e0, e1, -⟩ := idx_facts0 t
  unfold iblk0
  rw [View.read_apply]
  refine congrArg (V c (Pipeline.arrRef spec0 2)) (funext fun a => Fin.ext ?_)
  match a with
  | ⟨0, _⟩ => show win0_2.index t 0 * 64 + 1 * j.val = j.val; omega
  | ⟨1, _⟩ => show win0_2.index t 1 * 64 + 1 * k.val = k.val; omega

/-- Window 3's block at every point is its whole [1,64] row. -/
theorem iblk0_3_apply (c : Dev nD) (t : Fin cfg0.N) (k : Fin 64) :
    (iblk0 V c 3 t : Vec Ideal S1x64 .f32) (ix2 0 k) = (V c (Pipeline.arrRef spec0 3) : S1x64.Idx → EReal) (ix2 0 k) := by
  obtain ⟨-, -, -, -, -, -, e0, e1, -⟩ := idx_facts0 t
  unfold iblk0
  rw [View.read_apply]
  refine congrArg (V c (Pipeline.arrRef spec0 3)) (funext fun a => Fin.ext ?_)
  match a with
  | ⟨0, _⟩ => show win0_3.index t 0 * 1 + 1 * 0 = 0; omega
  | ⟨1, _⟩ => show win0_3.index t 1 * 64 + 1 * k.val = k.val; omega

/-- Window 4's block at every point is its whole [64,64] array. -/
theorem iblk0_4_apply (c : Dev nD) (t : Fin cfg0.N) (j k : Fin 64) :
    (iblk0 V c 4 t : Vec Ideal S64x64 .f32) (ix2 j k) = (V c (Pipeline.arrRef spec0 4) : S64x64.Idx → EReal) (ix2 j k) := by
  obtain ⟨-, -, -, -, -, -, -, -, e0, e1, -⟩ := idx_facts0 t
  unfold iblk0
  rw [View.read_apply]
  refine congrArg (V c (Pipeline.arrRef spec0 4)) (funext fun a => Fin.ext ?_)
  match a with
  | ⟨0, _⟩ => show win0_4.index t 0 * 64 + 1 * j.val = j.val; omega
  | ⟨1, _⟩ => show win0_4.index t 1 * 64 + 1 * k.val = k.val; omega

/-- Window 5's block at every point is its whole [1,64] row. -/
theorem iblk0_5_apply (c : Dev nD) (t : Fin cfg0.N) (k : Fin 64) :
    (iblk0 V c 5 t : Vec Ideal S1x64 .f32) (ix2 0 k) = (V c (Pipeline.arrRef spec0 5) : S1x64.Idx → EReal) (ix2 0 k) := by
  obtain ⟨-, -, -, -, -, -, -, -, -, -, e0, e1, -⟩ := idx_facts0 t
  unfold iblk0
  rw [View.read_apply]
  refine congrArg (V c (Pipeline.arrRef spec0 5)) (funext fun a => Fin.ext ?_)
  match a with
  | ⟨0, _⟩ => show win0_5.index t 0 * 1 + 1 * 0 = 0; omega
  | ⟨1, _⟩ => show win0_5.index t 1 * 64 + 1 * k.val = k.val; omega

/-- The whole-array perceptron of the arrays region 0 finds. -/
abbrev G0 (c : Dev nD) : S50000x64.Idx → EReal :=
  mlpArr (V c (Pipeline.arrRef spec0 0) : S50000x64.Idx → EReal) (V c (Pipeline.arrRef spec0 1) : S50000x64.Idx → EReal)
    (V c (Pipeline.arrRef spec0 2) : S64x64.Idx → EReal) (V c (Pipeline.arrRef spec0 3) : S1x64.Idx → EReal)
    (V c (Pipeline.arrRef spec0 4) : S64x64.Idx → EReal) (V c (Pipeline.arrRef spec0 5) : S1x64.Idx → EReal)

/-- What point `t` writes back is row block `t` of the whole-array perceptron. -/
theorem flushed0_eq (c : Dev nD) (t : Fin cfg0.N) :
    (dat0 (F := Ideal) V c).flushed 6 t = ((cfg0.win 6).blk t).view.read (Elt Ideal) (G0 V c) := by
  show (cfg0.win 6).cut (grid0.coords t) ((dat0 V c).after 6 t) = _
  rw [after0_6]
  unfold out0_6
  rw [View.canon_unit_zero zero_offsets]
  simp only [View.ld_unit_zero (S := S5000x64) zero_offsets, View.ld_unit_zero (S := S64x64) zero_offsets, View.ld_unit_zero (S := S1x64) zero_offsets]
  obtain ⟨-, -, -, -, -, -, -, -, -, -, -, -, e0, e1⟩ := idx_facts0 t
  have hN : t.val < 10 := Nat.lt_of_lt_of_eq t.isLt N_0
  funext j
  obtain ⟨p, q, rfl⟩ : ∃ (p : Fin 5000) (q : Fin 64), j = ix2 p q := ⟨j 0, j 1, eq_ix2 j⟩
  have hp : p.val < 5000 := p.isLt
  show k0_pay1 (F := Ideal) (iblk0 V c 0 t) (iblk0 V c 1 t) (iblk0 V c 2 t) (iblk0 V c 3 t) (iblk0 V c 4 t) (iblk0 V c 5 t) (ix2 p q)
    = G0 V c (((cfg0.win 6).blk t).view.emb (ix2 p q))
  refine (mlp_block_apply (V c (Pipeline.arrRef spec0 0) : S50000x64.Idx → EReal) (V c (Pipeline.arrRef spec0 1) : S50000x64.Idx → EReal)
    (V c (Pipeline.arrRef spec0 2) : S64x64.Idx → EReal) (V c (Pipeline.arrRef spec0 3) : S1x64.Idx → EReal)
    (V c (Pipeline.arrRef spec0 4) : S64x64.Idx → EReal) (V c (Pipeline.arrRef spec0 5) : S1x64.Idx → EReal)
    (iblk0 V c 0 t) (iblk0 V c 1 t) (iblk0 V c 2 t) (iblk0 V c 3 t) (iblk0 V c 4 t) (iblk0 V c 5 t) t.val
    (iblk0_0_apply V c t) (iblk0_1_apply V c t) (iblk0_2_apply V c t) (iblk0_3_apply V c t) (iblk0_4_apply V c t) (iblk0_5_apply V c t)
    p q ⟨t.val * 5000 + p.val, by omega⟩ rfl).trans ?_
  refine (mlpArr_apply _ _ _ _ _ _ (((cfg0.win 6).blk t).view.emb (ix2 p q)) ⟨t.val * 5000 + p.val, by omega⟩ q ?_ ?_).symm
  · show win0_6.index t 0 * 5000 + 1 * p.val = t.val * 5000 + p.val; omega
  · show win0_6.index t 1 * 64 + 1 * q.val = q.val; omega

/-- Row `r` lies in the block of point `r / 5000`. -/
theorem cover0 (i : S50000x64.Idx) : ∃ t : Fin cfg0.N, (cfg0.win 6).flush t = true ∧ i ∈ ((cfg0.win 6).blk t).view.set := by
  have h0 : (i 0).val < 50000 := (i 0).isLt
  have h1 : (i 1).val < 64 := (i 1).isLt
  have hN : cfg0.N = 10 := N_0
  let t : Fin cfg0.N := ⟨(i 0).val / 5000, by rw [hN]; omega⟩
  obtain ⟨-, -, -, -, -, -, -, -, -, -, -, -, e0, e1⟩ := idx_facts0 t
  have ht : t.val = (i 0).val / 5000 := rfl
  refine ⟨t, flush0_6 t, ?_⟩
  show i ∈ ((View.whole main_v29).slice (win0_6.rect t)).set
  rw [View.set_slice_whole, Rect.mem_set_unit]
  intro a
  match a with
  | ⟨0, _⟩ => show win0_6.index t 0 * 5000 ≤ (i 0).val ∧ (i 0).val < win0_6.index t 0 * 5000 + 5000; omega
  | ⟨1, _⟩ => show win0_6.index t 1 * 64 ≤ (i 1).val ∧ (i 1).val < win0_6.index t 1 * 64 + 64; omega

/-- The array after region 0 is the whole-array perceptron of the arrays the region finds. -/
theorem final0_arr (c : Dev nD) : (dat0 (F := Ideal) V c).arrAt 6 cfg0.N = G0 V c :=
  (dat0 (F := Ideal) V c).arrAt_eq_of_cover 6 (G0 V c) (fun t _ => flushed0_eq V c t) (cover0)

/-- The array after region 0, entry (r, c), is the rectified two-layer perceptron at node r and feature c of the
    arrays the region finds: operand 0 plus operand 1 through the weights and biases in operands 2 to 5. -/
theorem final0 (c : Dev nD) : (dat0 (F := Ideal) V c).arrAt 6 cfg0.N = fun (i : S50000x64.Idx) =>
    Cert.Gin.mlpAt (fun r j => (V c (Pipeline.arrRef spec0 0) : S50000x64.Idx → EReal) (ix2 r j))
      (fun r j => (V c (Pipeline.arrRef spec0 1) : S50000x64.Idx → EReal) (ix2 r j))
      (fun j k => (V c (Pipeline.arrRef spec0 2) : S64x64.Idx → EReal) (ix2 j k))
      (fun k => (V c (Pipeline.arrRef spec0 3) : S1x64.Idx → EReal) (ix2 0 k))
      (fun j k => (V c (Pipeline.arrRef spec0 4) : S64x64.Idx → EReal) (ix2 j k))
      (fun k => (V c (Pipeline.arrRef spec0 5) : S1x64.Idx → EReal) (ix2 0 k))
      ⟨(i 0).val, (i 0).isLt⟩ ⟨(i 1).val, (i 1).isLt⟩ :=
  (final0_arr V c).trans (funext fun i => by unfold Cert.Gin.mlpAt; rfl)

end Cert.KernelIdeal.RegionValue

end
-- ==== Proof.RegionValue2.lean ====
/-
  Region 2 (the perceptron on row blocks): the output array after the region, as one function of the arrays the
  region finds.

  The grid has 10 points; point t loads rows 5000 t … 5000 t + 4999 of the two [50000,64] operands and all of the
  two weight matrices and two bias rows, and writes back rows 5000 t … 5000 t + 4999 of the result.  So what point t
  writes back is the row block t of the whole-array perceptron (an element of a block sits at block index times
  block size plus its coordinate inside the block), the ten row blocks cover the array (row r lies in block
  r / 5000), and the array ends holding the whole-array perceptron.
-/
import proofs.«118327_j29411936043504_1_alg».proof.Proof.Gen.KernelIdeal.Frame
import proofs.«118327_j29411936043504_1_alg».proof.Proof.RegionPayload
import proofs.«118327_j29411936043504_1_alg».proof.Proof.NetAlgebra
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The block indices at point `t`: the row-blocked windows are at block row `t`, the small windows at block 0. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Window 0's block at point `t` is rows 5000 t … 5000 t + 4999 of its array. -/
theorem iblk2_0_apply (c : Dev nD) (t : Fin cfg2.N) (p : Fin 5000) (q : Fin 64) (r : Fin 50000) (hr : r.val = t.val * 5000 + p.val) :
    (iblk2 V c 0 t : Vec Ideal S5000x64 .f32) (ix2 p q) = (V c (Pipeline.arrRef spec2 0) : S50000x64.Idx → EReal) (ix2 r q) := by
  obtain ⟨e0, e1, -⟩ := idx_facts2 t
  unfold iblk2
  rw [View.read_apply]
  refine congrArg (V c (Pipeline.arrRef spec2 0)) (funext fun a => Fin.ext ?_)
  match a with
  | ⟨0, _⟩ => show win2_0.index t 0 * 5000 + 1 * p.val = r.val; omega
  | ⟨1, _⟩ => show win2_0.index t 1 * 64 + 1 * q.val = q.val; omega

/-- Window 1's block at point `t` is rows 5000 t … 5000 t + 4999 of its array. -/
theorem iblk2_1_apply (c : Dev nD) (t : Fin cfg2.N) (p : Fin 5000) (q : Fin 64) (r : Fin 50000) (hr : r.val = t.val * 5000 + p.val) :
    (iblk2 V c 1 t : Vec Ideal S5000x64 .f32) (ix2 p q) = (V c (Pipeline.arrRef spec2 1) : S50000x64.Idx → EReal) (ix2 r q) := by
  obtain ⟨-, -, e0, e1, -⟩ := idx_facts2 t
  unfold iblk2
  rw [View.read_apply]
  refine congrArg (V c (Pipeline.arrRef spec2 1)) (funext fun a => Fin.ext ?_)
  match a with
  | ⟨0, _⟩ => show win2_1.index t 0 * 5000 + 1 * p.val = r.val; omega
  | ⟨1, _⟩ => show win2_1.index t 1 * 64 + 1 * q.val = q.val; omega

/-- Window 2's block at every point is its whole [64,64] array. -/
theorem iblk2_2_apply (c : Dev nD) (t : Fin cfg2.N) (j k : Fin 64) :
    (iblk2 V c 2 t : Vec Ideal S64x64 .f32) (ix2 j k) = (V c (Pipeline.arrRef spec2 2) : S64x64.Idx → EReal) (ix2 j k) := by
  obtain ⟨-, -, -, -, e0, e1, -⟩ := idx_facts2 t
  unfold iblk2
  rw [View.read_apply]
  refine congrArg (V c (Pipeline.arrRef spec2 2)) (funext fun a => Fin.ext ?_)
  match a with
  | ⟨0, _⟩ => show win2_2.index t 0 * 64 + 1 * j.val = j.val; omega
  | ⟨1, _⟩ => show win2_2.index t 1 * 64 + 1 * k.val = k.val; omega

/-- Window 3's block at every point is its whole [1,64] row. -/
theorem iblk2_3_apply (c : Dev nD) (t : Fin cfg2.N) (k : Fin 64) :
    (iblk2 V c 3 t : Vec Ideal S1x64 .f32) (ix2 0 k) = (V c (Pipeline.arrRef spec2 3) : S1x64.Idx → EReal) (ix2 0 k) := by
  obtain ⟨-, -, -, -, -, -, e0, e1, -⟩ := idx_facts2 t
  unfold iblk2
  rw [View.read_apply]
  refine congrArg (V c (Pipeline.arrRef spec2 3)) (funext fun a => Fin.ext ?_)
  match a with
  | ⟨0, _⟩ => show win2_3.index t 0 * 1 + 1 * 0 = 0; omega
  | ⟨1, _⟩ => show win2_3.index t 1 * 64 + 1 * k.val = k.val; omega

/-- Window 4's block at every point is its whole [64,64] array. -/
theorem iblk2_4_apply (c : Dev nD) (t : Fin cfg2.N) (j k : Fin 64) :
    (iblk2 V c 4 t : Vec Ideal S64x64 .f32) (ix2 j k) = (V c (Pipeline.arrRef spec2 4) : S64x64.Idx → EReal) (ix2 j k) := by
  obtain ⟨-, -, -, -, -, -, -, -, e0, e1, -⟩ := idx_facts2 t
  unfold iblk2
  rw [View.read_apply]
  refine congrArg (V c (Pipeline.arrRef spec2 4)) (funext fun a => Fin.ext ?_)
  match a with
  | ⟨0, _⟩ => show win2_4.index t 0 * 64 + 1 * j.val = j.val; omega
  | ⟨1, _⟩ => show win2_4.index t 1 * 64 + 1 * k.val = k.val; omega

/-- Window 5's block at every point is its whole [1,64] row. -/
theorem iblk2_5_apply (c : Dev nD) (t : Fin cfg2.N) (k : Fin 64) :
    (iblk2 V c 5 t : Vec Ideal S1x64 .f32) (ix2 0 k) = (V c (Pipeline.arrRef spec2 5) : S1x64.Idx → EReal) (ix2 0 k) := by
  obtain ⟨-, -, -, -, -, -, -, -, -, -, e0, e1, -⟩ := idx_facts2 t
  unfold iblk2
  rw [View.read_apply]
  refine congrArg (V c (Pipeline.arrRef spec2 5)) (funext fun a => Fin.ext ?_)
  match a with
  | ⟨0, _⟩ => show win2_5.index t 0 * 1 + 1 * 0 = 0; omega
  | ⟨1, _⟩ => show win2_5.index t 1 * 64 + 1 * k.val = k.val; omega

/-- The whole-array perceptron of the arrays region 2 finds. -/
abbrev G2 (c : Dev nD) : S50000x64.Idx → EReal :=
  mlpArr (V c (Pipeline.arrRef spec2 0) : S50000x64.Idx → EReal) (V c (Pipeline.arrRef spec2 1) : S50000x64.Idx → EReal)
    (V c (Pipeline.arrRef spec2 2) : S64x64.Idx → EReal) (V c (Pipeline.arrRef spec2 3) : S1x64.Idx → EReal)
    (V c (Pipeline.arrRef spec2 4) : S64x64.Idx → EReal) (V c (Pipeline.arrRef spec2 5) : S1x64.Idx → EReal)

/-- What point `t` writes back is row block `t` of the whole-array perceptron. -/
theorem flushed2_eq (c : Dev nD) (t : Fin cfg2.N) :
    (dat2 (F := Ideal) V c).flushed 6 t = ((cfg2.win 6).blk t).view.read (Elt Ideal) (G2 V c) := by
  show (cfg2.win 6).cut (grid2.coords t) ((dat2 V c).after 6 t) = _
  rw [after2_6]
  unfold out2_6
  rw [View.canon_unit_zero zero_offsets]
  simp only [View.ld_unit_zero (S := S5000x64) zero_offsets, View.ld_unit_zero (S := S64x64) zero_offsets, View.ld_unit_zero (S := S1x64) zero_offsets]
  obtain ⟨-, -, -, -, -, -, -, -, -, -, -, -, e0, e1⟩ := idx_facts2 t
  have hN : t.val < 10 := Nat.lt_of_lt_of_eq t.isLt N_2
  funext j
  obtain ⟨p, q, rfl⟩ : ∃ (p : Fin 5000) (q : Fin 64), j = ix2 p q := ⟨j 0, j 1, eq_ix2 j⟩
  have hp : p.val < 5000 := p.isLt
  show k2_pay1 (F := Ideal) (iblk2 V c 0 t) (iblk2 V c 1 t) (iblk2 V c 2 t) (iblk2 V c 3 t) (iblk2 V c 4 t) (iblk2 V c 5 t) (ix2 p q)
    = G2 V c (((cfg2.win 6).blk t).view.emb (ix2 p q))
  rw [k2_pay1_eq]
  refine (mlp_block_apply (V c (Pipeline.arrRef spec2 0) : S50000x64.Idx → EReal) (V c (Pipeline.arrRef spec2 1) : S50000x64.Idx → EReal)
    (V c (Pipeline.arrRef spec2 2) : S64x64.Idx → EReal) (V c (Pipeline.arrRef spec2 3) : S1x64.Idx → EReal)
    (V c (Pipeline.arrRef spec2 4) : S64x64.Idx → EReal) (V c (Pipeline.arrRef spec2 5) : S1x64.Idx → EReal)
    (iblk2 V c 0 t) (iblk2 V c 1 t) (iblk2 V c 2 t) (iblk2 V c 3 t) (iblk2 V c 4 t) (iblk2 V c 5 t) t.val
    (iblk2_0_apply V c t) (iblk2_1_apply V c t) (iblk2_2_apply V c t) (iblk2_3_apply V c t) (iblk2_4_apply V c t) (iblk2_5_apply V c t)
    p q ⟨t.val * 5000 + p.val, by omega⟩ rfl).trans ?_
  refine (mlpArr_apply _ _ _ _ _ _ (((cfg2.win 6).blk t).view.emb (ix2 p q)) ⟨t.val * 5000 + p.val, by omega⟩ q ?_ ?_).symm
  · show win2_6.index t 0 * 5000 + 1 * p.val = t.val * 5000 + p.val; omega
  · show win2_6.index t 1 * 64 + 1 * q.val = q.val; omega

/-- Row `r` lies in the block of point `r / 5000`. -/
theorem cover2 (i : S50000x64.Idx) : ∃ t : Fin cfg2.N, (cfg2.win 6).flush t = true ∧ i ∈ ((cfg2.win 6).blk t).view.set := by
  have h0 : (i 0).val < 50000 := (i 0).isLt
  have h1 : (i 1).val < 64 := (i 1).isLt
  have hN : cfg2.N = 10 := N_2
  let t : Fin cfg2.N := ⟨(i 0).val / 5000, by rw [hN]; omega⟩
  obtain ⟨-, -, -, -, -, -, -, -, -, -, -, -, e0, e1⟩ := idx_facts2 t
  have ht : t.val = (i 0).val / 5000 := rfl
  refine ⟨t, flush2_6 t, ?_⟩
  show i ∈ ((View.whole main_v78).slice (win2_6.rect t)).set
  rw [View.set_slice_whole, Rect.mem_set_unit]
  intro a
  match a with
  | ⟨0, _⟩ => show win2_6.index t 0 * 5000 ≤ (i 0).val ∧ (i 0).val < win2_6.index t 0 * 5000 + 5000; omega
  | ⟨1, _⟩ => show win2_6.index t 1 * 64 ≤ (i 1).val ∧ (i 1).val < win2_6.index t 1 * 64 + 64; omega

/-- The array after region 2 is the whole-array perceptron of the arrays the region finds. -/
theorem final2_arr (c : Dev nD) : (dat2 (F := Ideal) V c).arrAt 6 cfg2.N = G2 V c :=
  (dat2 (F := Ideal) V c).arrAt_eq_of_cover 6 (G2 V c) (fun t _ => flushed2_eq V c t) (cover2)

/-- The array after region 2, entry (r, c), is the rectified two-layer perceptron at node r and feature c of the
    arrays the region finds: operand 0 plus operand 1 through the weights and biases in operands 2 to 5. -/
theorem final2 (c : Dev nD) : (dat2 (F := Ideal) V c).arrAt 6 cfg2.N = fun (i : S50000x64.Idx) =>
    Cert.Gin.mlpAt (fun r j => (V c (Pipeline.arrRef spec2 0) : S50000x64.Idx → EReal) (ix2 r j))
      (fun r j => (V c (Pipeline.arrRef spec2 1) : S50000x64.Idx → EReal) (ix2 r j))
      (fun j k => (V c (Pipeline.arrRef spec2 2) : S64x64.Idx → EReal) (ix2 j k))
      (fun k => (V c (Pipeline.arrRef spec2 3) : S1x64.Idx → EReal) (ix2 0 k))
      (fun j k => (V c (Pipeline.arrRef spec2 4) : S64x64.Idx → EReal) (ix2 j k))
      (fun k => (V c (Pipeline.arrRef spec2 5) : S1x64.Idx → EReal) (ix2 0 k))
      ⟨(i 0).val, (i 0).isLt⟩ ⟨(i 1).val, (i 1).isLt⟩ :=
  (final2_arr V c).trans (funext fun i => by unfold Cert.Gin.mlpAt; rfl)

end Cert.KernelIdeal.RegionValue

end
-- ==== Proof.RegionValue4.lean ====
/-
  Region 4 (the perceptron on row blocks): the output array after the region, as one function of the arrays the
  region finds.

  The grid has 10 points; point t loads rows 5000 t … 5000 t + 4999 of the two [50000,64] operands and all of the
  two weight matrices and two bias rows, and writes back rows 5000 t … 5000 t + 4999 of the result.  So what point t
  writes back is the row block t of the whole-array perceptron (an element of a block sits at block index times
  block size plus its coordinate inside the block), the ten row blocks cover the array (row r lies in block
  r / 5000), and the array ends holding the whole-array perceptron.
-/
import proofs.«118327_j29411936043504_1_alg».proof.Proof.Gen.KernelIdeal.Frame
import proofs.«118327_j29411936043504_1_alg».proof.Proof.RegionPayload
import proofs.«118327_j29411936043504_1_alg».proof.Proof.NetAlgebra
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The block indices at point `t`: the row-blocked windows are at block row `t`, the small windows at block 0. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- Window 0's block at point `t` is rows 5000 t … 5000 t + 4999 of its array. -/
theorem iblk4_0_apply (c : Dev nD) (t : Fin cfg4.N) (p : Fin 5000) (q : Fin 64) (r : Fin 50000) (hr : r.val = t.val * 5000 + p.val) :
    (iblk4 V c 0 t : Vec Ideal S5000x64 .f32) (ix2 p q) = (V c (Pipeline.arrRef spec4 0) : S50000x64.Idx → EReal) (ix2 r q) := by
  obtain ⟨e0, e1, -⟩ := idx_facts4 t
  unfold iblk4
  rw [View.read_apply]
  refine congrArg (V c (Pipeline.arrRef spec4 0)) (funext fun a => Fin.ext ?_)
  match a with
  | ⟨0, _⟩ => show win4_0.index t 0 * 5000 + 1 * p.val = r.val; omega
  | ⟨1, _⟩ => show win4_0.index t 1 * 64 + 1 * q.val = q.val; omega

/-- Window 1's block at point `t` is rows 5000 t … 5000 t + 4999 of its array. -/
theorem iblk4_1_apply (c : Dev nD) (t : Fin cfg4.N) (p : Fin 5000) (q : Fin 64) (r : Fin 50000) (hr : r.val = t.val * 5000 + p.val) :
    (iblk4 V c 1 t : Vec Ideal S5000x64 .f32) (ix2 p q) = (V c (Pipeline.arrRef spec4 1) : S50000x64.Idx → EReal) (ix2 r q) := by
  obtain ⟨-, -, e0, e1, -⟩ := idx_facts4 t
  unfold iblk4
  rw [View.read_apply]
  refine congrArg (V c (Pipeline.arrRef spec4 1)) (funext fun a => Fin.ext ?_)
  match a with
  | ⟨0, _⟩ => show win4_1.index t 0 * 5000 + 1 * p.val = r.val; omega
  | ⟨1, _⟩ => show win4_1.index t 1 * 64 + 1 * q.val = q.val; omega

/-- Window 2's block at every point is its whole [64,64] array. -/
theorem iblk4_2_apply (c : Dev nD) (t : Fin cfg4.N) (j k : Fin 64) :
    (iblk4 V c 2 t : Vec Ideal S64x64 .f32) (ix2 j k) = (V c (Pipeline.arrRef spec4 2) : S64x64.Idx → EReal) (ix2 j k) := by
  obtain ⟨-, -, -, -, e0, e1, -⟩ := idx_facts4 t
  unfold iblk4
  rw [View.read_apply]
  refine congrArg (V c (Pipeline.arrRef spec4 2)) (funext fun a => Fin.ext ?_)
  match a with
  | ⟨0, _⟩ => show win4_2.index t 0 * 64 + 1 * j.val = j.val; omega
  | ⟨1, _⟩ => show win4_2.index t 1 * 64 + 1 * k.val = k.val; omega

/-- Window 3's block at every point is its whole [1,64] row. -/
theorem iblk4_3_apply (c : Dev nD) (t : Fin cfg4.N) (k : Fin 64) :
    (iblk4 V c 3 t : Vec Ideal S1x64 .f32) (ix2 0 k) = (V c (Pipeline.arrRef spec4 3) : S1x64.Idx → EReal) (ix2 0 k) := by
  obtain ⟨-, -, -, -, -, -, e0, e1, -⟩ := idx_facts4 t
  unfold iblk4
  rw [View.read_apply]
  refine congrArg (V c (Pipeline.arrRef spec4 3)) (funext fun a => Fin.ext ?_)
  match a with
  | ⟨0, _⟩ => show win4_3.index t 0 * 1 + 1 * 0 = 0; omega
  | ⟨1, _⟩ => show win4_3.index t 1 * 64 + 1 * k.val = k.val; omega

/-- Window 4's block at every point is its whole [64,64] array. -/
theorem iblk4_4_apply (c : Dev nD) (t : Fin cfg4.N) (j k : Fin 64) :
    (iblk4 V c 4 t : Vec Ideal S64x64 .f32) (ix2 j k) = (V c (Pipeline.arrRef spec4 4) : S64x64.Idx → EReal) (ix2 j k) := by
  obtain ⟨-, -, -, -, -, -, -, -, e0, e1, -⟩ := idx_facts4 t
  unfold iblk4
  rw [View.read_apply]
  refine congrArg (V c (Pipeline.arrRef spec4 4)) (funext fun a => Fin.ext ?_)
  match a with
  | ⟨0, _⟩ => show win4_4.index t 0 * 64 + 1 * j.val = j.val; omega
  | ⟨1, _⟩ => show win4_4.index t 1 * 64 + 1 * k.val = k.val; omega

/-- Window 5's block at every point is its whole [1,64] row. -/
theorem iblk4_5_apply (c : Dev nD) (t : Fin cfg4.N) (k : Fin 64) :
    (iblk4 V c 5 t : Vec Ideal S1x64 .f32) (ix2 0 k) = (V c (Pipeline.arrRef spec4 5) : S1x64.Idx → EReal) (ix2 0 k) := by
  obtain ⟨-, -, -, -, -, -, -, -, -, -, e0, e1, -⟩ := idx_facts4 t
  unfold iblk4
  rw [View.read_apply]
  refine congrArg (V c (Pipeline.arrRef spec4 5)) (funext fun a => Fin.ext ?_)
  match a with
  | ⟨0, _⟩ => show win4_5.index t 0 * 1 + 1 * 0 = 0; omega
  | ⟨1, _⟩ => show win4_5.index t 1 * 64 + 1 * k.val = k.val; omega

/-- The whole-array perceptron of the arrays region 4 finds. -/
abbrev G4 (c : Dev nD) : S50000x64.Idx → EReal :=
  mlpArr (V c (Pipeline.arrRef spec4 0) : S50000x64.Idx → EReal) (V c (Pipeline.arrRef spec4 1) : S50000x64.Idx → EReal)
    (V c (Pipeline.arrRef spec4 2) : S64x64.Idx → EReal) (V c (Pipeline.arrRef spec4 3) : S1x64.Idx → EReal)
    (V c (Pipeline.arrRef spec4 4) : S64x64.Idx → EReal) (V c (Pipeline.arrRef spec4 5) : S1x64.Idx → EReal)

/-- What point `t` writes back is row block `t` of the whole-array perceptron. -/
theorem flushed4_eq (c : Dev nD) (t : Fin cfg4.N) :
    (dat4 (F := Ideal) V c).flushed 6 t = ((cfg4.win 6).blk t).view.read (Elt Ideal) (G4 V c) := by
  show (cfg4.win 6).cut (grid4.coords t) ((dat4 V c).after 6 t) = _
  rw [after4_6]
  unfold out4_6
  rw [View.canon_unit_zero zero_offsets]
  simp only [View.ld_unit_zero (S := S5000x64) zero_offsets, View.ld_unit_zero (S := S64x64) zero_offsets, View.ld_unit_zero (S := S1x64) zero_offsets]
  obtain ⟨-, -, -, -, -, -, -, -, -, -, -, -, e0, e1⟩ := idx_facts4 t
  have hN : t.val < 10 := Nat.lt_of_lt_of_eq t.isLt N_4
  funext j
  obtain ⟨p, q, rfl⟩ : ∃ (p : Fin 5000) (q : Fin 64), j = ix2 p q := ⟨j 0, j 1, eq_ix2 j⟩
  have hp : p.val < 5000 := p.isLt
  show k4_pay1 (F := Ideal) (iblk4 V c 0 t) (iblk4 V c 1 t) (iblk4 V c 2 t) (iblk4 V c 3 t) (iblk4 V c 4 t) (iblk4 V c 5 t) (ix2 p q)
    = G4 V c (((cfg4.win 6).blk t).view.emb (ix2 p q))
  rw [k4_pay1_eq]
  refine (mlp_block_apply (V c (Pipeline.arrRef spec4 0) : S50000x64.Idx → EReal) (V c (Pipeline.arrRef spec4 1) : S50000x64.Idx → EReal)
    (V c (Pipeline.arrRef spec4 2) : S64x64.Idx → EReal) (V c (Pipeline.arrRef spec4 3) : S1x64.Idx → EReal)
    (V c (Pipeline.arrRef spec4 4) : S64x64.Idx → EReal) (V c (Pipeline.arrRef spec4 5) : S1x64.Idx → EReal)
    (iblk4 V c 0 t) (iblk4 V c 1 t) (iblk4 V c 2 t) (iblk4 V c 3 t) (iblk4 V c 4 t) (iblk4 V c 5 t) t.val
    (iblk4_0_apply V c t) (iblk4_1_apply V c t) (iblk4_2_apply V c t) (iblk4_3_apply V c t) (iblk4_4_apply V c t) (iblk4_5_apply V c t)
    p q ⟨t.val * 5000 + p.val, by omega⟩ rfl).trans ?_
  refine (mlpArr_apply _ _ _ _ _ _ (((cfg4.win 6).blk t).view.emb (ix2 p q)) ⟨t.val * 5000 + p.val, by omega⟩ q ?_ ?_).symm
  · show win4_6.index t 0 * 5000 + 1 * p.val = t.val * 5000 + p.val; omega
  · show win4_6.index t 1 * 64 + 1 * q.val = q.val; omega

/-- Row `r` lies in the block of point `r / 5000`. -/
theorem cover4 (i : S50000x64.Idx) : ∃ t : Fin cfg4.N, (cfg4.win 6).flush t = true ∧ i ∈ ((cfg4.win 6).blk t).view.set := by
  have h0 : (i 0).val < 50000 := (i 0).isLt
  have h1 : (i 1).val < 64 := (i 1).isLt
  have hN : cfg4.N = 10 := N_4
  let t : Fin cfg4.N := ⟨(i 0).val / 5000, by rw [hN]; omega⟩
  obtain ⟨-, -, -, -, -, -, -, -, -, -, -, -, e0, e1⟩ := idx_facts4 t
  have ht : t.val = (i 0).val / 5000 := rfl
  refine ⟨t, flush4_6 t, ?_⟩
  show i ∈ ((View.whole main_v127).slice (win4_6.rect t)).set
  rw [View.set_slice_whole, Rect.mem_set_unit]
  intro a
  match a with
  | ⟨0, _⟩ => show win4_6.index t 0 * 5000 ≤ (i 0).val ∧ (i 0).val < win4_6.index t 0 * 5000 + 5000; omega
  | ⟨1, _⟩ => show win4_6.index t 1 * 64 ≤ (i 1).val ∧ (i 1).val < win4_6.index t 1 * 64 + 64; omega

/-- The array after region 4 is the whole-array perceptron of the arrays the region finds. -/
theorem final4_arr (c : Dev nD) : (dat4 (F := Ideal) V c).arrAt 6 cfg4.N = G4 V c :=
  (dat4 (F := Ideal) V c).arrAt_eq_of_cover 6 (G4 V c) (fun t _ => flushed4_eq V c t) (cover4)

/-- The array after region 4, entry (r, c), is the rectified two-layer perceptron at node r and feature c of the
    arrays the region finds: operand 0 plus operand 1 through the weights and biases in operands 2 to 5. -/
theorem final4 (c : Dev nD) : (dat4 (F := Ideal) V c).arrAt 6 cfg4.N = fun (i : S50000x64.Idx) =>
    Cert.Gin.mlpAt (fun r j => (V c (Pipeline.arrRef spec4 0) : S50000x64.Idx → EReal) (ix2 r j))
      (fun r j => (V c (Pipeline.arrRef spec4 1) : S50000x64.Idx → EReal) (ix2 r j))
      (fun j k => (V c (Pipeline.arrRef spec4 2) : S64x64.Idx → EReal) (ix2 j k))
      (fun k => (V c (Pipeline.arrRef spec4 3) : S1x64.Idx → EReal) (ix2 0 k))
      (fun j k => (V c (Pipeline.arrRef spec4 4) : S64x64.Idx → EReal) (ix2 j k))
      (fun k => (V c (Pipeline.arrRef spec4 5) : S1x64.Idx → EReal) (ix2 0 k))
      ⟨(i 0).val, (i 0).isLt⟩ ⟨(i 1).val, (i 1).isLt⟩ :=
  (final4_arr V c).trans (funext fun i => by unfold Cert.Gin.mlpAt; rfl)

end Cert.KernelIdeal.RegionValue

end
-- ==== Proof.RegionBn1.lean ====
/- Region 1 (the normalise body over ten row blocks): what its result array holds after the region, as one function of
   the three arrays the region reads. At grid point t the body loads rows 5000 t … 5000 t + 4999 of the [50000,64] input
   and the whole [1,64] scale and shift rows, and stores, into the same rows of the result, entry (p, q) ↦
   max (h p q * s q + t q) 0. The ten blocks tile the result array, so it ends as the array i ↦ max (H i * S (i 1) + T (i 1)) 0. -/
import proofs.«118327_j29411936043504_1_alg».proof.Proof.Gen.KernelIdeal.Frame
import proofs.«118327_j29411936043504_1_alg».proof.Proof.RegionPayload
import Idealize.ShloMosaic.Lib.Pipeline.Value

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The block indices at every grid point: the row-blocked windows (input 0, output 3) sit at block (t, 0), the two
    row windows (1, 2) at block (0, 0); and the grid has ten points. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ t.val < 10 :=
  (by decide +kernel : ∀ t : Fin grid1.N, _)

/-- The three arrays region 1 reads, as it finds them: the [50000,64] input and the [1,64] scale and shift rows. -/
abbrev bnH1 (c : Dev nD) : S50000x64.Idx → EReal := V c (Pipeline.arrRef spec1 0)
abbrev bnS1 (c : Dev nD) : S1x64.Idx → EReal := V c (Pipeline.arrRef spec1 1)
abbrev bnT1 (c : Dev nD) : S1x64.Idx → EReal := V c (Pipeline.arrRef spec1 2)

/-- The array region 1 computes: scale, shift and rectify the input by the two rows. -/
abbrev bn1 (c : Dev nD) : S50000x64.Idx → EReal := bnArr (bnH1 V c) (bnS1 V c) (bnT1 V c)

/-- Its entry (r, q). -/
theorem bn1_apply (c : Dev nD) (r : Fin 50000) (q : Fin 64) :
    bn1 V c (ix2 r q) = max (bnH1 V c (ix2 r q) * bnS1 V c (ix2 0 q) + bnT1 V c (ix2 0 q)) 0 :=
  bnArr_apply _ _ _ _ r q rfl rfl

/-- What point t writes back is block t of that array. -/
theorem flushed_eq1 (c : Dev nD) (t : Fin cfg1.N) :
    (dat1 (F := Ideal) V c).flushed 3 t = ((cfg1.win 3).blk t).view.read (Elt Ideal) (bn1 V c) := by
  show (cfg1.win 3).cut (grid1.coords t) ((dat1 (F := Ideal) V c).after 3 t) = _
  rw [after1_3]
  unfold out1_3
  rw [View.canon_unit_zero zero_offsets]
  simp only [View.ld_unit_zero (S := S5000x64) zero_offsets, View.ld_unit_zero (S := S1x64) zero_offsets]
  obtain ⟨e00, e01, e10, e11, e20, e21, e30, e31, ht⟩ := idx_facts1 t
  funext j
  obtain ⟨p, q, rfl⟩ : ∃ (p : Fin 5000) (q : Fin 64), j = ix2 p q := ⟨j 0, j 1, eq_ix2 j⟩
  have hp : p.val < 5000 := p.isLt
  show k1_pay1 (F := Ideal) (iblk1 V c 0 t) (iblk1 V c 1 t) (iblk1 V c 2 t) (ix2 p q)
    = bn1 V c (((cfg1.win 3).blk t).view.emb (ix2 p q))
  refine (bn_block_apply (bnH1 V c) (bnS1 V c) (bnT1 V c) (iblk1 V c 0 t) (iblk1 V c 1 t) (iblk1 V c 2 t) t.val
    ?_ ?_ ?_ p q ⟨t.val * 5000 + p.val, by omega⟩ rfl).trans ?_
  · intro p' q' r hr
    show bnH1 V c (((cfg1.win 0).blk t).view.emb (ix2 p' q')) = _
    refine congrArg _ (funext fun a => Fin.ext ?_)
    match a with
    | ⟨0, _⟩ => show win1_0.index t (0 : Fin 2) * 5000 + 1 * p'.val = r.val; omega
    | ⟨1, _⟩ => show win1_0.index t (1 : Fin 2) * 64 + 1 * q'.val = q'.val; omega
  · intro k
    show bnS1 V c (((cfg1.win 1).blk t).view.emb (ix2 0 k)) = _
    refine congrArg _ (funext fun a => Fin.ext ?_)
    match a with
    | ⟨0, _⟩ => show win1_1.index t (0 : Fin 2) * 1 + 1 * 0 = 0; omega
    | ⟨1, _⟩ => show win1_1.index t (1 : Fin 2) * 64 + 1 * k.val = k.val; omega
  · intro k
    show bnT1 V c (((cfg1.win 2).blk t).view.emb (ix2 0 k)) = _
    refine congrArg _ (funext fun a => Fin.ext ?_)
    match a with
    | ⟨0, _⟩ => show win1_2.index t (0 : Fin 2) * 1 + 1 * 0 = 0; omega
    | ⟨1, _⟩ => show win1_2.index t (1 : Fin 2) * 64 + 1 * k.val = k.val; omega
  · refine (bnArr_apply _ _ _ _ ⟨t.val * 5000 + p.val, by omega⟩ q ?_ ?_).symm
    · show win1_3.index t (0 : Fin 2) * 5000 + 1 * p.val = t.val * 5000 + p.val; omega
    · show win1_3.index t (1 : Fin 2) * 64 + 1 * q.val = q.val; omega

/-- An index of the result array is in point t's block iff each coordinate is in the block's range on its axis. -/
theorem mem_blk1 (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v52).slice (win1_3.rect t)).set ↔ _
  rw [View.set_slice_whole, Rect.mem_set_unit]
  exact Iff.rfl

/-- Every index of the result array is in some point's block: row r is in block r / 5000. -/
theorem cover1 (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 10 := N_1
  refine ⟨⟨(i 0).val / 5000, by omega⟩, flush1_3 _, ?_⟩
  obtain ⟨-, -, -, -, -, -, e30, e31, -⟩ := idx_facts1 ⟨(i 0).val / 5000, by omega⟩
  rw [mem_blk1]
  intro a
  match a with
  | ⟨0, _⟩ =>
    show win1_3.index ⟨(i 0).val / 5000, _⟩ (0 : Fin 2) * 5000 ≤ (i 0).val ∧ (i 0).val < win1_3.index ⟨(i 0).val / 5000, _⟩ (0 : Fin 2) * 5000 + 5000
    rw [e30]; show (i 0).val / 5000 * 5000 ≤ (i 0).val ∧ (i 0).val < (i 0).val / 5000 * 5000 + 5000; omega
  | ⟨1, _⟩ =>
    show win1_3.index ⟨(i 0).val / 5000, _⟩ (1 : Fin 2) * 64 ≤ (i 1).val ∧ (i 1).val < win1_3.index ⟨(i 0).val / 5000, _⟩ (1 : Fin 2) * 64 + 64
    rw [e31]; omega

/-- The result array after region 1: the scaled, shifted, rectified input array. -/
theorem final1 (c : Dev nD) : (dat1 (F := Ideal) V c).arrAt 3 cfg1.N = bn1 V c :=
  (dat1 (F := Ideal) V c).arrAt_eq_of_cover 3 (bn1 V c) (fun t _ => flushed_eq1 V c t) (cover1)

end Cert.KernelIdeal.RegionValue

end
-- ==== Proof.RegionBn3.lean ====
/- Region 3 (the normalise body over ten row blocks): what its result array holds after the region, as one function of
   the three arrays the region reads. At grid point t the body loads rows 5000 t … 5000 t + 4999 of the [50000,64] input
   and the whole [1,64] scale and shift rows, and stores, into the same rows of the result, entry (p, q) ↦
   max (h p q * s q + t q) 0. The ten blocks tile the result array, so it ends as the array i ↦ max (H i * S (i 1) + T (i 1)) 0. -/
import proofs.«118327_j29411936043504_1_alg».proof.Proof.Gen.KernelIdeal.Frame
import proofs.«118327_j29411936043504_1_alg».proof.Proof.RegionPayload
import Idealize.ShloMosaic.Lib.Pipeline.Value

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The block indices at every grid point: the row-blocked windows (input 0, output 3) sit at block (t, 0), the two
    row windows (1, 2) at block (0, 0); and the grid has ten points. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ t.val < 10 :=
  (by decide +kernel : ∀ t : Fin grid3.N, _)

/-- The three arrays region 3 reads, as it finds them: the [50000,64] input and the [1,64] scale and shift rows. -/
abbrev bnH3 (c : Dev nD) : S50000x64.Idx → EReal := V c (Pipeline.arrRef spec3 0)
abbrev bnS3 (c : Dev nD) : S1x64.Idx → EReal := V c (Pipeline.arrRef spec3 1)
abbrev bnT3 (c : Dev nD) : S1x64.Idx → EReal := V c (Pipeline.arrRef spec3 2)

/-- The array region 3 computes: scale, shift and rectify the input by the two rows. -/
abbrev bn3 (c : Dev nD) : S50000x64.Idx → EReal := bnArr (bnH3 V c) (bnS3 V c) (bnT3 V c)

/-- Its entry (r, q). -/
theorem bn3_apply (c : Dev nD) (r : Fin 50000) (q : Fin 64) :
    bn3 V c (ix2 r q) = max (bnH3 V c (ix2 r q) * bnS3 V c (ix2 0 q) + bnT3 V c (ix2 0 q)) 0 :=
  bnArr_apply _ _ _ _ r q rfl rfl

/-- What point t writes back is block t of that array. -/
theorem flushed_eq3 (c : Dev nD) (t : Fin cfg3.N) :
    (dat3 (F := Ideal) V c).flushed 3 t = ((cfg3.win 3).blk t).view.read (Elt Ideal) (bn3 V c) := by
  show (cfg3.win 3).cut (grid3.coords t) ((dat3 (F := Ideal) V c).after 3 t) = _
  rw [after3_3]
  unfold out3_3
  rw [View.canon_unit_zero zero_offsets]
  simp only [View.ld_unit_zero (S := S5000x64) zero_offsets, View.ld_unit_zero (S := S1x64) zero_offsets]
  obtain ⟨e00, e01, e10, e11, e20, e21, e30, e31, ht⟩ := idx_facts3 t
  funext j
  obtain ⟨p, q, rfl⟩ : ∃ (p : Fin 5000) (q : Fin 64), j = ix2 p q := ⟨j 0, j 1, eq_ix2 j⟩
  have hp : p.val < 5000 := p.isLt
  show k3_pay1 (F := Ideal) (iblk3 V c 0 t) (iblk3 V c 1 t) (iblk3 V c 2 t) (ix2 p q)
    = bn3 V c (((cfg3.win 3).blk t).view.emb (ix2 p q))
  rw [k3_pay1_eq]
  refine (bn_block_apply (bnH3 V c) (bnS3 V c) (bnT3 V c) (iblk3 V c 0 t) (iblk3 V c 1 t) (iblk3 V c 2 t) t.val
    ?_ ?_ ?_ p q ⟨t.val * 5000 + p.val, by omega⟩ rfl).trans ?_
  · intro p' q' r hr
    show bnH3 V c (((cfg3.win 0).blk t).view.emb (ix2 p' q')) = _
    refine congrArg _ (funext fun a => Fin.ext ?_)
    match a with
    | ⟨0, _⟩ => show win3_0.index t (0 : Fin 2) * 5000 + 1 * p'.val = r.val; omega
    | ⟨1, _⟩ => show win3_0.index t (1 : Fin 2) * 64 + 1 * q'.val = q'.val; omega
  · intro k
    show bnS3 V c (((cfg3.win 1).blk t).view.emb (ix2 0 k)) = _
    refine congrArg _ (funext fun a => Fin.ext ?_)
    match a with
    | ⟨0, _⟩ => show win3_1.index t (0 : Fin 2) * 1 + 1 * 0 = 0; omega
    | ⟨1, _⟩ => show win3_1.index t (1 : Fin 2) * 64 + 1 * k.val = k.val; omega
  · intro k
    show bnT3 V c (((cfg3.win 2).blk t).view.emb (ix2 0 k)) = _
    refine congrArg _ (funext fun a => Fin.ext ?_)
    match a with
    | ⟨0, _⟩ => show win3_2.index t (0 : Fin 2) * 1 + 1 * 0 = 0; omega
    | ⟨1, _⟩ => show win3_2.index t (1 : Fin 2) * 64 + 1 * k.val = k.val; omega
  · refine (bnArr_apply _ _ _ _ ⟨t.val * 5000 + p.val, by omega⟩ q ?_ ?_).symm
    · show win3_3.index t (0 : Fin 2) * 5000 + 1 * p.val = t.val * 5000 + p.val; omega
    · show win3_3.index t (1 : Fin 2) * 64 + 1 * q.val = q.val; omega

/-- An index of the result array is in point t's block iff each coordinate is in the block's range on its axis. -/
theorem mem_blk3 (t : Fin cfg3.N) (i : S50000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v101).slice (win3_3.rect t)).set ↔ _
  rw [View.set_slice_whole, Rect.mem_set_unit]
  exact Iff.rfl

/-- Every index of the result array is in some point's block: row r is in block r / 5000. -/
theorem cover3 (i : S50000x64.Idx) : ∃ t : Fin cfg3.N, (cfg3.win 3).flush t = true ∧ i ∈ ((cfg3.win 3).blk t).view.set := by
  have hi0 : (i 0).val < 50000 := (i 0).isLt
  have hi1 : (i 1).val < 64 := (i 1).isLt
  have hN : cfg3.N = 10 := N_3
  refine ⟨⟨(i 0).val / 5000, by omega⟩, flush3_3 _, ?_⟩
  obtain ⟨-, -, -, -, -, -, e30, e31, -⟩ := idx_facts3 ⟨(i 0).val / 5000, by omega⟩
  rw [mem_blk3]
  intro a
  match a with
  | ⟨0, _⟩ =>
    show win3_3.index ⟨(i 0).val / 5000, _⟩ (0 : Fin 2) * 5000 ≤ (i 0).val ∧ (i 0).val < win3_3.index ⟨(i 0).val / 5000, _⟩ (0 : Fin 2) * 5000 + 5000
    rw [e30]; show (i 0).val / 5000 * 5000 ≤ (i 0).val ∧ (i 0).val < (i 0).val / 5000 * 5000 + 5000; omega
  | ⟨1, _⟩ =>
    show win3_3.index ⟨(i 0).val / 5000, _⟩ (1 : Fin 2) * 64 ≤ (i 1).val ∧ (i 1).val < win3_3.index ⟨(i 0).val / 5000, _⟩ (1 : Fin 2) * 64 + 64
    rw [e31]; omega

/-- The result array after region 3: the scaled, shifted, rectified input array. -/
theorem final3 (c : Dev nD) : (dat3 (F := Ideal) V c).arrAt 3 cfg3.N = bn3 V c :=
  (dat3 (F := Ideal) V c).arrAt_eq_of_cover 3 (bn3 V c) (fun t _ => flushed_eq3 V c t) (cover3)

end Cert.KernelIdeal.RegionValue

end
-- ==== Proof.RegionBn5.lean ====
/- Region 5 (the normalise body over ten row blocks): what its result array holds after the region, as one function of
   the three arrays the region reads. At grid point t the body loads rows 5000 t … 5000 t + 4999 of the [50000,64] input
   and the whole [1,64] scale and shift rows, and stores, into the same rows of the result, entry (p, q) ↦
   max (h p q * s q + t q) 0. The ten blocks tile the result array, so it ends as the array i ↦ max (H i * S (i 1) + T (i 1)) 0. -/
import proofs.«118327_j29411936043504_1_alg».proof.Proof.Gen.KernelIdeal.Frame
import proofs.«118327_j29411936043504_1_alg».proof.Proof.RegionPayload
import Idealize.ShloMosaic.Lib.Pipeline.Value

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The block indices at every grid point: the row-blocked windows (input 0, output 3) sit at block (t, 0), the two
    row windows (1, 2) at block (0, 0); and the grid has ten points. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ t.val < 10 :=
  (by decide +kernel : ∀ t : Fin grid5.N, _)

/-- The three arrays region 5 reads, as it finds them: the [50000,64] input and the [1,64] scale and shift rows. -/
abbrev bnH5 (c : Dev nD) : S50000x64.Idx → EReal := V c (Pipeline.arrRef spec5 0)
abbrev bnS5 (c : Dev nD) : S1x64.Idx → EReal := V c (Pipeline.arrRef spec5 1)
abbrev bnT5 (c : Dev nD) : S1x64.Idx → EReal := V c (Pipeline.arrRef spec5 2)

/-- The array region 5 computes: scale, shift and rectify the input by the two rows. -/
abbrev bn5 (c : Dev nD) : S50000x64.Idx → EReal := bnArr (bnH5 V c) (bnS5 V c) (bnT5 V c)

/-- Its entry (r, q). -/
theorem bn5_apply (c : Dev nD) (r : Fin 50000) (q : Fin 64) :
    bn5 V c (ix2 r q) = max (bnH5 V c (ix2 r q) * bnS5 V c (ix2 0 q) + bnT5 V c (ix2 0 q)) 0 :=
  bnArr_apply _ _ _ _ r q rfl rfl

/-- What point t writes back is block t of that array. -/
theorem flushed_eq5 (c : Dev nD) (t : Fin cfg5.N) :
    (dat5 (F := Ideal) V c).flushed 3 t = ((cfg5.win 3).blk t).view.read (Elt Ideal) (bn5 V c) := by
  show (cfg5.win 3).cut (grid5.coords t) ((dat5 (F := Ideal) V c).after 3 t) = _
  rw [after5_3]
  unfold out5_3
  rw [View.canon_unit_zero zero_offsets]
  simp only [View.ld_unit_zero (S := S5000x64) zero_offsets, View.ld_unit_zero (S := S1x64) zero_offsets]
  obtain ⟨e00, e01, e10, e11, e20, e21, e30, e31, ht⟩ := idx_facts5 t
  funext j
  obtain ⟨p, q, rfl⟩ : ∃ (p : Fin 5000) (q : Fin 64), j = ix2 p q := ⟨j 0, j 1, eq_ix2 j⟩
  have hp : p.val < 5000 := p.isLt
  show k5_pay1 (F := Ideal) (iblk5 V c 0 t) (iblk5 V c 1 t) (iblk5 V c 2 t) (ix2 p q)
    = bn5 V c (((cfg5.win 3).blk t).view.emb (ix2 p q))
  rw [k5_pay1_eq]
  refine (bn_block_apply (bnH5 V c) (bnS5 V c) (bnT5 V c) (iblk5 V c 0 t) (iblk5 V c 1 t) (iblk5 V c 2 t) t.val
    ?_ ?_ ?_ p q ⟨t.val * 5000 + p.val, by omega⟩ rfl).trans ?_
  · intro p' q' r hr
    show bnH5 V c (((cfg5.win 0).blk t).view.emb (ix2 p' q')) = _
    refine congrArg _ (funext fun a => Fin.ext ?_)
    match a with
    | ⟨0, _⟩ => show win5_0.index t (0 : Fin 2) * 5000 + 1 * p'.val = r.val; omega
    | ⟨1, _⟩ => show win5_0.index t (1 : Fin 2) * 64 + 1 * q'.val = q'.val; omega
  · intro k
    show bnS5 V c (((cfg5.win 1).blk t).view.emb (ix2 0 k)) = _
    refine congrArg _ (funext fun a => Fin.ext ?_)
    match a with
    | ⟨0, _⟩ => show win5_1.index t (0 : Fin 2) * 1 + 1 * 0 = 0; omega
    | ⟨1, _⟩ => show win5_1.index t (1 : Fin 2) * 64 + 1 * k.val = k.val; omega
  · intro k
    show bnT5 V c (((cfg5.win 2).blk t).view.emb (ix2 0 k)) = _
    refine congrArg _ (funext fun a => Fin.ext ?_)
    match a with
    | ⟨0, _⟩ => show win5_2.index t (0 : Fin 2) * 1 + 1 * 0 = 0; omega
    | ⟨1, _⟩ => show win5_2.index t (1 : Fin 2) * 64 + 1 * k.val = k.val; omega
  · refine (bnArr_apply _ _ _ _ ⟨t.val * 5000 + p.val, by omega⟩ q ?_ ?_).symm
    · show win5_3.index t (0 : Fin 2) * 5000 + 1 * p.val = t.val * 5000 + p.val; omega
    · show win5_3.index t (1 : Fin 2) * 64 + 1 * q.val = q.val; omega

/-- An index of the result array is in point t's block iff each coordinate is in the block's range on its axis. -/
theorem mem_blk5 (t : Fin cfg5.N) (i : S50000x64.Idx) :
    i ∈ ((cfg5.win 3).blk t).view.set ↔ ∀ a : Fin 2, win5_3.index t a * S5000x64.size a ≤ (i a).val ∧ (i a).val < win5_3.index t a * S5000x64.size a + S5000x64.size a := by
  show i ∈ ((View.whole main_v150).slice (win5_3.rect t)).set ↔ _
  rw [View.set_slice_whole, Rect.mem_set_unit]
  exact Iff.rfl

/-- Every index of the result array is in some point's block: row r is in block r / 5000. -/
theorem cover5 (i : S50000x64.Idx) : ∃ t : Fin cfg5.N, (cfg5.win 3).flush t = true ∧ i ∈ ((cfg5.win 3).blk t).view.set := by
  have hi0 : (i 0).val < 50000 := (i 0).isLt
  have hi1 : (i 1).val < 64 := (i 1).isLt
  have hN : cfg5.N = 10 := N_5
  refine ⟨⟨(i 0).val / 5000, by omega⟩, flush5_3 _, ?_⟩
  obtain ⟨-, -, -, -, -, -, e30, e31, -⟩ := idx_facts5 ⟨(i 0).val / 5000, by omega⟩
  rw [mem_blk5]
  intro a
  match a with
  | ⟨0, _⟩ =>
    show win5_3.index ⟨(i 0).val / 5000, _⟩ (0 : Fin 2) * 5000 ≤ (i 0).val ∧ (i 0).val < win5_3.index ⟨(i 0).val / 5000, _⟩ (0 : Fin 2) * 5000 + 5000
    rw [e30]; show (i 0).val / 5000 * 5000 ≤ (i 0).val ∧ (i 0).val < (i 0).val / 5000 * 5000 + 5000; omega
  | ⟨1, _⟩ =>
    show win5_3.index ⟨(i 0).val / 5000, _⟩ (1 : Fin 2) * 64 ≤ (i 1).val ∧ (i 1).val < win5_3.index ⟨(i 0).val / 5000, _⟩ (1 : Fin 2) * 64 + 64
    rw [e31]; omega

/-- The result array after region 5: the scaled, shifted, rectified input array. -/
theorem final5 (c : Dev nD) : (dat5 (F := Ideal) V c).arrAt 3 cfg5.N = bn5 V c :=
  (dat5 (F := Ideal) V c).arrAt_eq_of_cover 3 (bn5 V c) (fun t _ => flushed_eq5 V c t) (cover5)

end Cert.KernelIdeal.RegionValue

end
-- ==== Proof.KernelValue.lean ====
/-
  The tiled program's result is the network of its arguments.

  Round by round: the stretch before a perceptron region leaves the aggregate of the current features and the round's
  weight blocks and bias rows, the region leaves the perceptron of them; the stretch before a normalising region
  leaves the scale and shift rows computed from the perceptron's column means and reciprocal deviations, and the
  region leaves, for real data, the reference's normalise-and-rectify — the next round's features, real again.  After
  three rounds the last stretch is the read-out.  The arguments and the edge list's index vectors are carried
  unchanged to every place that reads them.
-/
import proofs.«118327_j29411936043504_1_alg».proof.Proof.KernelCarry
import proofs.«118327_j29411936043504_1_alg».proof.Proof.Connect
import proofs.«118327_j29411936043504_1_alg».proof.Proof.SliceReal
import proofs.«118327_j29411936043504_1_alg».proof.Proof.RegionValue0
import proofs.«118327_j29411936043504_1_alg».proof.Proof.RegionValue2
import proofs.«118327_j29411936043504_1_alg».proof.Proof.RegionValue4
import proofs.«118327_j29411936043504_1_alg».proof.Proof.RegionBn1
import proofs.«118327_j29411936043504_1_alg».proof.Proof.RegionBn3
import proofs.«118327_j29411936043504_1_alg».proof.Proof.RegionBn5

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo
open Cert.Lib Idealize.ShloMosaic.ValueIdx
open Cert.Gin (Feat Edges Batch W3 B3 WfT BfT aggRef mlpRef meanRef rstdRef bnRef layerRef round1 round2 round3 net tailRef)

variable (m : (ℓ : Loc nD τ sig) → Buf (Elt Ideal) ℓ) (ρ : Dev nD → PrngReg) (c : Dev nD)

/-- The argument arrays as launched, at the types the network's functions take. -/
abbrev A0 : Feat := m ((c : Thread nD τ).loc main_arg0)
abbrev A1 : Edges := m ((c : Thread nD τ).loc main_arg1)
abbrev A2 : Batch := m ((c : Thread nD τ).loc main_arg2)
abbrev A3 : W3 := m ((c : Thread nD τ).loc main_arg3)
abbrev A4 : B3 := m ((c : Thread nD τ).loc main_arg4)
abbrev A5 : W3 := m ((c : Thread nD τ).loc main_arg5)
abbrev A6 : B3 := m ((c : Thread nD τ).loc main_arg6)
abbrev A7 : B3 := m ((c : Thread nD τ).loc main_arg7)
abbrev A8 : B3 := m ((c : Thread nD τ).loc main_arg8)
abbrev A9 : WfT := m ((c : Thread nD τ).loc main_arg9)
abbrev A10 : BfT := m ((c : Thread nD τ).loc main_arg10)

set_option maxHeartbeats 1600000 in
/-- Round 1, the perceptron region: what it leaves is the host perceptron of the round's features and their aggregate. -/
theorem mlp_step0 :
    W2 m ρ c (Proc.devRef .tc main_v29)
      = mlpRef (A0 m c) (aggRef (A0 m c) (A1 m c)) (Cert.ReferenceIdeal.ReadP.val_main_v21 (F := Ideal) (A3 m c)) (Cert.ReferenceIdeal.ReadP.val_main_v24 (F := Ideal) (A4 m c)) (Cert.ReferenceIdeal.ReadP.val_main_v30 (F := Ideal) (A5 m c)) (Cert.ReferenceIdeal.ReadP.val_main_v33 (F := Ideal) (A6 m c)) := by
  refine (W2_arr m ρ c 6).trans ((Cert.KernelIdeal.RegionValue.final0 (V1 m ρ) c).trans ?_)
  have e0 : (V1 m ρ c (Pipeline.arrRef spec0 0) : S50000x64.Idx → EReal) = (A0 m c) := at1_arg0 m ρ c
  have e1 : (V1 m ρ c (Pipeline.arrRef spec0 1) : S50000x64.Idx → EReal) = aggRef (A0 m c) (A1 m c) := st0_agg (W0 m ρ c)
  have e2 : (V1 m ρ c (Pipeline.arrRef spec0 2) : S64x64.Idx → EReal) = Cert.ReferenceIdeal.ReadP.val_main_v21 (F := Ideal) (A3 m c) := st0_w1 (W0 m ρ c)
  have e3 : (V1 m ρ c (Pipeline.arrRef spec0 3) : S1x64.Idx → EReal) = shapeCast S1x64 (Cert.ReferenceIdeal.ReadP.val_main_v24 (F := Ideal) (A4 m c)) shapeCasts_S64_S1x64 := st0_b1 (W0 m ρ c)
  have e4 : (V1 m ρ c (Pipeline.arrRef spec0 4) : S64x64.Idx → EReal) = Cert.ReferenceIdeal.ReadP.val_main_v30 (F := Ideal) (A5 m c) := st0_w2 (W0 m ρ c)
  have e5 : (V1 m ρ c (Pipeline.arrRef spec0 5) : S1x64.Idx → EReal) = shapeCast S1x64 (Cert.ReferenceIdeal.ReadP.val_main_v33 (F := Ideal) (A6 m c)) shapeCasts_S64_S1x64 := st0_b2 (W0 m ρ c)
  rw [e0, e1, e2, e3, e4, e5]
  exact Cert.Gin.mlp_array _ _ _ _ _ _ _ _

set_option maxHeartbeats 1600000 in
/-- Round 1, the normalising region: for real data what it leaves is the host's normalise-and-rectify. -/
theorem bn_step0 (H : Feat) (hH : W2 m ρ c (Proc.devRef .tc main_v29) = H) (hHr : ∀ i, IsReal (H i))
    (h7 : ∀ i, IsReal (A7 m c i)) (h8 : ∀ i, IsReal (A8 m c i)) :
    W4 m ρ c (Proc.devRef .tc main_v52) = bnRef H (Cert.ReferenceIdeal.ReadP.val_main_v58 (F := Ideal) (A7 m c)) (Cert.ReferenceIdeal.ReadP.val_main_v63 (F := Ideal) (A8 m c)) := by
  refine (W4_arr m ρ c 3).trans ((Cert.KernelIdeal.RegionValue.final1 (V3 m ρ) c).trans ?_)
  have eH : Cert.KernelIdeal.RegionValue.bnH1 (V3 m ρ) c = H :=
    (show StableHlo.after hostOps1 (W2 m ρ c) (Proc.devRef .tc main_v29) = W2 m ρ c (Proc.devRef .tc main_v29) by keep_tac).trans hH
  have eS : Cert.KernelIdeal.RegionValue.bnS1 (V3 m ρ) c = shapeCast S1x64 (mulf (F := Ideal) (Cert.ReferenceIdeal.ReadP.val_main_v58 (F := Ideal) (A7 m c)) (rstdRef H)) shapeCasts_S64_S1x64 :=
    (st1_scale (W2 m ρ c)).trans (by rw [at2_arg7 m ρ c, hH])
  have eT : Cert.KernelIdeal.RegionValue.bnT1 (V3 m ρ) c = shapeCast S1x64 (subf (F := Ideal) (Cert.ReferenceIdeal.ReadP.val_main_v63 (F := Ideal) (A8 m c)) (mulf (F := Ideal) (meanRef H)
      (mulf (F := Ideal) (Cert.ReferenceIdeal.ReadP.val_main_v58 (F := Ideal) (A7 m c)) (rstdRef H)))) shapeCasts_S64_S1x64 :=
    (st1_shift (W2 m ρ c)).trans (by rw [at2_arg7 m ρ c, at2_arg8 m ρ c, hH])
  show Cert.KernelIdeal.RegionValue.bnArr (Cert.KernelIdeal.RegionValue.bnH1 (V3 m ρ) c) (Cert.KernelIdeal.RegionValue.bnS1 (V3 m ρ) c) (Cert.KernelIdeal.RegionValue.bnT1 (V3 m ρ) c) = _
  rw [eH, eS, eT]
  exact Cert.Gin.bn_array H _ _ _ _ hHr (Cert.Gin.real_v58 _ h7) (Cert.Gin.real_v63 _ h8)

set_option maxHeartbeats 1600000 in
/-- Round 2, the perceptron region: what it leaves is the host perceptron of the round's features and their aggregate. -/
theorem mlp_step1 (X : Feat) (hX : W4 m ρ c (Proc.devRef .tc main_v52) = X) :
    W6 m ρ c (Proc.devRef .tc main_v78)
      = mlpRef X (aggRef X (A1 m c)) (Cert.ReferenceIdeal.ReadP.val_main_v85 (F := Ideal) (A3 m c)) (Cert.ReferenceIdeal.ReadP.val_main_v88 (F := Ideal) (A4 m c)) (Cert.ReferenceIdeal.ReadP.val_main_v94 (F := Ideal) (A5 m c)) (Cert.ReferenceIdeal.ReadP.val_main_v97 (F := Ideal) (A6 m c)) := by
  refine (W6_arr m ρ c 6).trans ((Cert.KernelIdeal.RegionValue.final2 (V5 m ρ) c).trans ?_)
  have e0 : (V5 m ρ c (Pipeline.arrRef spec2 0) : S50000x64.Idx → EReal) = X := (show StableHlo.after hostOps2 (W4 m ρ c) (Proc.devRef .tc main_v52) = W4 m ρ c (Proc.devRef .tc main_v52) by keep_tac).trans hX
  have e1 : (V5 m ρ c (Pipeline.arrRef spec2 1) : S50000x64.Idx → EReal) = aggRef X (A1 m c) := (st2_agg (W4 m ρ c) (A1 m c) (at4_v1 m ρ c) (at4_v3 m ρ c)).trans (by rw [hX])
  have e2 : (V5 m ρ c (Pipeline.arrRef spec2 2) : S64x64.Idx → EReal) = Cert.ReferenceIdeal.ReadP.val_main_v85 (F := Ideal) (A3 m c) := (st2_w1 (W4 m ρ c)).trans (by rw [at4_arg3 m ρ c])
  have e3 : (V5 m ρ c (Pipeline.arrRef spec2 3) : S1x64.Idx → EReal) = shapeCast S1x64 (Cert.ReferenceIdeal.ReadP.val_main_v88 (F := Ideal) (A4 m c)) shapeCasts_S64_S1x64 := (st2_b1 (W4 m ρ c)).trans (by rw [at4_arg4 m ρ c])
  have e4 : (V5 m ρ c (Pipeline.arrRef spec2 4) : S64x64.Idx → EReal) = Cert.ReferenceIdeal.ReadP.val_main_v94 (F := Ideal) (A5 m c) := (st2_w2 (W4 m ρ c)).trans (by rw [at4_arg5 m ρ c])
  have e5 : (V5 m ρ c (Pipeline.arrRef spec2 5) : S1x64.Idx → EReal) = shapeCast S1x64 (Cert.ReferenceIdeal.ReadP.val_main_v97 (F := Ideal) (A6 m c)) shapeCasts_S64_S1x64 := (st2_b2 (W4 m ρ c)).trans (by rw [at4_arg6 m ρ c])
  rw [e0, e1, e2, e3, e4, e5]
  exact Cert.Gin.mlp_array _ _ _ _ _ _ _ _

set_option maxHeartbeats 1600000 in
/-- Round 2, the normalising region: for real data what it leaves is the host's normalise-and-rectify. -/
theorem bn_step1 (H : Feat) (hH : W6 m ρ c (Proc.devRef .tc main_v78) = H) (hHr : ∀ i, IsReal (H i))
    (h7 : ∀ i, IsReal (A7 m c i)) (h8 : ∀ i, IsReal (A8 m c i)) :
    W8 m ρ c (Proc.devRef .tc main_v101) = bnRef H (Cert.ReferenceIdeal.ReadP.val_main_v122 (F := Ideal) (A7 m c)) (Cert.ReferenceIdeal.ReadP.val_main_v127 (F := Ideal) (A8 m c)) := by
  refine (W8_arr m ρ c 3).trans ((Cert.KernelIdeal.RegionValue.final3 (V7 m ρ) c).trans ?_)
  have eH : Cert.KernelIdeal.RegionValue.bnH3 (V7 m ρ) c = H :=
    (show StableHlo.after hostOps3 (W6 m ρ c) (Proc.devRef .tc main_v78) = W6 m ρ c (Proc.devRef .tc main_v78) by keep_tac).trans hH
  have eS : Cert.KernelIdeal.RegionValue.bnS3 (V7 m ρ) c = shapeCast S1x64 (mulf (F := Ideal) (Cert.ReferenceIdeal.ReadP.val_main_v122 (F := Ideal) (A7 m c)) (rstdRef H)) shapeCasts_S64_S1x64 :=
    (st3_scale (W6 m ρ c)).trans (by rw [at6_arg7 m ρ c, hH])
  have eT : Cert.KernelIdeal.RegionValue.bnT3 (V7 m ρ) c = shapeCast S1x64 (subf (F := Ideal) (Cert.ReferenceIdeal.ReadP.val_main_v127 (F := Ideal) (A8 m c)) (mulf (F := Ideal) (meanRef H)
      (mulf (F := Ideal) (Cert.ReferenceIdeal.ReadP.val_main_v122 (F := Ideal) (A7 m c)) (rstdRef H)))) shapeCasts_S64_S1x64 :=
    (st3_shift (W6 m ρ c)).trans (by rw [at6_arg7 m ρ c, at6_arg8 m ρ c, hH])
  show Cert.KernelIdeal.RegionValue.bnArr (Cert.KernelIdeal.RegionValue.bnH3 (V7 m ρ) c) (Cert.KernelIdeal.RegionValue.bnS3 (V7 m ρ) c) (Cert.KernelIdeal.RegionValue.bnT3 (V7 m ρ) c) = _
  rw [eH, eS, eT]
  exact Cert.Gin.bn_array H _ _ _ _ hHr (Cert.Gin.real_v122 _ h7) (Cert.Gin.real_v127 _ h8)

set_option maxHeartbeats 1600000 in
/-- Round 3, the perceptron region: what it leaves is the host perceptron of the round's features and their aggregate. -/
theorem mlp_step2 (X : Feat) (hX : W8 m ρ c (Proc.devRef .tc main_v101) = X) :
    W10 m ρ c (Proc.devRef .tc main_v127)
      = mlpRef X (aggRef X (A1 m c)) (Cert.ReferenceIdeal.ReadP.val_main_v149 (F := Ideal) (A3 m c)) (Cert.ReferenceIdeal.ReadP.val_main_v152 (F := Ideal) (A4 m c)) (Cert.ReferenceIdeal.ReadP.val_main_v158 (F := Ideal) (A5 m c)) (Cert.ReferenceIdeal.ReadP.val_main_v161 (F := Ideal) (A6 m c)) := by
  refine (W10_arr m ρ c 6).trans ((Cert.KernelIdeal.RegionValue.final4 (V9 m ρ) c).trans ?_)
  have e0 : (V9 m ρ c (Pipeline.arrRef spec4 0) : S50000x64.Idx → EReal) = X := (show StableHlo.after hostOps4 (W8 m ρ c) (Proc.devRef .tc main_v101) = W8 m ρ c (Proc.devRef .tc main_v101) by keep_tac).trans hX
  have e1 : (V9 m ρ c (Pipeline.arrRef spec4 1) : S50000x64.Idx → EReal) = aggRef X (A1 m c) := (st4_agg (W8 m ρ c) (A1 m c) (at8_v1 m ρ c) (at8_v3 m ρ c)).trans (by rw [hX])
  have e2 : (V9 m ρ c (Pipeline.arrRef spec4 2) : S64x64.Idx → EReal) = Cert.ReferenceIdeal.ReadP.val_main_v149 (F := Ideal) (A3 m c) := (st4_w1 (W8 m ρ c)).trans (by rw [at8_arg3 m ρ c])
  have e3 : (V9 m ρ c (Pipeline.arrRef spec4 3) : S1x64.Idx → EReal) = shapeCast S1x64 (Cert.ReferenceIdeal.ReadP.val_main_v152 (F := Ideal) (A4 m c)) shapeCasts_S64_S1x64 := (st4_b1 (W8 m ρ c)).trans (by rw [at8_arg4 m ρ c])
  have e4 : (V9 m ρ c (Pipeline.arrRef spec4 4) : S64x64.Idx → EReal) = Cert.ReferenceIdeal.ReadP.val_main_v158 (F := Ideal) (A5 m c) := (st4_w2 (W8 m ρ c)).trans (by rw [at8_arg5 m ρ c])
  have e5 : (V9 m ρ c (Pipeline.arrRef spec4 5) : S1x64.Idx → EReal) = shapeCast S1x64 (Cert.ReferenceIdeal.ReadP.val_main_v161 (F := Ideal) (A6 m c)) shapeCasts_S64_S1x64 := (st4_b2 (W8 m ρ c)).trans (by rw [at8_arg6 m ρ c])
  rw [e0, e1, e2, e3, e4, e5]
  exact Cert.Gin.mlp_array _ _ _ _ _ _ _ _

set_option maxHeartbeats 1600000 in
/-- Round 3, the normalising region: for real data what it leaves is the host's normalise-and-rectify. -/
theorem bn_step2 (H : Feat) (hH : W10 m ρ c (Proc.devRef .tc main_v127) = H) (hHr : ∀ i, IsReal (H i))
    (h7 : ∀ i, IsReal (A7 m c i)) (h8 : ∀ i, IsReal (A8 m c i)) :
    W12 m ρ c (Proc.devRef .tc main_v150) = bnRef H (Cert.ReferenceIdeal.ReadP.val_main_v186 (F := Ideal) (A7 m c)) (Cert.ReferenceIdeal.ReadP.val_main_v191 (F := Ideal) (A8 m c)) := by
  refine (W12_arr m ρ c 3).trans ((Cert.KernelIdeal.RegionValue.final5 (V11 m ρ) c).trans ?_)
  have eH : Cert.KernelIdeal.RegionValue.bnH5 (V11 m ρ) c = H :=
    (show StableHlo.after hostOps5 (W10 m ρ c) (Proc.devRef .tc main_v127) = W10 m ρ c (Proc.devRef .tc main_v127) by keep_tac).trans hH
  have eS : Cert.KernelIdeal.RegionValue.bnS5 (V11 m ρ) c = shapeCast S1x64 (mulf (F := Ideal) (Cert.ReferenceIdeal.ReadP.val_main_v186 (F := Ideal) (A7 m c)) (rstdRef H)) shapeCasts_S64_S1x64 :=
    (st5_scale (W10 m ρ c)).trans (by rw [at10_arg7 m ρ c, hH])
  have eT : Cert.KernelIdeal.RegionValue.bnT5 (V11 m ρ) c = shapeCast S1x64 (subf (F := Ideal) (Cert.ReferenceIdeal.ReadP.val_main_v191 (F := Ideal) (A8 m c)) (mulf (F := Ideal) (meanRef H)
      (mulf (F := Ideal) (Cert.ReferenceIdeal.ReadP.val_main_v186 (F := Ideal) (A7 m c)) (rstdRef H)))) shapeCasts_S64_S1x64 :=
    (st5_shift (W10 m ρ c)).trans (by rw [at10_arg7 m ρ c, at10_arg8 m ρ c, hH])
  show Cert.KernelIdeal.RegionValue.bnArr (Cert.KernelIdeal.RegionValue.bnH5 (V11 m ρ) c) (Cert.KernelIdeal.RegionValue.bnS5 (V11 m ρ) c) (Cert.KernelIdeal.RegionValue.bnT5 (V11 m ρ) c) = _
  rw [eH, eS, eT]
  exact Cert.Gin.bn_array H _ _ _ _ hHr (Cert.Gin.real_v186 _ h7) (Cert.Gin.real_v191 _ h8)

/-! ## The three rounds and the read-out -/

section Chain

variable (h0 : ∀ i, IsReal (A0 m c i)) (h3 : ∀ i, IsReal (A3 m c i)) (h4 : ∀ i, IsReal (A4 m c i))
  (h5 : ∀ i, IsReal (A5 m c i)) (h6 : ∀ i, IsReal (A6 m c i)) (h7 : ∀ i, IsReal (A7 m c i)) (h8 : ∀ i, IsReal (A8 m c i))

include h0 h3 h4 h5 h6 h7 h8

theorem round1_real (i) : IsReal (round1 (A0 m c) (A1 m c) (A3 m c) (A4 m c) (A5 m c) (A6 m c) (A7 m c) (A8 m c) i) :=
  Cert.Gin.layerRef_isReal _ _ _ _ _ _ _ _ h0 (Cert.Gin.real_v21 _ h3) (Cert.Gin.real_v24 _ h4) (Cert.Gin.real_v30 _ h5)
    (Cert.Gin.real_v33 _ h6) (Cert.Gin.real_v58 _ h7) (Cert.Gin.real_v63 _ h8) i

theorem round2_real (i) : IsReal (round2 (A0 m c) (A1 m c) (A3 m c) (A4 m c) (A5 m c) (A6 m c) (A7 m c) (A8 m c) i) :=
  Cert.Gin.layerRef_isReal _ _ _ _ _ _ _ _ (round1_real m c h0 h3 h4 h5 h6 h7 h8) (Cert.Gin.real_v85 _ h3) (Cert.Gin.real_v88 _ h4)
    (Cert.Gin.real_v94 _ h5) (Cert.Gin.real_v97 _ h6) (Cert.Gin.real_v122 _ h7) (Cert.Gin.real_v127 _ h8) i

theorem x1_eq : W4 m ρ c (Proc.devRef .tc main_v52) = round1 (A0 m c) (A1 m c) (A3 m c) (A4 m c) (A5 m c) (A6 m c) (A7 m c) (A8 m c) :=
  bn_step0 m ρ c _ (mlp_step0 m ρ c)
    (Cert.Gin.mlpRef_isReal _ _ _ _ _ _ h0 (Cert.Gin.aggRef_isReal' _ _ h0) (Cert.Gin.real_v21 _ h3) (Cert.Gin.real_v24 _ h4)
      (Cert.Gin.real_v30 _ h5) (Cert.Gin.real_v33 _ h6)) h7 h8

theorem x2_eq : W8 m ρ c (Proc.devRef .tc main_v101) = round2 (A0 m c) (A1 m c) (A3 m c) (A4 m c) (A5 m c) (A6 m c) (A7 m c) (A8 m c) :=
  bn_step1 m ρ c _ (mlp_step1 m ρ c _ (x1_eq m ρ c h0 h3 h4 h5 h6 h7 h8))
    (Cert.Gin.mlpRef_isReal _ _ _ _ _ _ (round1_real m c h0 h3 h4 h5 h6 h7 h8)
      (Cert.Gin.aggRef_isReal' _ _ (round1_real m c h0 h3 h4 h5 h6 h7 h8)) (Cert.Gin.real_v85 _ h3) (Cert.Gin.real_v88 _ h4)
      (Cert.Gin.real_v94 _ h5) (Cert.Gin.real_v97 _ h6)) h7 h8

theorem x3_eq : W12 m ρ c (Proc.devRef .tc main_v150) = round3 (A0 m c) (A1 m c) (A3 m c) (A4 m c) (A5 m c) (A6 m c) (A7 m c) (A8 m c) :=
  bn_step2 m ρ c _ (mlp_step2 m ρ c _ (x2_eq m ρ c h0 h3 h4 h5 h6 h7 h8))
    (Cert.Gin.mlpRef_isReal _ _ _ _ _ _ (round2_real m c h0 h3 h4 h5 h6 h7 h8)
      (Cert.Gin.aggRef_isReal' _ _ (round2_real m c h0 h3 h4 h5 h6 h7 h8)) (Cert.Gin.real_v149 _ h3) (Cert.Gin.real_v152 _ h4)
      (Cert.Gin.real_v158 _ h5) (Cert.Gin.real_v161 _ h6)) h7 h8

/-- The result buffer at the end of the run holds the network of the launch arguments. -/
theorem result_is_net :
    W13 m ρ c (Proc.devRef .tc main_v157)
      = net (A0 m c) (A1 m c) (A2 m c) (A3 m c) (A4 m c) (A5 m c) (A6 m c) (A7 m c) (A8 m c) (A9 m c) (A10 m c) := by
  refine (st6_out (W12 m ρ c)).trans ?_
  rw [x3_eq m ρ c h0 h3 h4 h5 h6 h7 h8, at12_arg2 m ρ c, at12_arg9 m ρ c, at12_arg10 m ρ c]
  rfl

end Chain

end Cert.KernelIdeal.HostValue

end
-- ==== Proof.RefRun.lean ====
/-
  The reference program's run, read at its result and at its arguments.

  The reference is a straight line of 252 array operations.  After its run every buffer holds the fold of the
  operations over the launch contents.  Read at the result buffer, operation by operation from the last one back
  (each operation's own buffer holds its function of its operands' buffers, every other buffer is as before), the
  fold is the last stage of the operation-by-operation reading of the program, which is the network `Cert.Gin.net`
  of the eleven argument arrays.  No operation writes an argument's buffer, so read at an argument the fold is the
  launch contents.
-/
import proofs.«118327_j29411936043504_1_alg».proof.Proof.ReferenceRunLight
import proofs.«118327_j29411936043504_1_alg».proof.Proof.RefIs

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxRecDepth 8192 in
set_option maxHeartbeats 100800000 in
/-- The fold of the operations, read at the result buffer, is the last stage of the operation-by-operation reading,
    at the launch contents of the arguments. -/
theorem result_eq (m : (ℓ : Loc nD τ sig) → Buf (Elt Ideal) ℓ) (c : Dev nD) :
    after (ValueL.ops (F := Ideal)) (launchContents m c) (Proc.devRef .tc main_v202)
      = ReadP.val_main_v202 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  after_results_simp
  rfl

/-! ## No operation writes an argument -/

set_option maxRecDepth 8192 in
set_option maxHeartbeats 100800000 in
theorem arg0_kept (m : (ℓ : Loc nD τ sig) → Buf (Elt Ideal) ℓ) (c : Dev nD) :
    after (ValueL.ops (F := Ideal)) (launchContents m c) (Proc.devRef .tc main_arg0) = m ((c.tc : Thread nD τ).loc main_arg0) := by
  after_results_simp <;> rfl

set_option maxRecDepth 8192 in
set_option maxHeartbeats 100800000 in
theorem arg1_kept (m : (ℓ : Loc nD τ sig) → Buf (Elt Ideal) ℓ) (c : Dev nD) :
    after (ValueL.ops (F := Ideal)) (launchContents m c) (Proc.devRef .tc main_arg1) = m ((c.tc : Thread nD τ).loc main_arg1) := by
  after_results_simp <;> rfl

set_option maxRecDepth 8192 in
set_option maxHeartbeats 100800000 in
theorem arg2_kept (m : (ℓ : Loc nD τ sig) → Buf (Elt Ideal) ℓ) (c : Dev nD) :
    after (ValueL.ops (F := Ideal)) (launchContents m c) (Proc.devRef .tc main_arg2) = m ((c.tc : Thread nD τ).loc main_arg2) := by
  after_results_simp <;> rfl

set_option maxRecDepth 8192 in
set_option maxHeartbeats 100800000 in
theorem arg3_kept (m : (ℓ : Loc nD τ sig) → Buf (Elt Ideal) ℓ) (c : Dev nD) :
    after (ValueL.ops (F := Ideal)) (launchContents m c) (Proc.devRef .tc main_arg3) = m ((c.tc : Thread nD τ).loc main_arg3) := by
  after_results_simp <;> rfl

set_option maxRecDepth 8192 in
set_option maxHeartbeats 100800000 in
theorem arg4_kept (m : (ℓ : Loc nD τ sig) → Buf (Elt Ideal) ℓ) (c : Dev nD) :
    after (ValueL.ops (F := Ideal)) (launchContents m c) (Proc.devRef .tc main_arg4) = m ((c.tc : Thread nD τ).loc main_arg4) := by
  after_results_simp <;> rfl

set_option maxRecDepth 8192 in
set_option maxHeartbeats 100800000 in
theorem arg5_kept (m : (ℓ : Loc nD τ sig) → Buf (Elt Ideal) ℓ) (c : Dev nD) :
    after (ValueL.ops (F := Ideal)) (launchContents m c) (Proc.devRef .tc main_arg5) = m ((c.tc : Thread nD τ).loc main_arg5) := by
  after_results_simp <;> rfl

set_option maxRecDepth 8192 in
set_option maxHeartbeats 100800000 in
theorem arg6_kept (m : (ℓ : Loc nD τ sig) → Buf (Elt Ideal) ℓ) (c : Dev nD) :
    after (ValueL.ops (F := Ideal)) (launchContents m c) (Proc.devRef .tc main_arg6) = m ((c.tc : Thread nD τ).loc main_arg6) := by
  after_results_simp <;> rfl

set_option maxRecDepth 8192 in
set_option maxHeartbeats 100800000 in
theorem arg7_kept (m : (ℓ : Loc nD τ sig) → Buf (Elt Ideal) ℓ) (c : Dev nD) :
    after (ValueL.ops (F := Ideal)) (launchContents m c) (Proc.devRef .tc main_arg7) = m ((c.tc : Thread nD τ).loc main_arg7) := by
  after_results_simp <;> rfl

set_option maxRecDepth 8192 in
set_option maxHeartbeats 100800000 in
theorem arg8_kept (m : (ℓ : Loc nD τ sig) → Buf (Elt Ideal) ℓ) (c : Dev nD) :
    after (ValueL.ops (F := Ideal)) (launchContents m c) (Proc.devRef .tc main_arg8) = m ((c.tc : Thread nD τ).loc main_arg8) := by
  after_results_simp <;> rfl

set_option maxRecDepth 8192 in
set_option maxHeartbeats 100800000 in
theorem arg9_kept (m : (ℓ : Loc nD τ sig) → Buf (Elt Ideal) ℓ) (c : Dev nD) :
    after (ValueL.ops (F := Ideal)) (launchContents m c) (Proc.devRef .tc main_arg9) = m ((c.tc : Thread nD τ).loc main_arg9) := by
  after_results_simp <;> rfl

set_option maxRecDepth 8192 in
set_option maxHeartbeats 100800000 in
theorem arg10_kept (m : (ℓ : Loc nD τ sig) → Buf (Elt Ideal) ℓ) (c : Dev nD) :
    after (ValueL.ops (F := Ideal)) (launchContents m c) (Proc.devRef .tc main_arg10) = m ((c.tc : Thread nD τ).loc main_arg10) := by
  after_results_simp <;> rfl

/-! ## The run -/

/-- Every weakly fair execution of the reference terminates with its result at the network of the launch contents of
    its arguments, and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v202) = Cert.Gin.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c main_v202).trans (result_eq m c)).trans (Cert.Gin.ref_is_net _ _ _ _ _ _ _ _ _ _ _),
      (h c main_arg0).trans (arg0_kept m c),
      (h c main_arg1).trans (arg1_kept m c),
      (h c main_arg2).trans (arg2_kept m c),
      (h c main_arg3).trans (arg3_kept m c),
      (h c main_arg4).trans (arg4_kept m c),
      (h c main_arg5).trans (arg5_kept m c),
      (h c main_arg6).trans (arg6_kept m c),
      (h c main_arg7).trans (arg7_kept m c),
      (h c main_arg8).trans (arg8_kept m c),
      (h c main_arg9).trans (arg9_kept m c),
      (h c main_arg10).trans (arg10_kept m c)⟩)
    (ValueL.run_all (F := Ideal) m ρ)

/-- Every weakly fair execution of the reference terminates with its arguments unchanged. -/
theorem ref_frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2) (ref_run m ρ)

end Cert.ReferenceIdeal.RefRun

end
-- ==== Proof.lean ====
/-
  Two programs for one graph network, equal over the extended reals.

  The network: three rounds over 50000 nodes with 64 features each — add to every node's row the sum of the rows its
  incoming edges name (a row gather and an accumulating row scatter over 800000 edges), apply a two-layer perceptron
  with rectifiers, normalise every feature column by its mean and variance over the nodes, scale by gamma, add beta,
  rectify — then sum the node rows of each of 256 graphs and apply one 64 x 1 read-out with a bias.

  The tiled program computes the perceptron and the normalisation in row tiles of 5000 nodes (ten tiles each, six
  tiled regions in all) and everything else with the same array operations as the reference.  It differs from the
  reference in two ways.  It feeds the matrix units narrower floats; over the extended reals a change of float
  format is the identity, and a tile's matrix product into a zero accumulator is the same finite sum as the whole
  product's entry.  And it normalises as  h * (gamma * rstd) + (beta - mean * (gamma * rstd))  where the reference
  computes  ((h - mean) * rstd) * gamma + beta;  the two agree by distributivity, which over the extended reals
  needs every quantity to be a real number.  That is what the precondition (every float input finite) gives: sums,
  products and maxima of reals are real, a mean over 50000 nodes is real, and the reciprocal deviation is the
  reciprocal square root of a mean of squares plus a positive epsilon, a positive real.  Reality is carried from
  round to round together with the equality.

  The frames of the two tiled programs are the generated ones; the reference's frame is its run with the result
  forgotten; the idealisation rewrote nothing, so its sanction is trivial.
-/
import proofs.«118327_j29411936043504_1_alg».proof.Defs
import proofs.«118327_j29411936043504_1_alg».proof.Proof.Gen.Kernel
import proofs.«118327_j29411936043504_1_alg».proof.Proof.Gen.Kernel.Skeleton
import proofs.«118327_j29411936043504_1_alg».proof.Proof.Gen.Kernel.Launch
import proofs.«118327_j29411936043504_1_alg».proof.Proof.Gen.Kernel.Points
import proofs.«118327_j29411936043504_1_alg».proof.Proof.Gen.Kernel.Frame
import proofs.«118327_j29411936043504_1_alg».proof.Proof.Gen.KernelIdeal
import proofs.«118327_j29411936043504_1_alg».proof.Proof.Gen.KernelIdeal.Skeleton
import proofs.«118327_j29411936043504_1_alg».proof.Proof.Gen.KernelIdeal.Launch
import proofs.«118327_j29411936043504_1_alg».proof.Proof.Gen.KernelIdeal.Points
import proofs.«118327_j29411936043504_1_alg».proof.Proof.Gen.KernelIdeal.Frame
import proofs.«118327_j29411936043504_1_alg».proof.Proof.Gen.ReferenceIdeal
import proofs.«118327_j29411936043504_1_alg».proof.Proof.Gen.Pre_finite_inputs
import proofs.«118327_j29411936043504_1_alg».proof.Proof.KernelRun
import proofs.«118327_j29411936043504_1_alg».proof.Proof.PreReal
import proofs.«118327_j29411936043504_1_alg».proof.Proof.KernelValue
import proofs.«118327_j29411936043504_1_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ => Cert.ReferenceIdeal.RefRun.ref_frame m ρ

/-- From memories that agree on the arguments, the tiled program's result buffer and the reference's both end at the
    network of the arguments: the tiled program's by the round-by-round account of its regions and host stretches
    (which uses that every float argument is real), the reference's by its run. -/
theorem algebraic : Cert.algebraic_KernelIdeal_ReferenceIdeal := by
  intro m g m' g' hpre hagree
  refine ⟨fun c => Cert.KernelIdeal.RunValue.result (F := Ideal) m g c, Cert.KernelIdeal.RunValue.run_result (F := Ideal) m g, ?_⟩
  refine (θ_run (Cert.ReferenceIdeal.defs (F := Ideal)) _ _).mono (fun _ h c => ⟨(h c).1.trans ?_, (h c).2⟩)
    (Cert.ReferenceIdeal.RefRun.ref_run m' g')
  obtain ⟨r0, r3, r4, r5, r6, r7, r8, _, _⟩ := Cert.KernelIdeal.PreReal.real_inputs m hpre c
  obtain ⟨e0, e1, e2, e3, e4, e5, e6, e7, e8, e9, e10⟩ := hagree c
  rw [e0, e1, e2, e3, e4, e5, e6, e7, e8, e9, e10]
  exact (Cert.KernelIdeal.HostValue.result_is_net m g c r0 r3 r4 r5 r6 r7 r8).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
